-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v128)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v128) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v157) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S800000 : Shape := ⟨1, ![800000]⟩
abbrev S2x128x128 : Shape := ⟨3, ![2, 128, 128]⟩
abbrev S2x128 : Shape := ⟨2, ![2, 128]⟩
abbrev S128x64 : Shape := ⟨2, ![128, 64]⟩
abbrev S64 : Shape := ⟨1, ![64]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S800000 : S_.BroadcastsInDim S800000 (![] : Fin 0 → Fin S800000.rank)
  reducesTo_S800000_S_d0 : S800000.ReducesTo [0] S_
  bcast_S_S2x128x128 : S_.BroadcastsInDim S2x128x128 (![] : Fin 0 → Fin S2x128x128.rank)
  reducesTo_S2x128x128_S_d0_1_2 : S2x128x128.ReducesTo [0, 1, 2] S_
  bcast_S_S2x128 : S_.BroadcastsInDim S2x128 (![] : Fin 0 → Fin S2x128.rank)
  reducesTo_S2x128_S_d0_1 : S2x128.ReducesTo [0, 1] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_

variable [Facts]

def fn_part2 {F : FTy → Type} [FloatOps F] (main_arg8 : FVec F S2x128 .f32) (main_arg9 : FVec F S128x64 .f32) (main_arg10 : FVec F S64 .f32) (main_v33 : IVec S_ 1) : IVec S_ 1 :=
  let main_v34 : FVec F S2x128 .f32 := Host.absf main_arg8
  let main_cst_12 : FVec F S_ .f32 := constant S_ .f32 0x7F800000#32
  let main_v35 : FVec F S2x128 .f32 := broadcastInDim S2x128 ![] bcast_S_S2x128 main_cst_12
  let main_v36 : IVec S2x128 1 := cmpf .olt main_v34 main_v35
  let main_c_13 : IVec S_ 1 := constantI S_ 1 1#1
  let main_v37 : IVec S_ 1 := (fun x v => Host.reduce IntOp.andi x v reducesTo_S2x128_S_d0_1 h_S_) main_v36 main_c_13
  let main_v38 : IVec S_ 1 := andi main_v33 main_v37
  let main_v39 : FVec F S128x64 .f32 := Host.absf main_arg9
  let main_cst_14 : FVec F S_ .f32 := constant S_ .f32 0x7F800000#32
  let main_v40 : FVec F S128x64 .f32 := broadcastInDim S128x64 ![] bcast_S_S128x64 main_cst_14
  let main_v41 : IVec S128x64 1 := cmpf .olt main_v39 main_v40
  let main_c_15 : IVec S_ 1 := constantI S_ 1 1#1
  let main_v42 : IVec S_ 1 := (fun x v => Host.reduce IntOp.andi x v reducesTo_S128x64_S_d0_1 h_S_) main_v41 main_c_15
  let main_v43 : IVec S_ 1 := andi main_v38 main_v42
  let main_v44 : FVec F S64 .f32 := Host.absf main_arg10
  let main_cst_16 : FVec F S_ .f32 := constant S_ .f32 0x7F800000#32
  let main_v45 : FVec F S64 .f32 := broadcastInDim S64 ![] bcast_S_S64 main_cst_16
  let main_v46 : IVec S64 1 := cmpf .olt main_v44 main_v45
  let main_c_17 : IVec S_ 1 := constantI S_ 1 1#1
  let main_v47 : IVec S_ 1 := (fun x v => Host.reduce IntOp.andi x v reducesTo_S64_S_d0 h_S_) main_v46 main_c_17
  let main_v48 : IVec S_ 1 := andi main_v43 main_v47
  main_v48

def fn_part1 {F : FTy → Type} [FloatOps F] (main_arg5 : FVec F S2x128x128 .f32) (main_arg6 : FVec F S2x128 .f32) (main_arg7 : FVec F S2x128 .f32) (main_arg8 : FVec F S2x128 .f32) (main_arg9 : FVec F S128x64 .f32) (main_arg10 : FVec F S64 .f32) (main_v13 : IVec S_ 1) (main_v16 : IVec S2x128x128 1) : IVec S_ 1 :=
  let main_c_5 : IVec S_ 1 := constantI S_ 1 1#1
  let main_v17 : IVec S_ 1 := (fun x v => Host.reduce IntOp.andi x v reducesTo_S2x128x128_S_d0_1_2 h_S_) main_v16 main_c_5
  let main_v18 : IVec S_ 1 := andi main_v13 main_v17
  let main_v19 : FVec F S2x128x128 .f32 := Host.absf main_arg5
  let main_cst_6 : FVec F S_ .f32 := constant S_ .f32 0x7F800000#32
  let main_v20 : FVec F S2x128x128 .f32 := broadcastInDim S2x128x128 ![] bcast_S_S2x128x128 main_cst_6
  let main_v21 : IVec S2x128x128 1 := cmpf .olt main_v19 main_v20
  let main_c_7 : IVec S_ 1 := constantI S_ 1 1#1
  let main_v22 : IVec S_ 1 := (fun x v => Host.reduce IntOp.andi x v reducesTo_S2x128x128_S_d0_1_2 h_S_) main_v21 main_c_7
  let main_v23 : IVec S_ 1 := andi main_v18 main_v22
  let main_v24 : FVec F S2x128 .f32 := Host.absf main_arg6
  let main_cst_8 : FVec F S_ .f32 := constant S_ .f32 0x7F800000#32
  let main_v25 : FVec F S2x128 .f32 := broadcastInDim S2x128 ![] bcast_S_S2x128 main_cst_8
  let main_v26 : IVec S2x128 1 := cmpf .olt main_v24 main_v25
  let main_c_9 : IVec S_ 1 := constantI S_ 1 1#1
  let main_v27 : IVec S_ 1 := (fun x v => Host.reduce IntOp.andi x v reducesTo_S2x128_S_d0_1 h_S_) main_v26 main_c_9
  let main_v28 : IVec S_ 1 := andi main_v23 main_v27
  let main_v29 : FVec F S2x128 .f32 := Host.absf main_arg7
  let main_cst_10 : FVec F S_ .f32 := constant S_ .f32 0x7F800000#32
  let main_v30 : FVec F S2x128 .f32 := broadcastInDim S2x128 ![] bcast_S_S2x128 main_cst_10
  let main_v31 : IVec S2x128 1 := cmpf .olt main_v29 main_v30
  let main_c_11 : IVec S_ 1 := constantI S_ 1 1#1
  let main_v32 : IVec S_ 1 := (fun x v => Host.reduce IntOp.andi x v reducesTo_S2x128_S_d0_1 h_S_) main_v31 main_c_11
  let main_v33 : IVec S_ 1 := andi main_v28 main_v32
  fn_part2 (F := F) main_arg8 main_arg9 main_arg10 main_v33

def fn {F : FTy → Type} [FloatOps F] (main_arg0 : FVec F S50000x128 .f32) (main_arg1 : IVec S2x800000 32) (main_arg2 : FVec F S800000 .f32) (main_arg3 : FVec F S2x128x128 .f32) (main_arg4 : FVec F S2x128x128 .f32) (main_arg5 : FVec F S2x128x128 .f32) (main_arg6 : FVec F S2x128 .f32) (main_arg7 : FVec F S2x128 .f32) (main_arg8 : FVec F S2x128 .f32) (main_arg9 : FVec F S128x64 .f32) (main_arg10 : FVec F S64 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S800000 .f32 := Host.absf main_arg2
  let main_cst_0 : FVec F S_ .f32 := constant S_ .f32 0x7F800000#32
  let main_v5 : FVec F S800000 .f32 := broadcastInDim S800000 ![] bcast_S_S800000 main_cst_0
  let main_v6 : IVec S800000 1 := cmpf .olt main_v4 main_v5
  let main_c_1 : IVec S_ 1 := constantI S_ 1 1#1
  let main_v7 : IVec S_ 1 := (fun x v => Host.reduce IntOp.andi x v reducesTo_S800000_S_d0 h_S_) main_v6 main_c_1
  let main_v8 : IVec S_ 1 := andi main_v3 main_v7
  let main_v9 : FVec F S2x128x128 .f32 := Host.absf main_arg3
  let main_cst_2 : FVec F S_ .f32 := constant S_ .f32 0x7F800000#32
  let main_v10 : FVec F S2x128x128 .f32 := broadcastInDim S2x128x128 ![] bcast_S_S2x128x128 main_cst_2
  let main_v11 : IVec S2x128x128 1 := cmpf .olt main_v9 main_v10
  let main_c_3 : IVec S_ 1 := constantI S_ 1 1#1
  let main_v12 : IVec S_ 1 := (fun x v => Host.reduce IntOp.andi x v reducesTo_S2x128x128_S_d0_1_2 h_S_) main_v11 main_c_3
  let main_v13 : IVec S_ 1 := andi main_v8 main_v12
  let main_v14 : FVec F S2x128x128 .f32 := Host.absf main_arg4
  let main_cst_4 : FVec F S_ .f32 := constant S_ .f32 0x7F800000#32
  let main_v15 : FVec F S2x128x128 .f32 := broadcastInDim S2x128x128 ![] bcast_S_S2x128x128 main_cst_4
  let main_v16 : IVec S2x128x128 1 := cmpf .olt main_v14 main_v15
  fn_part1 (F := F) main_arg5 main_arg6 main_arg7 main_arg8 main_arg9 main_arg10 main_v13 main_v16
-- ==== Kernel.lean ====
abbrev S50000x128 : Shape := ⟨2, ![50000, 128]⟩
abbrev S2x800000 : Shape := ⟨2, ![2, 800000]⟩
abbrev S800000 : Shape := ⟨1, ![800000]⟩
abbrev S2x128x128 : Shape := ⟨3, ![2, 128, 128]⟩
abbrev S2x128 : Shape := ⟨2, ![2, 128]⟩
abbrev S128x64 : Shape := ⟨2, ![128, 64]⟩
abbrev S64 : Shape := ⟨1, ![64]⟩
abbrev S1x800000 : Shape := ⟨2, ![1, 800000]⟩
abbrev S_ : Shape := ⟨0, ![]⟩
abbrev S50000 : Shape := ⟨1, ![50000]⟩
abbrev S800000x1 : Shape := ⟨2, ![800000, 1]⟩
abbrev S800000x128 : Shape := ⟨2, ![800000, 128]⟩
abbrev S800000x256 : Shape := ⟨2, ![800000, 256]⟩
abbrev S50000x256 : Shape := ⟨2, ![50000, 256]⟩
abbrev S1x128x128 : Shape := ⟨3, ![1, 128, 128]⟩
abbrev S128x128 : Shape := ⟨2, ![128, 128]⟩
abbrev S1x128 : Shape := ⟨2, ![1, 128]⟩
abbrev S128 : Shape := ⟨1, ![128]⟩
abbrev S5000x256 : Shape := ⟨2, ![5000, 256]⟩
abbrev S5000x128 : Shape := ⟨2, ![5000, 128]⟩
abbrev S5000 : Shape := ⟨1, ![5000]⟩
abbrev S5000x1 : Shape := ⟨2, ![5000, 1]⟩
abbrev S1x64 : Shape := ⟨2, ![1, 64]⟩
abbrev S50000x64 : Shape := ⟨2, ![50000, 64]⟩
abbrev S5000x64 : Shape := ⟨2, ![5000, 64]⟩

abbrev nBuf : Space → Nat
  | .hbm => 160
  | .vmem => 26
  | .smem => 0
  | _ => 0

abbrev hbmTy0_0 (i : Nat) : BufTy := match i % 128 with
  | 0 => ⟨S50000x128, .f32⟩
  | 1 => ⟨S2x800000, .i32⟩
  | 2 => ⟨S800000, .f32⟩
  | 3 => ⟨S2x128x128, .f32⟩
  | 4 => ⟨S2x128x128, .f32⟩
  | 5 => ⟨S2x128x128, .f32⟩
  | 6 => ⟨S2x128, .f32⟩
  | 7 => ⟨S2x128, .f32⟩
  | 8 => ⟨S2x128, .f32⟩
  | 9 => ⟨S128x64, .f32⟩
  | 10 => ⟨S64, .f32⟩
  | 11 => ⟨S1x800000, .i32⟩
  | 12 => ⟨S800000, .i32⟩
  | 13 => ⟨S1x800000, .i32⟩
  | 14 => ⟨S800000, .i32⟩
  | 15 => ⟨S800000, .f32⟩
  | 16 => ⟨S800000, .f32⟩
  | 17 => ⟨S800000, .f32⟩
  | 18 => ⟨S800000, .f32⟩
  | 19 => ⟨S_, .f32⟩
  | 20 => ⟨S50000, .f32⟩
  | 21 => ⟨S800000x1, .i32⟩
  | 22 => ⟨S50000, .f32⟩
  | 23 => ⟨S_, .f32⟩
  | 24 => ⟨S50000, .f32⟩
  | 25 => ⟨S800000x1, .i32⟩
  | 26 => ⟨S50000, .f32⟩
  | 27 => ⟨S_, .i32⟩
  | 28 => ⟨S800000, .i32⟩
  | 29 => ⟨S800000, .i1⟩
  | 30 => ⟨S_, .i32⟩
  | 31 => ⟨S800000, .i32⟩
  | 32 => ⟨S800000, .i32⟩
  | 33 => ⟨S800000, .i32⟩
  | 34 => ⟨S800000x1, .i32⟩
  | 35 => ⟨S800000, .f32⟩
  | 36 => ⟨S_, .i32⟩
  | 37 => ⟨S800000, .i32⟩
  | 38 => ⟨S800000, .i1⟩
  | 39 => ⟨S_, .i32⟩
  | 40 => ⟨S800000, .i32⟩
  | 41 => ⟨S800000, .i32⟩
  | 42 => ⟨S800000, .i32⟩
  | 43 => ⟨S800000x1, .i32⟩
  | 44 => ⟨S800000, .f32⟩
  | 45 => ⟨S800000, .f32⟩
  | 46 => ⟨S_, .f32⟩
  | 47 => ⟨S800000, .f32⟩
  | 48 => ⟨S800000, .f32⟩
  | 49 => ⟨S800000, .f32⟩
  | 50 => ⟨S800000, .f32⟩
  | 51 => ⟨S_, .f32⟩
  | 52 => ⟨S50000, .f32⟩
  | 53 => ⟨S800000x1, .i32⟩
  | 54 => ⟨S50000, .f32⟩
  | 55 => ⟨S_, .f32⟩
  | 56 => ⟨S50000, .f32⟩
  | 57 => ⟨S800000x1, .i32⟩
  | 58 => ⟨S50000, .f32⟩
  | 59 => ⟨S_, .i32⟩
  | 60 => ⟨S800000, .i32⟩
  | 61 => ⟨S800000, .i1⟩
  | 62 => ⟨S_, .i32⟩
  | 63 => ⟨S800000, .i32⟩
  | 64 => ⟨S800000, .i32⟩
  | 65 => ⟨S800000, .i32⟩
  | 66 => ⟨S800000x1, .i32⟩
  | 67 => ⟨S800000, .f32⟩
  | 68 => ⟨S_, .i32⟩
  | 69 => ⟨S800000, .i32⟩
  | 70 => ⟨S800000, .i1⟩
  | 71 => ⟨S_, .i32⟩
  | 72 => ⟨S800000, .i32⟩
  | 73 => ⟨S800000, .i32⟩
  | 74 => ⟨S800000, .i32⟩
  | 75 => ⟨S800000x1, .i32⟩
  | 76 => ⟨S800000, .f32⟩
  | 77 => ⟨S800000, .f32⟩
  | 78 => ⟨S_, .f32⟩
  | 79 => ⟨S800000, .f32⟩
  | 80 => ⟨S800000, .f32⟩
  | 81 => ⟨S800000, .f32⟩
  | 82 => ⟨S800000, .f32⟩
  | 83 => ⟨S50000x128, .bf16⟩
  | 84 => ⟨S_, .i32⟩
  | 85 => ⟨S800000, .i32⟩
  | 86 => ⟨S800000, .i1⟩
  | 87 => ⟨S_, .i32⟩
  | 88 => ⟨S800000, .i32⟩
  | 89 => ⟨S800000, .i32⟩
  | 90 => ⟨S800000, .i32⟩
  | 91 => ⟨S800000x1, .i32⟩
  | 92 => ⟨S800000x128, .bf16⟩
  | 93 => ⟨S800000x128, .f32⟩
  | 94 => ⟨S800000x1, .f32⟩
  | 95 => ⟨S800000x128, .f32⟩
  | 96 => ⟨S800000x128, .f32⟩
  | 97 => ⟨S800000x1, .f32⟩
  | 98 => ⟨S800000x128, .f32⟩
  | 99 => ⟨S800000x128, .f32⟩
  | 100 => ⟨S800000x256, .f32⟩
  | 101 => ⟨S_, .f32⟩
  | 102 => ⟨S50000x256, .f32⟩
  | 103 => ⟨S800000x1, .i32⟩
  | 104 => ⟨S50000x256, .f32⟩
  | 105 => ⟨S1x128x128, .f32⟩
  | 106 => ⟨S128x128, .f32⟩
  | 107 => ⟨S1x128x128, .f32⟩
  | 108 => ⟨S128x128, .f32⟩
  | 109 => ⟨S1x128x128, .f32⟩
  | 110 => ⟨S128x128, .f32⟩
  | 111 => ⟨S1x128, .f32⟩
  | 112 => ⟨S128, .f32⟩
  | 113 => ⟨S1x128, .f32⟩
  | 114 => ⟨S1x128, .f32⟩
  | 115 => ⟨S128, .f32⟩
  | 116 => ⟨S1x128, .f32⟩
  | 117 => ⟨S1x128, .f32⟩
  | 118 => ⟨S128, .f32⟩
  | 119 => ⟨S1x128, .f32⟩
  | 120 => ⟨S50000x128, .f32⟩
  | 121 => ⟨S50000x128, .bf16⟩
  | 122 => ⟨S_, .i32⟩
  | 123 => ⟨S800000, .i32⟩
  | 124 => ⟨S800000, .i1⟩
  | 125 => ⟨S_, .i32⟩
  | 126 => ⟨S800000, .i32⟩
  | 127 => ⟨S800000, .i32⟩
  | _ => ⟨S50000x128, .f32⟩

abbrev hbmTy0_1 (i : Nat) : BufTy := match i % 128 with
  | 0 => ⟨S800000, .i32⟩
  | 1 => ⟨S800000x1, .i32⟩
  | 2 => ⟨S800000x128, .bf16⟩
  | 3 => ⟨S800000x128, .f32⟩
  | 4 => ⟨S800000x1, .f32⟩
  | 5 => ⟨S800000x128, .f32⟩
  | 6 => ⟨S800000x128, .f32⟩
  | 7 => ⟨S800000x1, .f32⟩
  | 8 => ⟨S800000x128, .f32⟩
  | 9 => ⟨S800000x128, .f32⟩
  | 10 => ⟨S800000x256, .f32⟩
  | 11 => ⟨S_, .f32⟩
  | 12 => ⟨S50000x256, .f32⟩
  | 13 => ⟨S800000x1, .i32⟩
  | 14 => ⟨S50000x256, .f32⟩
  | 15 => ⟨S1x128x128, .f32⟩
  | 16 => ⟨S128x128, .f32⟩
  | 17 => ⟨S1x128x128, .f32⟩
  | 18 => ⟨S128x128, .f32⟩
  | 19 => ⟨S1x128x128, .f32⟩
  | 20 => ⟨S128x128, .f32⟩
  | 21 => ⟨S1x128, .f32⟩
  | 22 => ⟨S128, .f32⟩
  | 23 => ⟨S1x128, .f32⟩
  | 24 => ⟨S1x128, .f32⟩
  | 25 => ⟨S128, .f32⟩
  | 26 => ⟨S1x128, .f32⟩
  | 27 => ⟨S1x128, .f32⟩
  | 28 => ⟨S128, .f32⟩
  | 29 => ⟨S1x128, .f32⟩
  | 30 => ⟨S1x64, .f32⟩
  | 31 => ⟨S50000x64, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | .local _ .vmem, ⟨0, _⟩ => ⟨S5000x256, .f32⟩
  | .local _ .vmem, ⟨1, _⟩ => ⟨S5000x256, .f32⟩
  | .local _ .vmem, ⟨2, _⟩ => ⟨S5000x128, .f32⟩
  | .local _ .vmem, ⟨3, _⟩ => ⟨S5000x128, .f32⟩
  | .local _ .vmem, ⟨4, _⟩ => ⟨S128x128, .f32⟩
  | .local _ .vmem, ⟨5, _⟩ => ⟨S128x128, .f32⟩
  | .local _ .vmem, ⟨6, _⟩ => ⟨S128x128, .f32⟩
  | .local _ .vmem, ⟨7, _⟩ => ⟨S1x128, .f32⟩
  | .local _ .vmem, ⟨8, _⟩ => ⟨S1x128, .f32⟩
  | .local _ .vmem, ⟨9, _⟩ => ⟨S1x128, .f32⟩
  | .local _ .vmem, ⟨10, _⟩ => ⟨S5000x128, .f32⟩
  | .local _ .vmem, ⟨11, _⟩ => ⟨S5000x128, .f32⟩
  | .local _ .vmem, ⟨12, _⟩ => ⟨S5000x256, .f32⟩
  | .local _ .vmem, ⟨13, _⟩ => ⟨S5000x256, .f32⟩
  | .local _ .vmem, ⟨14, _⟩ => ⟨S5000x128, .f32⟩
  | .local _ .vmem, ⟨15, _⟩ => ⟨S5000x128, .f32⟩
  | .local _ .vmem, ⟨16, _⟩ => ⟨S128x128, .f32⟩
  | .local _ .vmem, ⟨17, _⟩ => ⟨S128x128, .f32⟩
  | .local _ .vmem, ⟨18, _⟩ => ⟨S128x128, .f32⟩
  | .local _ .vmem, ⟨19, _⟩ => ⟨S1x128, .f32⟩
  | .local _ .vmem, ⟨20, _⟩ => ⟨S1x128, .f32⟩
  | .local _ .vmem, ⟨21, _⟩ => ⟨S1x128, .f32⟩
  | .local _ .vmem, ⟨22, _⟩ => ⟨S128x64, .f32⟩
  | .local _ .vmem, ⟨23, _⟩ => ⟨S1x64, .f32⟩
  | .local _ .vmem, ⟨24, _⟩ => ⟨S5000x64, .f32⟩
  | .local _ .vmem, ⟨25, _⟩ => ⟨S5000x64, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_cst : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_cst_0 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_c : Ref sig .tc := ⟨.hbm, 27, rfl⟩
abbrev main_v14 : Ref sig .tc := ⟨.hbm, 28, rfl⟩
abbrev main_v15 : Ref sig .tc := ⟨.hbm, 29, rfl⟩
abbrev main_c_1 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_c_2 : Ref sig .tc := ⟨.hbm, 36, rfl⟩
abbrev main_v21 : Ref sig .tc := ⟨.hbm, 37, rfl⟩
abbrev main_v22 : Ref sig .tc := ⟨.hbm, 38, rfl⟩
abbrev main_c_3 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_cst_4 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_cst_5 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_cst_6 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_c_7 : Ref sig .tc := ⟨.hbm, 59, rfl⟩
abbrev main_v39 : Ref sig .tc := ⟨.hbm, 60, rfl⟩
abbrev main_v40 : Ref sig .tc := ⟨.hbm, 61, rfl⟩
abbrev main_c_8 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_c_9 : Ref sig .tc := ⟨.hbm, 68, rfl⟩
abbrev main_v46 : Ref sig .tc := ⟨.hbm, 69, rfl⟩
abbrev main_v47 : Ref sig .tc := ⟨.hbm, 70, rfl⟩
abbrev main_c_10 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_cst_11 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_c_12 : Ref sig .tc := ⟨.hbm, 84, rfl⟩
abbrev main_v59 : Ref sig .tc := ⟨.hbm, 85, rfl⟩
abbrev main_v60 : Ref sig .tc := ⟨.hbm, 86, rfl⟩
abbrev main_c_13 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_v65 : Ref sig .tc := ⟨.hbm, 92, rfl⟩
abbrev main_v66 : Ref sig .tc := ⟨.hbm, 93, rfl⟩
abbrev main_v67 : Ref sig .tc := ⟨.hbm, 94, rfl⟩
abbrev main_v68 : Ref sig .tc := ⟨.hbm, 95, rfl⟩
abbrev main_v69 : Ref sig .tc := ⟨.hbm, 96, rfl⟩
abbrev main_v70 : Ref sig .tc := ⟨.hbm, 97, rfl⟩
abbrev main_v71 : Ref sig .tc := ⟨.hbm, 98, rfl⟩
abbrev main_v72 : Ref sig .tc := ⟨.hbm, 99, rfl⟩
abbrev main_v73 : Ref sig .tc := ⟨.hbm, 100, rfl⟩
abbrev main_cst_14 : Ref sig .tc := ⟨.hbm, 101, rfl⟩
abbrev main_v74 : Ref sig .tc := ⟨.hbm, 102, rfl⟩
abbrev main_v75 : Ref sig .tc := ⟨.hbm, 103, rfl⟩
abbrev main_v76 : Ref sig .tc := ⟨.hbm, 104, rfl⟩
abbrev main_v77 : Ref sig .tc := ⟨.hbm, 105, rfl⟩
abbrev main_v78 : Ref sig .tc := ⟨.hbm, 106, rfl⟩
abbrev main_v79 : Ref sig .tc := ⟨.hbm, 107, rfl⟩
abbrev main_v80 : Ref sig .tc := ⟨.hbm, 108, rfl⟩
abbrev main_v81 : Ref sig .tc := ⟨.hbm, 109, rfl⟩
abbrev main_v82 : Ref sig .tc := ⟨.hbm, 110, rfl⟩
abbrev main_v83 : Ref sig .tc := ⟨.hbm, 111, rfl⟩
abbrev main_v84 : Ref sig .tc := ⟨.hbm, 112, rfl⟩
abbrev main_v85 : Ref sig .tc := ⟨.hbm, 113, rfl⟩
abbrev main_v86 : Ref sig .tc := ⟨.hbm, 114, rfl⟩
abbrev main_v87 : Ref sig .tc := ⟨.hbm, 115, rfl⟩
abbrev main_v88 : Ref sig .tc := ⟨.hbm, 116, rfl⟩
abbrev main_v89 : Ref sig .tc := ⟨.hbm, 117, rfl⟩
abbrev main_v90 : Ref sig .tc := ⟨.hbm, 118, rfl⟩
abbrev main_v91 : Ref sig .tc := ⟨.hbm, 119, rfl⟩
abbrev main_v92 : Ref sig .tc := ⟨.hbm, 120, rfl⟩
abbrev main_v93 : Ref sig .tc := ⟨.hbm, 121, rfl⟩
abbrev main_c_15 : Ref sig .tc := ⟨.hbm, 122, rfl⟩
abbrev main_v94 : Ref sig .tc := ⟨.hbm, 123, rfl⟩
abbrev main_v95 : Ref sig .tc := ⟨.hbm, 124, rfl⟩
abbrev main_c_16 : Ref sig .tc := ⟨.hbm, 125, rfl⟩
abbrev main_v96 : Ref sig .tc := ⟨.hbm, 126, rfl⟩
abbrev main_v97 : Ref sig .tc := ⟨.hbm, 127, rfl⟩
abbrev main_v98 : Ref sig .tc := ⟨.hbm, 128, rfl⟩
abbrev main_v99 : Ref sig .tc := ⟨.hbm, 129, rfl⟩
abbrev main_v100 : Ref sig .tc := ⟨.hbm, 130, rfl⟩
abbrev main_v101 : Ref sig .tc := ⟨.hbm, 131, rfl⟩
abbrev main_v102 : Ref sig .tc := ⟨.hbm, 132, rfl⟩
abbrev main_v103 : Ref sig .tc := ⟨.hbm, 133, rfl⟩
abbrev main_v104 : Ref sig .tc := ⟨.hbm, 134, rfl⟩
abbrev main_v105 : Ref sig .tc := ⟨.hbm, 135, rfl⟩
abbrev main_v106 : Ref sig .tc := ⟨.hbm, 136, rfl⟩
abbrev main_v107 : Ref sig .tc := ⟨.hbm, 137, rfl⟩
abbrev main_v108 : Ref sig .tc := ⟨.hbm, 138, rfl⟩
abbrev main_cst_17 : Ref sig .tc := ⟨.hbm, 139, rfl⟩
abbrev main_v109 : Ref sig .tc := ⟨.hbm, 140, rfl⟩
abbrev main_v110 : Ref sig .tc := ⟨.hbm, 141, rfl⟩
abbrev main_v111 : Ref sig .tc := ⟨.hbm, 142, rfl⟩
abbrev main_v112 : Ref sig .tc := ⟨.hbm, 143, rfl⟩
abbrev main_v113 : Ref sig .tc := ⟨.hbm, 144, rfl⟩
abbrev main_v114 : Ref sig .tc := ⟨.hbm, 145, rfl⟩
abbrev main_v115 : Ref sig .tc := ⟨.hbm, 146, rfl⟩
abbrev main_v116 : Ref sig .tc := ⟨.hbm, 147, rfl⟩
abbrev main_v117 : Ref sig .tc := ⟨.hbm, 148, rfl⟩
abbrev main_v118 : Ref sig .tc := ⟨.hbm, 149, rfl⟩
abbrev main_v119 : Ref sig .tc := ⟨.hbm, 150, rfl⟩
abbrev main_v120 : Ref sig .tc := ⟨.hbm, 151, rfl⟩
abbrev main_v121 : Ref sig .tc := ⟨.hbm, 152, rfl⟩
abbrev main_v122 : Ref sig .tc := ⟨.hbm, 153, rfl⟩
abbrev main_v123 : Ref sig .tc := ⟨.hbm, 154, rfl⟩
abbrev main_v124 : Ref sig .tc := ⟨.hbm, 155, rfl⟩
abbrev main_v125 : Ref sig .tc := ⟨.hbm, 156, rfl⟩
abbrev main_v126 : Ref sig .tc := ⟨.hbm, 157, rfl⟩
abbrev main_v127 : Ref sig .tc := ⟨.hbm, 158, rfl⟩
abbrev main_v128 : Ref sig .tc := ⟨.hbm, 159, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg8_1 : Ref sig .tc := ⟨.vmem, 11, rfl⟩
abbrev cc1_stg0_0 : Ref sig .tc := ⟨.vmem, 12, rfl⟩
abbrev cc1_stg0_1 : Ref sig .tc := ⟨.vmem, 13, rfl⟩
abbrev cc1_stg1_0 : Ref sig .tc := ⟨.vmem, 14, rfl⟩
abbrev cc1_stg1_1 : Ref sig .tc := ⟨.vmem, 15, rfl⟩
abbrev cc1_stg2_0 : Ref sig .tc := ⟨.vmem, 16, rfl⟩
abbrev cc1_stg3_0 : Ref sig .tc := ⟨.vmem, 17, rfl⟩
abbrev cc1_stg4_0 : Ref sig .tc := ⟨.vmem, 18, rfl⟩
abbrev cc1_stg5_0 : Ref sig .tc := ⟨.vmem, 19, rfl⟩
abbrev cc1_stg6_0 : Ref sig .tc := ⟨.vmem, 20, rfl⟩
abbrev cc1_stg7_0 : Ref sig .tc := ⟨.vmem, 21, rfl⟩
abbrev cc1_stg8_0 : Ref sig .tc := ⟨.vmem, 22, rfl⟩
abbrev cc1_stg9_0 : Ref sig .tc := ⟨.vmem, 23, rfl⟩
abbrev cc1_stg10_0 : Ref sig .tc := ⟨.vmem, 24, rfl⟩
abbrev cc1_stg10_1 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem8_1 : DmaSem sig := 11
abbrev cc1_sem0_0 : DmaSem sig := 12
abbrev cc1_sem0_1 : DmaSem sig := 13
abbrev cc1_sem1_0 : DmaSem sig := 14
abbrev cc1_sem1_1 : DmaSem sig := 15
abbrev cc1_sem2_0 : DmaSem sig := 16
abbrev cc1_sem3_0 : DmaSem sig := 17
abbrev cc1_sem4_0 : DmaSem sig := 18
abbrev cc1_sem5_0 : DmaSem sig := 19
abbrev cc1_sem6_0 : DmaSem sig := 20
abbrev cc1_sem7_0 : DmaSem sig := 21
abbrev cc1_sem8_0 : DmaSem sig := 22
abbrev cc1_sem9_0 : DmaSem sig := 23
abbrev cc1_sem10_0 : DmaSem sig := 24
abbrev cc1_sem10_1 : DmaSem sig := 25

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S5000x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_10 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x128 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S1x128 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S128x64 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 1 → Memref sig .tc .vmem S1x64 .f32 := fun | 0 => Memref.whole cc1_stg9_0 | ⟨_ + 1, h⟩ => absurd h (Nat.not_lt.2 (Nat.le_add_left _ _))
abbrev sem1_9 : Fin 1 → DmaSem sig := fun | 0 => cc1_sem9_0 | ⟨_ + 1, h⟩ => absurd h (Nat.not_lt.2 (Nat.le_add_left _ _))
abbrev reads1_9 : Fin grid1.rank → Bool := ![false]

abbrev stage1_10 : Fin 2 → Memref sig .tc .vmem S5000x64 .f32 := fun | 0 => Memref.whole cc1_stg10_0 | 1 => Memref.whole cc1_stg10_1 | ⟨_ + 2, h⟩ => absurd h (Nat.not_lt.2 (Nat.le_add_left _ _))
abbrev sem1_10 : Fin 2 → DmaSem sig := fun | 0 => cc1_sem10_0 | 1 => cc1_sem10_1 | ⟨_ + 2, h⟩ => absurd h (Nat.not_lt.2 (Nat.le_add_left _ _))
abbrev reads1_10 : Fin grid1.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S50000 : S_.BroadcastsInDim S50000 (![] : Fin 0 → Fin S50000.rank)
  bcast_S800000_S800000x1_0 : S800000.BroadcastsInDim S800000x1 (![0] : Fin 1 → Fin S800000x1.rank)
  bcast_S_S800000 : S_.BroadcastsInDim S800000 (![] : Fin 0 → Fin S800000.rank)
  bitsLt_bf16_f32 : FTy.bits .bf16 < FTy.bits .f32
  bcast_S800000x1_S800000x128_0_1 : S800000x1.BroadcastsInDim S800000x128 (![0, 1] : Fin 2 → Fin S800000x128.rank)
  concatenates_S800000x128_S800000x128_S800000x256_d1 : Shape.Concatenates [S800000x128, S800000x128] S800000x256 1
  bcast_S_S50000x256 : S_.BroadcastsInDim S50000x256 (![] : Fin 0 → Fin S50000x256.rank)
  slices_S2x128x128_S1x128x128_0_0_0 : S2x128x128.Slices ![0, 0, 0] S1x128x128
  shapeCasts_S1x128x128_S128x128 : S1x128x128.ShapeCasts S128x128
  slices_S2x128_S1x128_0_0 : S2x128.Slices ![0, 0] S1x128
  shapeCasts_S1x128_S128 : S1x128.ShapeCasts S128
  shapeCasts_S128_S1x128 : S128.ShapeCasts S1x128
  inb_S5000x256_S5000x128_0_0 : ∀ a, (![0, 0] : Fin 2 → Nat) a + S5000x128.size a ≤ S5000x256.size a
  h_S5000x128 : 0 < S5000x128.numel
  shapeCasts_S5000x128_S5000x128 : S5000x128.ShapeCasts S5000x128
  inb_S5000x256_S5000x128_0_128 : ∀ a, (![0, 128] : Fin 2 → Nat) a + S5000x128.size a ≤ S5000x256.size a
  inb_S5000x128_S5000x128_0_0 : ∀ a, (![0, 0] : Fin 2 → Nat) a + S5000x128.size a ≤ S5000x128.size a
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  reduces_S5000x128_S5000 : S5000x128.Reduces [1] S5000
  shapeCasts_S5000_S5000x1 : S5000.ShapeCasts S5000x1
  broadcasts_S5000x1_S5000x128 : S5000x1.Broadcasts S5000x128
  slices_S2x128x128_S1x128x128_1_0_0 : S2x128x128.Slices ![1, 0, 0] S1x128x128
  slices_S2x128_S1x128_1_0 : S2x128.Slices ![1, 0] S1x128
  shapeCasts_S64_S1x64 : S64.ShapeCasts S1x64
  inb_S128x64_S128x64_0_0 : ∀ a, (![0, 0] : Fin 2 → Nat) a + S128x64.size a ≤ S128x64.size a
  h_S128x64 : 0 < S128x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  inb_S5000x64_S5000x64_0_0 : ∀ a, (![0, 0] : Fin 2 → Nat) a + S5000x64.size a ≤ S5000x64.size a
  h_S5000x64 : 0 < S5000x64.numel
  scatter_S50000_S800000x1_S800000_n_0_0_1_wf : ScatterDims.WF S50000 S800000x1 S800000 [] [0] [0] 1
  gather_S50000_S800000x1_S800000_n_0_n_n_0_1_1_wf : GatherDims.WF S50000 S800000x1 S800000 [] [0] [] [0] [] 1 ![1]
  gather_S50000x128_S800000x1_S800000x128_1_0_n_n_0_1_1128_wf : GatherDims.WF S50000x128 S800000x1 S800000x128 [1] [0] [] [0] [] 1 ![1, 128]
  scatter_S50000x256_S800000x1_S800000x256_1_0_0_1_wf : ScatterDims.WF S50000x256 S800000x1 S800000x256 [1] [0] [0] 1
  dot_S5000x128_S128x128_S5000x128_1_0_0_1_n_n_wf : DotDims.WF S5000x128 S128x128 S5000x128 [1] [0] [0] [1] [] []
  dot_S5000x128_S128x64_S5000x64_1_0_0_1_n_n_wf : DotDims.WF S5000x128 S128x64 S5000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x256.size a ≤ S50000x256.size a
  hwx0_0 : ∀ i : grid0.Coords, EltTy.bits .f32 = 32 ∨ (Rect.block (s := S50000x256) S5000x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x128.size a ≤ S50000x128.size a
  hwx0_1 : ∀ i : grid0.Coords, EltTy.bits .f32 = 32 ∨ (Rect.block (s := S50000x128) S5000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .f32 = 32 ∨ (Rect.block (s := S128x128) S128x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x128.size a ≤ S1x128.size a
  hwx0_5 : ∀ i : grid0.Coords, EltTy.bits .f32 = 32 ∨ (Rect.block (s := S1x128) S1x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x128.size a ≤ S1x128.size a
  hwx0_6 : ∀ i : grid0.Coords, EltTy.bits .f32 = 32 ∨ (Rect.block (s := S1x128) S1x128.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x128.size a ≤ S1x128.size a
  hwx0_7 : ∀ i : grid0.Coords, EltTy.bits .f32 = 32 ∨ (Rect.block (s := S1x128) S1x128.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S5000x128.size a ≤ S50000x128.size a
  hwx0_8 : ∀ i : grid0.Coords, EltTy.bits .f32 = 32 ∨ (Rect.block (s := S50000x128) S5000x128.size (cc0_transform_8 i) (hinb0_8 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x256.size a ≤ S50000x256.size a
  hwx1_0 : ∀ i : grid1.Coords, EltTy.bits .f32 = 32 ∨ (Rect.block (s := S50000x256) S5000x256.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S50000x128.size a
  hwx1_1 : ∀ i : grid1.Coords, EltTy.bits .f32 = 32 ∨ (Rect.block (s := S50000x128) S5000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .f32 = 32 ∨ (Rect.block (s := S128x128) S128x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128x128.size a ≤ S128x128.size a
  hwx1_4 : ∀ i : grid1.Coords, EltTy.bits .f32 = 32 ∨ (Rect.block (s := S128x128) S128x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x128.size a ≤ S1x128.size a
  hwx1_5 : ∀ i : grid1.Coords, EltTy.bits .f32 = 32 ∨ (Rect.block (s := S1x128) S1x128.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x128.size a ≤ S1x128.size a
  hwx1_6 : ∀ i : grid1.Coords, EltTy.bits .f32 = 32 ∨ (Rect.block (s := S1x128) S1x128.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S1x128.size a ≤ S1x128.size a
  hwx1_7 : ∀ i : grid1.Coords, EltTy.bits .f32 = 32 ∨ (Rect.block (s := S1x128) S1x128.size (cc1_transform_7 i) (hinb1_7 i)).WholeWords (EltTy.packing .f32)
  hstage1_8 : ∀ j, (stage1_8 j).IsWhole
  nbuf1_8 : grid1.bufCount reads1_8 true = 1
  hreads1_8 : ∀ i i' : grid1.Coords, (∀ a, reads1_8 a = true → i a = i' a) → cc1_transform_8 i = cc1_transform_8 i'
  hinb1_8 : ∀ (i : grid1.Coords) a, (cc1_transform_8 i a + 1) * S128x64.size a ≤ S128x64.size a
  hwx1_8 : ∀ i : grid1.Coords, EltTy.bits .f32 = 32 ∨ (Rect.block (s := S128x64) S128x64.size (cc1_transform_8 i) (hinb1_8 i)).WholeWords (EltTy.packing .f32)
  hstage1_9 : ∀ j, (stage1_9 j).IsWhole
  nbuf1_9 : grid1.bufCount reads1_9 true = 1
  hreads1_9 : ∀ i i' : grid1.Coords, (∀ a, reads1_9 a = true → i a = i' a) → cc1_transform_9 i = cc1_transform_9 i'
  hinb1_9 : ∀ (i : grid1.Coords) a, (cc1_transform_9 i a + 1) * S1x64.size a ≤ S1x64.size a
  hwx1_9 : ∀ i : grid1.Coords, EltTy.bits .f32 = 32 ∨ (Rect.block (s := S1x64) S1x64.size (cc1_transform_9 i) (hinb1_9 i)).WholeWords (EltTy.packing .f32)
  hstage1_10 : ∀ j, (stage1_10 j).IsWhole
  nbuf1_10 : grid1.bufCount reads1_10 false = 2
  hreads1_10 : ∀ i i' : grid1.Coords, (∀ a, reads1_10 a = true → i a = i' a) → cc1_transform_10 i = cc1_transform_10 i'
  hinb1_10 : ∀ (i : grid1.Coords) a, (cc1_transform_10 i a + 1) * S5000x64.size a ≤ S50000x64.size a
  hwx1_10 : ∀ i : grid1.Coords, EltTy.bits .f32 = 32 ∨ (Rect.block (s := S50000x64) S5000x64.size (cc1_transform_10 i) (hinb1_10 i)).WholeWords (EltTy.packing .f32)

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000_S800000x1_S800000_n_0_n_n_0_1_1 : GatherDims S50000 S800000x1 S800000 where
  offsetDims := []
  collapsedSliceDims := [0]
  operandBatchingDims := []
  startIndicesBatchingDims := []
  startIndexMap := [0]
  indexVectorDim := 1
  sliceSizes := ![1]
  wf := gather_S50000_S800000x1_S800000_n_0_n_n_0_1_1_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x256_S800000x1_S800000x256_1_0_0_1 : ScatterDims S50000x256 S800000x1 S800000x256 where
  updateWindowDims := [1]
  insertedWindowDims := [0]
  scatterDimsToOperandDims := [0]
  indexVectorDim := 1
  wf := scatter_S50000x256_S800000x1_S800000x256_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf

abbrev win0_0 : Pipeline.Window sig grid0 :=
  Pipeline.Window.ofSpec (Memref.whole main_v76) S5000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S5000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v78) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v80) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v82) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v85) S1x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v88) S1x128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v91) S1x128.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v92) S5000x128.size cc0_transform_8 reads0_8 true false 2 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

abbrev win1_0 : Pipeline.Window sig grid1 :=
  Pipeline.Window.ofSpec (Memref.whole main_v111) S5000x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v92) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v113) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v115) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v117) S128x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v120) S1x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v123) S1x128.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v126) S1x128.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_arg9) S128x64.size cc1_transform_8 reads1_8 false true 1 stage1_8 sem1_8
    hrank1 hreads1_8 hinb1_8 nbuf1_8 (Memref.isWhole_whole _) hwx1_8 hstage1_8

abbrev win1_9 : Pipeline.Window sig grid1 :=
  Pipeline.Window.ofSpec (Memref.whole main_v127) S1x64.size cc1_transform_9 reads1_9 false true 1 stage1_9 sem1_9
    hrank1 hreads1_9 hinb1_9 nbuf1_9 (Memref.isWhole_whole _) hwx1_9 hstage1_9

abbrev win1_10 : Pipeline.Window sig grid1 :=
  Pipeline.Window.ofSpec (Memref.whole main_v128) S5000x64.size cc1_transform_10 reads1_10 true false 2 stage1_10 sem1_10
    hrank1 hreads1_10 hinb1_10 nbuf1_10 (Memref.isWhole_whole _) hwx1_10 hstage1_10

abbrev win1 : Fin 11 → Pipeline.Window sig grid1 := fun | 0 => win1_0 | 1 => win1_1 | 2 => win1_2 | 3 => win1_3 | 4 => win1_4 | 5 => win1_5 | 6 => win1_6 | 7 => win1_7 | 8 => win1_8 | 9 => win1_9 | 10 => win1_10 | ⟨_ + 11, h⟩ => absurd h (Nat.not_lt.2 (Nat.le_add_left _ _))
abbrev spec1 : Fin 11 → Pipeline.WinSpec sig grid1.rank := fun w => (win1 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S800000 : Shape := ⟨1, ![800000]⟩
abbrev S2x128x128 : Shape := ⟨3, ![2, 128, 128]⟩
abbrev S2x128 : Shape := ⟨2, ![2, 128]⟩
abbrev S128x64 : Shape := ⟨2, ![128, 64]⟩
abbrev S64 : Shape := ⟨1, ![64]⟩
abbrev S1x800000 : Shape := ⟨2, ![1, 800000]⟩
abbrev S_ : Shape := ⟨0, ![]⟩
abbrev S50000 : Shape := ⟨1, ![50000]⟩
abbrev S800000x1 : Shape := ⟨2, ![800000, 1]⟩
abbrev S800000x128 : Shape := ⟨2, ![800000, 128]⟩
abbrev S1x128x128 : Shape := ⟨3, ![1, 128, 128]⟩
abbrev S128x128 : Shape := ⟨2, ![128, 128]⟩
abbrev S1x128 : Shape := ⟨2, ![1, 128]⟩
abbrev S128 : Shape := ⟨1, ![128]⟩
abbrev S50000x1 : Shape := ⟨2, ![50000, 1]⟩
abbrev S50000x64 : Shape := ⟨2, ![50000, 64]⟩
abbrev S1x64 : Shape := ⟨2, ![1, 64]⟩

abbrev nBuf : Space → Nat
  | .hbm => 198
  | .vmem => 0
  | .smem => 0
  | _ => 0

abbrev hbmTy0_0 (i : Nat) : BufTy := match i % 128 with
  | 0 => ⟨S50000x128, .f32⟩
  | 1 => ⟨S2x800000, .i32⟩
  | 2 => ⟨S800000, .f32⟩
  | 3 => ⟨S2x128x128, .f32⟩
  | 4 => ⟨S2x128x128, .f32⟩
  | 5 => ⟨S2x128x128, .f32⟩
  | 6 => ⟨S2x128, .f32⟩
  | 7 => ⟨S2x128, .f32⟩
  | 8 => ⟨S2x128, .f32⟩
  | 9 => ⟨S128x64, .f32⟩
  | 10 => ⟨S64, .f32⟩
  | 11 => ⟨S1x800000, .i32⟩
  | 12 => ⟨S800000, .i32⟩
  | 13 => ⟨S1x800000, .i32⟩
  | 14 => ⟨S800000, .i32⟩
  | 15 => ⟨S800000, .f32⟩
  | 16 => ⟨S800000, .f32⟩
  | 17 => ⟨S800000, .f32⟩
  | 18 => ⟨S800000, .f32⟩
  | 19 => ⟨S_, .f32⟩
  | 20 => ⟨S50000, .f32⟩
  | 21 => ⟨S800000x1, .i32⟩
  | 22 => ⟨S50000, .f32⟩
  | 23 => ⟨S_, .f32⟩
  | 24 => ⟨S50000, .f32⟩
  | 25 => ⟨S800000x1, .i32⟩
  | 26 => ⟨S50000, .f32⟩
  | 27 => ⟨S_, .i32⟩
  | 28 => ⟨S800000, .i32⟩
  | 29 => ⟨S800000, .i1⟩
  | 30 => ⟨S_, .i32⟩
  | 31 => ⟨S800000, .i32⟩
  | 32 => ⟨S800000, .i32⟩
  | 33 => ⟨S800000, .i32⟩
  | 34 => ⟨S800000x1, .i32⟩
  | 35 => ⟨S800000, .f32⟩
  | 36 => ⟨S_, .i32⟩
  | 37 => ⟨S800000, .i32⟩
  | 38 => ⟨S800000, .i1⟩
  | 39 => ⟨S_, .i32⟩
  | 40 => ⟨S800000, .i32⟩
  | 41 => ⟨S800000, .i32⟩
  | 42 => ⟨S800000, .i32⟩
  | 43 => ⟨S800000x1, .i32⟩
  | 44 => ⟨S800000, .f32⟩
  | 45 => ⟨S800000, .f32⟩
  | 46 => ⟨S_, .f32⟩
  | 47 => ⟨S800000, .f32⟩
  | 48 => ⟨S800000, .f32⟩
  | 49 => ⟨S800000, .f32⟩
  | 50 => ⟨S800000, .f32⟩
  | 51 => ⟨S_, .f32⟩
  | 52 => ⟨S50000, .f32⟩
  | 53 => ⟨S800000x1, .i32⟩
  | 54 => ⟨S50000, .f32⟩
  | 55 => ⟨S_, .f32⟩
  | 56 => ⟨S50000, .f32⟩
  | 57 => ⟨S800000x1, .i32⟩
  | 58 => ⟨S50000, .f32⟩
  | 59 => ⟨S_, .i32⟩
  | 60 => ⟨S800000, .i32⟩
  | 61 => ⟨S800000, .i1⟩
  | 62 => ⟨S_, .i32⟩
  | 63 => ⟨S800000, .i32⟩
  | 64 => ⟨S800000, .i32⟩
  | 65 => ⟨S800000, .i32⟩
  | 66 => ⟨S800000x1, .i32⟩
  | 67 => ⟨S800000, .f32⟩
  | 68 => ⟨S_, .i32⟩
  | 69 => ⟨S800000, .i32⟩
  | 70 => ⟨S800000, .i1⟩
  | 71 => ⟨S_, .i32⟩
  | 72 => ⟨S800000, .i32⟩
  | 73 => ⟨S800000, .i32⟩
  | 74 => ⟨S800000, .i32⟩
  | 75 => ⟨S800000x1, .i32⟩
  | 76 => ⟨S800000, .f32⟩
  | 77 => ⟨S800000, .f32⟩
  | 78 => ⟨S_, .f32⟩
  | 79 => ⟨S800000, .f32⟩
  | 80 => ⟨S800000, .f32⟩
  | 81 => ⟨S800000, .f32⟩
  | 82 => ⟨S800000, .f32⟩
  | 83 => ⟨S_, .i32⟩
  | 84 => ⟨S800000, .i32⟩
  | 85 => ⟨S800000, .i1⟩
  | 86 => ⟨S_, .i32⟩
  | 87 => ⟨S800000, .i32⟩
  | 88 => ⟨S800000, .i32⟩
  | 89 => ⟨S800000, .i32⟩
  | 90 => ⟨S800000x1, .i32⟩
  | 91 => ⟨S800000x128, .f32⟩
  | 92 => ⟨S800000x1, .f32⟩
  | 93 => ⟨S800000x128, .f32⟩
  | 94 => ⟨S800000x128, .f32⟩
  | 95 => ⟨S_, .f32⟩
  | 96 => ⟨S50000x128, .f32⟩
  | 97 => ⟨S800000x1, .i32⟩
  | 98 => ⟨S50000x128, .f32⟩
  | 99 => ⟨S800000x1, .f32⟩
  | 100 => ⟨S800000x128, .f32⟩
  | 101 => ⟨S800000x128, .f32⟩
  | 102 => ⟨S_, .f32⟩
  | 103 => ⟨S50000x128, .f32⟩
  | 104 => ⟨S800000x1, .i32⟩
  | 105 => ⟨S50000x128, .f32⟩
  | 106 => ⟨S1x128x128, .f32⟩
  | 107 => ⟨S128x128, .f32⟩
  | 108 => ⟨S50000x128, .f32⟩
  | 109 => ⟨S1x128, .f32⟩
  | 110 => ⟨S128, .f32⟩
  | 111 => ⟨S1x128, .f32⟩
  | 112 => ⟨S50000x128, .f32⟩
  | 113 => ⟨S50000x128, .f32⟩
  | 114 => ⟨S1x128x128, .f32⟩
  | 115 => ⟨S128x128, .f32⟩
  | 116 => ⟨S50000x128, .f32⟩
  | 117 => ⟨S50000x128, .f32⟩
  | 118 => ⟨S1x128, .f32⟩
  | 119 => ⟨S128, .f32⟩
  | 120 => ⟨S1x128, .f32⟩
  | 121 => ⟨S50000x128, .f32⟩
  | 122 => ⟨S50000x128, .f32⟩
  | 123 => ⟨S1x128x128, .f32⟩
  | 124 => ⟨S128x128, .f32⟩
  | 125 => ⟨S50000x128, .f32⟩
  | 126 => ⟨S50000x128, .f32⟩
  | 127 => ⟨S1x128, .f32⟩
  | _ => ⟨S50000x128, .f32⟩

abbrev hbmTy0_1 (i : Nat) : BufTy := match i % 128 with
  | 0 => ⟨S128, .f32⟩
  | 1 => ⟨S1x128, .f32⟩
  | 2 => ⟨S50000x128, .f32⟩
  | 3 => ⟨S50000x128, .f32⟩
  | 4 => ⟨S_, .f32⟩
  | 5 => ⟨S50000x128, .f32⟩
  | 6 => ⟨S50000x128, .f32⟩
  | 7 => ⟨S50000x128, .f32⟩
  | 8 => ⟨S_, .f32⟩
  | 9 => ⟨S50000, .f32⟩
  | 10 => ⟨S50000x1, .f32⟩
  | 11 => ⟨S50000x1, .f32⟩
  | 12 => ⟨S_, .f32⟩
  | 13 => ⟨S50000x1, .f32⟩
  | 14 => ⟨S50000x1, .f32⟩
  | 15 => ⟨S50000x128, .f32⟩
  | 16 => ⟨S50000x128, .f32⟩
  | 17 => ⟨S_, .i32⟩
  | 18 => ⟨S800000, .i32⟩
  | 19 => ⟨S800000, .i1⟩
  | 20 => ⟨S_, .i32⟩
  | 21 => ⟨S800000, .i32⟩
  | 22 => ⟨S800000, .i32⟩
  | 23 => ⟨S800000, .i32⟩
  | 24 => ⟨S800000x1, .i32⟩
  | 25 => ⟨S800000x128, .f32⟩
  | 26 => ⟨S800000x1, .f32⟩
  | 27 => ⟨S800000x128, .f32⟩
  | 28 => ⟨S800000x128, .f32⟩
  | 29 => ⟨S_, .f32⟩
  | 30 => ⟨S50000x128, .f32⟩
  | 31 => ⟨S800000x1, .i32⟩
  | 32 => ⟨S50000x128, .f32⟩
  | 33 => ⟨S800000x1, .f32⟩
  | 34 => ⟨S800000x128, .f32⟩
  | 35 => ⟨S800000x128, .f32⟩
  | 36 => ⟨S_, .f32⟩
  | 37 => ⟨S50000x128, .f32⟩
  | 38 => ⟨S800000x1, .i32⟩
  | 39 => ⟨S50000x128, .f32⟩
  | 40 => ⟨S1x128x128, .f32⟩
  | 41 => ⟨S128x128, .f32⟩
  | 42 => ⟨S50000x128, .f32⟩
  | 43 => ⟨S1x128, .f32⟩
  | 44 => ⟨S128, .f32⟩
  | 45 => ⟨S1x128, .f32⟩
  | 46 => ⟨S50000x128, .f32⟩
  | 47 => ⟨S50000x128, .f32⟩
  | 48 => ⟨S1x128x128, .f32⟩
  | 49 => ⟨S128x128, .f32⟩
  | 50 => ⟨S50000x128, .f32⟩
  | 51 => ⟨S50000x128, .f32⟩
  | 52 => ⟨S1x128, .f32⟩
  | 53 => ⟨S128, .f32⟩
  | 54 => ⟨S1x128, .f32⟩
  | 55 => ⟨S50000x128, .f32⟩
  | 56 => ⟨S50000x128, .f32⟩
  | 57 => ⟨S1x128x128, .f32⟩
  | 58 => ⟨S128x128, .f32⟩
  | 59 => ⟨S50000x128, .f32⟩
  | 60 => ⟨S50000x128, .f32⟩
  | 61 => ⟨S1x128, .f32⟩
  | 62 => ⟨S128, .f32⟩
  | 63 => ⟨S1x128, .f32⟩
  | 64 => ⟨S50000x128, .f32⟩
  | 65 => ⟨S50000x128, .f32⟩
  | 66 => ⟨S50000x64, .f32⟩
  | 67 => ⟨S1x64, .f32⟩
  | 68 => ⟨S50000x64, .f32⟩
  | 69 => ⟨S50000x64, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_cst : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_cst_0 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_c : Ref sig .tc := ⟨.hbm, 27, rfl⟩
abbrev main_v14 : Ref sig .tc := ⟨.hbm, 28, rfl⟩
abbrev main_v15 : Ref sig .tc := ⟨.hbm, 29, rfl⟩
abbrev main_c_1 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_c_2 : Ref sig .tc := ⟨.hbm, 36, rfl⟩
abbrev main_v21 : Ref sig .tc := ⟨.hbm, 37, rfl⟩
abbrev main_v22 : Ref sig .tc := ⟨.hbm, 38, rfl⟩
abbrev main_c_3 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_cst_4 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_cst_5 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_cst_6 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_c_7 : Ref sig .tc := ⟨.hbm, 59, rfl⟩
abbrev main_v39 : Ref sig .tc := ⟨.hbm, 60, rfl⟩
abbrev main_v40 : Ref sig .tc := ⟨.hbm, 61, rfl⟩
abbrev main_c_8 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_c_9 : Ref sig .tc := ⟨.hbm, 68, rfl⟩
abbrev main_v46 : Ref sig .tc := ⟨.hbm, 69, rfl⟩
abbrev main_v47 : Ref sig .tc := ⟨.hbm, 70, rfl⟩
abbrev main_c_10 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_cst_11 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_c_12 : Ref sig .tc := ⟨.hbm, 83, rfl⟩
abbrev main_v58 : Ref sig .tc := ⟨.hbm, 84, rfl⟩
abbrev main_v59 : Ref sig .tc := ⟨.hbm, 85, rfl⟩
abbrev main_c_13 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_v65 : Ref sig .tc := ⟨.hbm, 92, rfl⟩
abbrev main_v66 : Ref sig .tc := ⟨.hbm, 93, rfl⟩
abbrev main_v67 : Ref sig .tc := ⟨.hbm, 94, rfl⟩
abbrev main_cst_14 : Ref sig .tc := ⟨.hbm, 95, rfl⟩
abbrev main_v68 : Ref sig .tc := ⟨.hbm, 96, rfl⟩
abbrev main_v69 : Ref sig .tc := ⟨.hbm, 97, rfl⟩
abbrev main_v70 : Ref sig .tc := ⟨.hbm, 98, rfl⟩
abbrev main_v71 : Ref sig .tc := ⟨.hbm, 99, rfl⟩
abbrev main_v72 : Ref sig .tc := ⟨.hbm, 100, rfl⟩
abbrev main_v73 : Ref sig .tc := ⟨.hbm, 101, rfl⟩
abbrev main_cst_15 : Ref sig .tc := ⟨.hbm, 102, rfl⟩
abbrev main_v74 : Ref sig .tc := ⟨.hbm, 103, rfl⟩
abbrev main_v75 : Ref sig .tc := ⟨.hbm, 104, rfl⟩
abbrev main_v76 : Ref sig .tc := ⟨.hbm, 105, rfl⟩
abbrev main_v77 : Ref sig .tc := ⟨.hbm, 106, rfl⟩
abbrev main_v78 : Ref sig .tc := ⟨.hbm, 107, rfl⟩
abbrev main_v79 : Ref sig .tc := ⟨.hbm, 108, rfl⟩
abbrev main_v80 : Ref sig .tc := ⟨.hbm, 109, rfl⟩
abbrev main_v81 : Ref sig .tc := ⟨.hbm, 110, rfl⟩
abbrev main_v82 : Ref sig .tc := ⟨.hbm, 111, rfl⟩
abbrev main_v83 : Ref sig .tc := ⟨.hbm, 112, rfl⟩
abbrev main_v84 : Ref sig .tc := ⟨.hbm, 113, rfl⟩
abbrev main_v85 : Ref sig .tc := ⟨.hbm, 114, rfl⟩
abbrev main_v86 : Ref sig .tc := ⟨.hbm, 115, rfl⟩
abbrev main_v87 : Ref sig .tc := ⟨.hbm, 116, rfl⟩
abbrev main_v88 : Ref sig .tc := ⟨.hbm, 117, rfl⟩
abbrev main_v89 : Ref sig .tc := ⟨.hbm, 118, rfl⟩
abbrev main_v90 : Ref sig .tc := ⟨.hbm, 119, rfl⟩
abbrev main_v91 : Ref sig .tc := ⟨.hbm, 120, rfl⟩
abbrev main_v92 : Ref sig .tc := ⟨.hbm, 121, rfl⟩
abbrev main_v93 : Ref sig .tc := ⟨.hbm, 122, rfl⟩
abbrev main_v94 : Ref sig .tc := ⟨.hbm, 123, rfl⟩
abbrev main_v95 : Ref sig .tc := ⟨.hbm, 124, rfl⟩
abbrev main_v96 : Ref sig .tc := ⟨.hbm, 125, rfl⟩
abbrev main_v97 : Ref sig .tc := ⟨.hbm, 126, rfl⟩
abbrev main_v98 : Ref sig .tc := ⟨.hbm, 127, rfl⟩
abbrev main_v99 : Ref sig .tc := ⟨.hbm, 128, rfl⟩
abbrev main_v100 : Ref sig .tc := ⟨.hbm, 129, rfl⟩
abbrev main_v101 : Ref sig .tc := ⟨.hbm, 130, rfl⟩
abbrev main_v102 : Ref sig .tc := ⟨.hbm, 131, rfl⟩
abbrev main_call0_cst : Ref sig .tc := ⟨.hbm, 132, rfl⟩
abbrev main_call0_v0 : Ref sig .tc := ⟨.hbm, 133, rfl⟩
abbrev main_v103 : Ref sig .tc := ⟨.hbm, 134, rfl⟩
abbrev main_call1_v0 : Ref sig .tc := ⟨.hbm, 135, rfl⟩
abbrev main_call1_cst : Ref sig .tc := ⟨.hbm, 136, rfl⟩
abbrev main_call1_v1 : Ref sig .tc := ⟨.hbm, 137, rfl⟩
abbrev main_call1_v2 : Ref sig .tc := ⟨.hbm, 138, rfl⟩
abbrev main_v104 : Ref sig .tc := ⟨.hbm, 139, rfl⟩
abbrev main_cst_16 : Ref sig .tc := ⟨.hbm, 140, rfl⟩
abbrev main_v105 : Ref sig .tc := ⟨.hbm, 141, rfl⟩
abbrev main_v106 : Ref sig .tc := ⟨.hbm, 142, rfl⟩
abbrev main_v107 : Ref sig .tc := ⟨.hbm, 143, rfl⟩
abbrev main_v108 : Ref sig .tc := ⟨.hbm, 144, rfl⟩
abbrev main_c_17 : Ref sig .tc := ⟨.hbm, 145, rfl⟩
abbrev main_v109 : Ref sig .tc := ⟨.hbm, 146, rfl⟩
abbrev main_v110 : Ref sig .tc := ⟨.hbm, 147, rfl⟩
abbrev main_c_18 : Ref sig .tc := ⟨.hbm, 148, rfl⟩
abbrev main_v111 : Ref sig .tc := ⟨.hbm, 149, rfl⟩
abbrev main_v112 : Ref sig .tc := ⟨.hbm, 150, rfl⟩
abbrev main_v113 : Ref sig .tc := ⟨.hbm, 151, rfl⟩
abbrev main_v114 : Ref sig .tc := ⟨.hbm, 152, rfl⟩
abbrev main_v115 : Ref sig .tc := ⟨.hbm, 153, rfl⟩
abbrev main_v116 : Ref sig .tc := ⟨.hbm, 154, rfl⟩
abbrev main_v117 : Ref sig .tc := ⟨.hbm, 155, rfl⟩
abbrev main_v118 : Ref sig .tc := ⟨.hbm, 156, rfl⟩
abbrev main_cst_19 : Ref sig .tc := ⟨.hbm, 157, rfl⟩
abbrev main_v119 : Ref sig .tc := ⟨.hbm, 158, rfl⟩
abbrev main_v120 : Ref sig .tc := ⟨.hbm, 159, rfl⟩
abbrev main_v121 : Ref sig .tc := ⟨.hbm, 160, rfl⟩
abbrev main_v122 : Ref sig .tc := ⟨.hbm, 161, rfl⟩
abbrev main_v123 : Ref sig .tc := ⟨.hbm, 162, rfl⟩
abbrev main_v124 : Ref sig .tc := ⟨.hbm, 163, rfl⟩
abbrev main_cst_20 : Ref sig .tc := ⟨.hbm, 164, rfl⟩
abbrev main_v125 : Ref sig .tc := ⟨.hbm, 165, rfl⟩
abbrev main_v126 : Ref sig .tc := ⟨.hbm, 166, rfl⟩
abbrev main_v127 : Ref sig .tc := ⟨.hbm, 167, rfl⟩
abbrev main_v128 : Ref sig .tc := ⟨.hbm, 168, rfl⟩
abbrev main_v129 : Ref sig .tc := ⟨.hbm, 169, rfl⟩
abbrev main_v130 : Ref sig .tc := ⟨.hbm, 170, rfl⟩
abbrev main_v131 : Ref sig .tc := ⟨.hbm, 171, rfl⟩
abbrev main_v132 : Ref sig .tc := ⟨.hbm, 172, rfl⟩
abbrev main_v133 : Ref sig .tc := ⟨.hbm, 173, rfl⟩
abbrev main_v134 : Ref sig .tc := ⟨.hbm, 174, rfl⟩
abbrev main_v135 : Ref sig .tc := ⟨.hbm, 175, rfl⟩
abbrev main_v136 : Ref sig .tc := ⟨.hbm, 176, rfl⟩
abbrev main_v137 : Ref sig .tc := ⟨.hbm, 177, rfl⟩
abbrev main_v138 : Ref sig .tc := ⟨.hbm, 178, rfl⟩
abbrev main_v139 : Ref sig .tc := ⟨.hbm, 179, rfl⟩
abbrev main_v140 : Ref sig .tc := ⟨.hbm, 180, rfl⟩
abbrev main_v141 : Ref sig .tc := ⟨.hbm, 181, rfl⟩
abbrev main_v142 : Ref sig .tc := ⟨.hbm, 182, rfl⟩
abbrev main_v143 : Ref sig .tc := ⟨.hbm, 183, rfl⟩
abbrev main_v144 : Ref sig .tc := ⟨.hbm, 184, rfl⟩
abbrev main_v145 : Ref sig .tc := ⟨.hbm, 185, rfl⟩
abbrev main_v146 : Ref sig .tc := ⟨.hbm, 186, rfl⟩
abbrev main_v147 : Ref sig .tc := ⟨.hbm, 187, rfl⟩
abbrev main_v148 : Ref sig .tc := ⟨.hbm, 188, rfl⟩
abbrev main_v149 : Ref sig .tc := ⟨.hbm, 189, rfl⟩
abbrev main_v150 : Ref sig .tc := ⟨.hbm, 190, rfl⟩
abbrev main_v151 : Ref sig .tc := ⟨.hbm, 191, rfl⟩
abbrev main_v152 : Ref sig .tc := ⟨.hbm, 192, rfl⟩
abbrev main_v153 : Ref sig .tc := ⟨.hbm, 193, rfl⟩
abbrev main_v154 : Ref sig .tc := ⟨.hbm, 194, rfl⟩
abbrev main_v155 : Ref sig .tc := ⟨.hbm, 195, rfl⟩
abbrev main_v156 : Ref sig .tc := ⟨.hbm, 196, rfl⟩
abbrev main_v157 : Ref sig .tc := ⟨.hbm, 197, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S50000 : S_.BroadcastsInDim S50000 (![] : Fin 0 → Fin S50000.rank)
  bcast_S800000_S800000x1_0 : S800000.BroadcastsInDim S800000x1 (![0] : Fin 1 → Fin S800000x1.rank)
  bcast_S_S800000 : S_.BroadcastsInDim S800000 (![] : Fin 0 → Fin S800000.rank)
  bcast_S800000x1_S800000x128_0_1 : S800000x1.BroadcastsInDim S800000x128 (![0, 1] : Fin 2 → Fin S800000x128.rank)
  bcast_S_S50000x128 : S_.BroadcastsInDim S50000x128 (![] : Fin 0 → Fin S50000x128.rank)
  slices_S2x128x128_S1x128x128_0_0_0 : S2x128x128.Slices ![0, 0, 0] S1x128x128
  shapeCasts_S1x128x128_S128x128 : S1x128x128.ShapeCasts S128x128
  slices_S2x128_S1x128_0_0 : S2x128.Slices ![0, 0] S1x128
  shapeCasts_S1x128_S128 : S1x128.ShapeCasts S128
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  reducesTo_S50000x128_S50000_d1 : S50000x128.ReducesTo [1] S50000
  h_S_ : 0 < S_.numel
  bcast_S50000_S50000x1_0 : S50000.BroadcastsInDim S50000x1 (![0] : Fin 1 → Fin S50000x1.rank)
  bcast_S_S50000x1 : S_.BroadcastsInDim S50000x1 (![] : Fin 0 → Fin S50000x1.rank)
  bcast_S50000x1_S50000x128_0_1 : S50000x1.BroadcastsInDim S50000x128 (![0, 1] : Fin 2 → Fin S50000x128.rank)
  slices_S2x128x128_S1x128x128_1_0_0 : S2x128x128.Slices ![1, 0, 0] S1x128x128
  slices_S2x128_S1x128_1_0 : S2x128.Slices ![1, 0] S1x128
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  scatter_S50000_S800000x1_S800000_n_0_0_1_wf : ScatterDims.WF S50000 S800000x1 S800000 [] [0] [0] 1
  gather_S50000_S800000x1_S800000_n_0_n_n_0_1_1_wf : GatherDims.WF S50000 S800000x1 S800000 [] [0] [] [0] [] 1 ![1]
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S50000x128_S128x128_S50000x128_1_0_0_1_n_n_wf : DotDims.WF S50000x128 S128x128 S50000x128 [1] [0] [0] [1] [] []
  dot_S50000x128_S128x64_S50000x64_1_0_0_1_n_n_wf : DotDims.WF S50000x128 S128x64 S50000x64 [1] [0] [0] [1] [] []

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000_S800000x1_S800000_n_0_n_n_0_1_1 : GatherDims S50000 S800000x1 S800000 where
  offsetDims := []
  collapsedSliceDims := [0]
  operandBatchingDims := []
  startIndicesBatchingDims := []
  startIndexMap := [0]
  indexVectorDim := 1
  sliceSizes := ![1]
  wf := gather_S50000_S800000x1_S800000_n_0_n_n_0_1_1_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def dot_S50000x128_S128x64_S50000x64_1_0_0_1_n_n : DotDims S50000x128 S128x64 S50000x64 where
  lhsContracting := [1]
  rhsContracting := [0]
  lhsNonContracting := [0]
  rhsNonContracting := [1]
  lhsBatch := []
  rhsBatch := []
  wf := dot_S50000x128_S128x64_S50000x64_1_0_0_1_n_n_wf

class Facts : Prop extends Facts₀ where

variable [Facts]
-- ==== Proof.KBlocks.lean ====
import proofs.«152683_j75462575391410_2_alg».proof.Proof.Gen.KernelIdeal.Frame
import Idealize.ShloMosaic.Lib.ValueIdx
import Idealize.ShloMosaic.Lib.Pipeline.Value

/-!
# Where each window's block sits in its array

Both tiled kernels run on a grid of 10 points over arrays of 50000 rows cut into blocks of 5000 rows. At point `t` a
row-tiled window's block is rows `5000 t … 5000 t + 4999` of its array, all columns: its element `(r, k)` is the array's
element `(5000 t + r, k)`. A weight or bias window's block is its whole array at every point. The output window's ten
blocks are disjoint row bands that together cover the output array: row `n` lies in the block of point `n / 5000`, and every point
writes its block back.

Everything is stated at arbitrary contents `V` of the buffers on entry to the region, for every float instance.
-/

set_option maxRecDepth 16384

noncomputable section

namespace Cert.KBlocks

open Cert.KernelIdeal Cert.KernelIdeal.Gen Idealize.ShloMosaic Idealize.ShloMosaic.TcCoe Idealize.ShloMosaic.ValueIdx Idealize.SL.Sem
open Idealize.ShloMosaic.Pipeline (Dat Cfg Window cellOf)

variable {F : FTy → Type} [FloatOps F]
variable (V : (c : Dev nD) → (b : Ref sig .tc) → Buf (Elt F) ((c : Thread nD τ).loc b))

/-! ## Region 0: the 9 windows of the first tiled kernel, on its grid of 10 points -/

/-- Row `r` of the block of 5000 rows at point `t` is row `5000 t + r` of a 50000-row array. -/
def rowOf0 (t : Fin cfg0.N) (r : Fin 5000) : Fin 50000 :=
  ⟨t.val * 5000 + r.val, by have ht : t.val < grid0.N := t.isLt; rw [N_0] at ht; have := r.isLt; omega⟩

/-- Its value. -/
theorem rowOf0_val (t : Fin cfg0.N) (r : Fin 5000) : (rowOf0 t r).val = t.val * 5000 + r.val := rfl

/-- Window 0's block index at point `t` is `(t, 0)`, decided over the 10 points. -/
theorem idx0_0 : ∀ t : Fin cfg0.N, win0_0.index t (0 : Fin 2) = t.val ∧ win0_0.index t (1 : Fin 2) = 0 :=
  (by decide +kernel : ∀ t : Fin grid0.N, _)

/-- Window 0 tiles the rows of `main_v76`: element `(r, k)` of its block at point `t` is the array's element
    `(5000 t + r, k)`. -/
theorem blk0_0 (c : Dev nD) (t : Fin cfg0.N) (r : Fin 5000) (k : Fin 256) :
    iblk0 V c 0 t (ix2 r k) = V c main_v76 (ix2 (rowOf0 t r) k) := by
  obtain ⟨e0, e1⟩ := idx0_0 t
  have hemb : ((cfg0.win 0).blk t).view.emb (ix2 r k) = ix2 (rowOf0 t r) k := by
    funext a; apply Fin.ext
    match a with
    | ⟨0, _⟩ => show win0_0.index t (0 : Fin 2) * 5000 + 1 * r.val = t.val * 5000 + r.val; omega
    | ⟨1, _⟩ => show win0_0.index t (1 : Fin 2) * 256 + 1 * k.val = k.val; omega
  show V c main_v76 (((cfg0.win 0).blk t).view.emb (ix2 r k)) = _
  rw [hemb]

/-- Window 1's block index at point `t` is `(t, 0)`, decided over the 10 points. -/
theorem idx0_1 : ∀ t : Fin cfg0.N, win0_1.index t (0 : Fin 2) = t.val ∧ win0_1.index t (1 : Fin 2) = 0 :=
  (by decide +kernel : ∀ t : Fin grid0.N, _)

/-- Window 1 tiles the rows of `main_arg0`: element `(r, k)` of its block at point `t` is the array's element
    `(5000 t + r, k)`. -/
theorem blk0_1 (c : Dev nD) (t : Fin cfg0.N) (r : Fin 5000) (k : Fin 128) :
    iblk0 V c 1 t (ix2 r k) = V c main_arg0 (ix2 (rowOf0 t r) k) := by
  obtain ⟨e0, e1⟩ := idx0_1 t
  have hemb : ((cfg0.win 1).blk t).view.emb (ix2 r k) = ix2 (rowOf0 t r) k := by
    funext a; apply Fin.ext
    match a with
    | ⟨0, _⟩ => show win0_1.index t (0 : Fin 2) * 5000 + 1 * r.val = t.val * 5000 + r.val; omega
    | ⟨1, _⟩ => show win0_1.index t (1 : Fin 2) * 128 + 1 * k.val = k.val; omega
  show V c main_arg0 (((cfg0.win 1).blk t).view.emb (ix2 r k)) = _
  rw [hemb]

/-- Window 2's block index at point `t` is `(0, 0)`, decided over the 10 points. -/
theorem idx0_2 : ∀ t : Fin cfg0.N, win0_2.index t (0 : Fin 2) = 0 ∧ win0_2.index t (1 : Fin 2) = 0 :=
  (by decide +kernel : ∀ t : Fin grid0.N, _)

/-- Window 2's block at every point is the whole of `main_v78`. -/
theorem blk0_2 (c : Dev nD) (t : Fin cfg0.N) (k : Fin 128) (q : Fin 128) :
    iblk0 V c 2 t (ix2 k q) = V c main_v78 (ix2 k q) := by
  obtain ⟨e0, e1⟩ := idx0_2 t
  have hemb : ((cfg0.win 2).blk t).view.emb (ix2 k q) = ix2 k q := by
    funext a; apply Fin.ext
    match a with
    | ⟨0, _⟩ => show win0_2.index t (0 : Fin 2) * 128 + 1 * k.val = k.val; omega
    | ⟨1, _⟩ => show win0_2.index t (1 : Fin 2) * 128 + 1 * q.val = q.val; omega
  show V c main_v78 (((cfg0.win 2).blk t).view.emb (ix2 k q)) = _
  rw [hemb]

/-- Window 3's block index at point `t` is `(0, 0)`, decided over the 10 points. -/
theorem idx0_3 : ∀ t : Fin cfg0.N, win0_3.index t (0 : Fin 2) = 0 ∧ win0_3.index t (1 : Fin 2) = 0 :=
  (by decide +kernel : ∀ t : Fin grid0.N, _)

/-- Window 3's block at every point is the whole of `main_v80`. -/
theorem blk0_3 (c : Dev nD) (t : Fin cfg0.N) (k : Fin 128) (q : Fin 128) :
    iblk0 V c 3 t (ix2 k q) = V c main_v80 (ix2 k q) := by
  obtain ⟨e0, e1⟩ := idx0_3 t
  have hemb : ((cfg0.win 3).blk t).view.emb (ix2 k q) = ix2 k q := by
    funext a; apply Fin.ext
    match a with
    | ⟨0, _⟩ => show win0_3.index t (0 : Fin 2) * 128 + 1 * k.val = k.val; omega
    | ⟨1, _⟩ => show win0_3.index t (1 : Fin 2) * 128 + 1 * q.val = q.val; omega
  show V c main_v80 (((cfg0.win 3).blk t).view.emb (ix2 k q)) = _
  rw [hemb]

/-- Window 4's block index at point `t` is `(0, 0)`, decided over the 10 points. -/
theorem idx0_4 : ∀ t : Fin cfg0.N, win0_4.index t (0 : Fin 2) = 0 ∧ win0_4.index t (1 : Fin 2) = 0 :=
  (by decide +kernel : ∀ t : Fin grid0.N, _)

/-- Window 4's block at every point is the whole of `main_v82`. -/
theorem blk0_4 (c : Dev nD) (t : Fin cfg0.N) (k : Fin 128) (q : Fin 128) :
    iblk0 V c 4 t (ix2 k q) = V c main_v82 (ix2 k q) := by
  obtain ⟨e0, e1⟩ := idx0_4 t
  have hemb : ((cfg0.win 4).blk t).view.emb (ix2 k q) = ix2 k q := by
    funext a; apply Fin.ext
    match a with
    | ⟨0, _⟩ => show win0_4.index t (0 : Fin 2) * 128 + 1 * k.val = k.val; omega
    | ⟨1, _⟩ => show win0_4.index t (1 : Fin 2) * 128 + 1 * q.val = q.val; omega
  show V c main_v82 (((cfg0.win 4).blk t).view.emb (ix2 k q)) = _
  rw [hemb]

/-- Window 5's block index at point `t` is `(0, 0)`, decided over the 10 points. -/
theorem idx0_5 : ∀ t : Fin cfg0.N, win0_5.index t (0 : Fin 2) = 0 ∧ win0_5.index t (1 : Fin 2) = 0 :=
  (by decide +kernel : ∀ t : Fin grid0.N, _)

/-- Window 5's block at every point is the whole one-row array `main_v85`. -/
theorem blk0_5 (c : Dev nD) (t : Fin cfg0.N) (q : Fin 128) :
    iblk0 V c 5 t (ix2 (0 : Fin 1) q) = V c main_v85 (ix2 (0 : Fin 1) q) := by
  obtain ⟨e0, e1⟩ := idx0_5 t
  have hemb : ((cfg0.win 5).blk t).view.emb (ix2 (0 : Fin 1) q) = ix2 (0 : Fin 1) q := by
    funext a; apply Fin.ext
    match a with
    | ⟨0, _⟩ => show win0_5.index t (0 : Fin 2) * 1 + 1 * 0 = 0; omega
    | ⟨1, _⟩ => show win0_5.index t (1 : Fin 2) * 128 + 1 * q.val = q.val; omega
  show V c main_v85 (((cfg0.win 5).blk t).view.emb (ix2 (0 : Fin 1) q)) = _
  rw [hemb]

/-- Window 6's block index at point `t` is `(0, 0)`, decided over the 10 points. -/
theorem idx0_6 : ∀ t : Fin cfg0.N, win0_6.index t (0 : Fin 2) = 0 ∧ win0_6.index t (1 : Fin 2) = 0 :=
  (by decide +kernel : ∀ t : Fin grid0.N, _)

/-- Window 6's block at every point is the whole one-row array `main_v88`. -/
theorem blk0_6 (c : Dev nD) (t : Fin cfg0.N) (q : Fin 128) :
    iblk0 V c 6 t (ix2 (0 : Fin 1) q) = V c main_v88 (ix2 (0 : Fin 1) q) := by
  obtain ⟨e0, e1⟩ := idx0_6 t
  have hemb : ((cfg0.win 6).blk t).view.emb (ix2 (0 : Fin 1) q) = ix2 (0 : Fin 1) q := by
    funext a; apply Fin.ext
    match a with
    | ⟨0, _⟩ => show win0_6.index t (0 : Fin 2) * 1 + 1 * 0 = 0; omega
    | ⟨1, _⟩ => show win0_6.index t (1 : Fin 2) * 128 + 1 * q.val = q.val; omega
  show V c main_v88 (((cfg0.win 6).blk t).view.emb (ix2 (0 : Fin 1) q)) = _
  rw [hemb]

/-- Window 7's block index at point `t` is `(0, 0)`, decided over the 10 points. -/
theorem idx0_7 : ∀ t : Fin cfg0.N, win0_7.index t (0 : Fin 2) = 0 ∧ win0_7.index t (1 : Fin 2) = 0 :=
  (by decide +kernel : ∀ t : Fin grid0.N, _)

/-- Window 7's block at every point is the whole one-row array `main_v91`. -/
theorem blk0_7 (c : Dev nD) (t : Fin cfg0.N) (q : Fin 128) :
    iblk0 V c 7 t (ix2 (0 : Fin 1) q) = V c main_v91 (ix2 (0 : Fin 1) q) := by
  obtain ⟨e0, e1⟩ := idx0_7 t
  have hemb : ((cfg0.win 7).blk t).view.emb (ix2 (0 : Fin 1) q) = ix2 (0 : Fin 1) q := by
    funext a; apply Fin.ext
    match a with
    | ⟨0, _⟩ => show win0_7.index t (0 : Fin 2) * 1 + 1 * 0 = 0; omega
    | ⟨1, _⟩ => show win0_7.index t (1 : Fin 2) * 128 + 1 * q.val = q.val; omega
  show V c main_v91 (((cfg0.win 7).blk t).view.emb (ix2 (0 : Fin 1) q)) = _
  rw [hemb]

/-- Window 8's block index at point `t` is `(t, 0)`, decided over the 10 points. -/
theorem idx0_8 : ∀ t : Fin cfg0.N, win0_8.index t (0 : Fin 2) = t.val ∧ win0_8.index t (1 : Fin 2) = 0 :=
  (by decide +kernel : ∀ t : Fin grid0.N, _)

/-- The output window 8 tiles the rows of `main_v92`: element `(r, q)` of its block at point `t` sits at
    `(5000 t + r, q)` in the array. -/
theorem emb0_8 (t : Fin cfg0.N) (r : Fin 5000) (q : Fin 128) :
    ((cfg0.win 8).blk t).view.emb (ix2 r q) = ix2 (rowOf0 t r) q := by
  obtain ⟨e0, e1⟩ := idx0_8 t
  funext a; apply Fin.ext
  match a with
  | ⟨0, _⟩ => show win0_8.index t (0 : Fin 2) * 5000 + 1 * r.val = t.val * 5000 + r.val; omega
  | ⟨1, _⟩ => show win0_8.index t (1 : Fin 2) * 128 + 1 * q.val = q.val; omega

/-- An index of `main_v92` is in point `t`'s block iff each coordinate is in the block's range on its axis. -/
theorem mem_blk0_8 (t : Fin cfg0.N) (i : S50000x128.Idx) :
    i ∈ ((cfg0.win 8).blk t).view.set ↔ ∀ a : Fin 2, win0_8.index t a * S5000x128.size a ≤ (i a).val ∧ (i a).val < win0_8.index t a * S5000x128.size a + S5000x128.size a := by
  show i ∈ ((View.whole main_v92).slice (win0_8.rect t)).set ↔ _
  rw [View.set_slice_whole, Rect.mem_set_unit]
  exact Iff.rfl

/-- The ten blocks of 5000 rows cover `main_v92`: row `n` is in the block of point `n / 5000`, which is written
    back. -/
theorem cover0_8 (c : Dev nD) : ∀ i : ((cfg0.win 8).arr.view.loc (c.tc : Thread nD τ)).2.ty.Idx,
    ∃ t : Fin cfg0.N, (cfg0.win 8).flush t = true ∧ i ∈ ((cfg0.win 8).blk t).view.set := by
  intro i
  have hi0 : (i 0).val < 50000 := (i 0).isLt
  have hi1 : (i 1).val < 128 := (i 1).isLt
  have hN : grid0.N = 10 := N_0
  let t : Fin cfg0.N := ⟨(i 0).val / 5000, by show (i 0).val / 5000 < grid0.N; omega⟩
  obtain ⟨e0, e1⟩ := idx0_8 t
  have ht : t.val = (i 0).val / 5000 := rfl
  refine ⟨t, flush0_8 t, ?_⟩
  rw [mem_blk0_8]
  intro a
  match a with
  | ⟨0, _⟩ => show win0_8.index t (0 : Fin 2) * 5000 ≤ (i 0).val ∧ (i 0).val < win0_8.index t (0 : Fin 2) * 5000 + 5000; omega
  | ⟨1, _⟩ => show win0_8.index t (1 : Fin 2) * 128 ≤ (i 1).val ∧ (i 1).val < win0_8.index t (1 : Fin 2) * 128 + 128; omega

/-! ## Region 1: the 11 windows of the second tiled kernel, on its grid of 10 points -/

/-- Row `r` of the block of 5000 rows at point `t` is row `5000 t + r` of a 50000-row array. -/
def rowOf1 (t : Fin cfg1.N) (r : Fin 5000) : Fin 50000 :=
  ⟨t.val * 5000 + r.val, by have ht : t.val < grid1.N := t.isLt; rw [N_1] at ht; have := r.isLt; omega⟩

/-- Its value. -/
theorem rowOf1_val (t : Fin cfg1.N) (r : Fin 5000) : (rowOf1 t r).val = t.val * 5000 + r.val := rfl

/-- Window 0's block index at point `t` is `(t, 0)`, decided over the 10 points. -/
theorem idx1_0 : ∀ t : Fin cfg1.N, win1_0.index t (0 : Fin 2) = t.val ∧ win1_0.index t (1 : Fin 2) = 0 :=
  (by decide +kernel : ∀ t : Fin grid1.N, _)

/-- Window 0 tiles the rows of `main_v111`: element `(r, k)` of its block at point `t` is the array's element
    `(5000 t + r, k)`. -/
theorem blk1_0 (c : Dev nD) (t : Fin cfg1.N) (r : Fin 5000) (k : Fin 256) :
    iblk1 V c 0 t (ix2 r k) = V c main_v111 (ix2 (rowOf1 t r) k) := by
  obtain ⟨e0, e1⟩ := idx1_0 t
  have hemb : ((cfg1.win 0).blk t).view.emb (ix2 r k) = ix2 (rowOf1 t r) k := by
    funext a; apply Fin.ext
    match a with
    | ⟨0, _⟩ => show win1_0.index t (0 : Fin 2) * 5000 + 1 * r.val = t.val * 5000 + r.val; omega
    | ⟨1, _⟩ => show win1_0.index t (1 : Fin 2) * 256 + 1 * k.val = k.val; omega
  show V c main_v111 (((cfg1.win 0).blk t).view.emb (ix2 r k)) = _
  rw [hemb]

/-- Window 1's block index at point `t` is `(t, 0)`, decided over the 10 points. -/
theorem idx1_1 : ∀ t : Fin cfg1.N, win1_1.index t (0 : Fin 2) = t.val ∧ win1_1.index t (1 : Fin 2) = 0 :=
  (by decide +kernel : ∀ t : Fin grid1.N, _)

/-- Window 1 tiles the rows of `main_v92`: element `(r, k)` of its block at point `t` is the array's element
    `(5000 t + r, k)`. -/
theorem blk1_1 (c : Dev nD) (t : Fin cfg1.N) (r : Fin 5000) (k : Fin 128) :
    iblk1 V c 1 t (ix2 r k) = V c main_v92 (ix2 (rowOf1 t r) k) := by
  obtain ⟨e0, e1⟩ := idx1_1 t
  have hemb : ((cfg1.win 1).blk t).view.emb (ix2 r k) = ix2 (rowOf1 t r) k := by
    funext a; apply Fin.ext
    match a with
    | ⟨0, _⟩ => show win1_1.index t (0 : Fin 2) * 5000 + 1 * r.val = t.val * 5000 + r.val; omega
    | ⟨1, _⟩ => show win1_1.index t (1 : Fin 2) * 128 + 1 * k.val = k.val; omega
  show V c main_v92 (((cfg1.win 1).blk t).view.emb (ix2 r k)) = _
  rw [hemb]

/-- Window 2's block index at point `t` is `(0, 0)`, decided over the 10 points. -/
theorem idx1_2 : ∀ t : Fin cfg1.N, win1_2.index t (0 : Fin 2) = 0 ∧ win1_2.index t (1 : Fin 2) = 0 :=
  (by decide +kernel : ∀ t : Fin grid1.N, _)

/-- Window 2's block at every point is the whole of `main_v113`. -/
theorem blk1_2 (c : Dev nD) (t : Fin cfg1.N) (k : Fin 128) (q : Fin 128) :
    iblk1 V c 2 t (ix2 k q) = V c main_v113 (ix2 k q) := by
  obtain ⟨e0, e1⟩ := idx1_2 t
  have hemb : ((cfg1.win 2).blk t).view.emb (ix2 k q) = ix2 k q := by
    funext a; apply Fin.ext
    match a with
    | ⟨0, _⟩ => show win1_2.index t (0 : Fin 2) * 128 + 1 * k.val = k.val; omega
    | ⟨1, _⟩ => show win1_2.index t (1 : Fin 2) * 128 + 1 * q.val = q.val; omega
  show V c main_v113 (((cfg1.win 2).blk t).view.emb (ix2 k q)) = _
  rw [hemb]

/-- Window 3's block index at point `t` is `(0, 0)`, decided over the 10 points. -/
theorem idx1_3 : ∀ t : Fin cfg1.N, win1_3.index t (0 : Fin 2) = 0 ∧ win1_3.index t (1 : Fin 2) = 0 :=
  (by decide +kernel : ∀ t : Fin grid1.N, _)

/-- Window 3's block at every point is the whole of `main_v115`. -/
theorem blk1_3 (c : Dev nD) (t : Fin cfg1.N) (k : Fin 128) (q : Fin 128) :
    iblk1 V c 3 t (ix2 k q) = V c main_v115 (ix2 k q) := by
  obtain ⟨e0, e1⟩ := idx1_3 t
  have hemb : ((cfg1.win 3).blk t).view.emb (ix2 k q) = ix2 k q := by
    funext a; apply Fin.ext
    match a with
    | ⟨0, _⟩ => show win1_3.index t (0 : Fin 2) * 128 + 1 * k.val = k.val; omega
    | ⟨1, _⟩ => show win1_3.index t (1 : Fin 2) * 128 + 1 * q.val = q.val; omega
  show V c main_v115 (((cfg1.win 3).blk t).view.emb (ix2 k q)) = _
  rw [hemb]

/-- Window 4's block index at point `t` is `(0, 0)`, decided over the 10 points. -/
theorem idx1_4 : ∀ t : Fin cfg1.N, win1_4.index t (0 : Fin 2) = 0 ∧ win1_4.index t (1 : Fin 2) = 0 :=
  (by decide +kernel : ∀ t : Fin grid1.N, _)

/-- Window 4's block at every point is the whole of `main_v117`. -/
theorem blk1_4 (c : Dev nD) (t : Fin cfg1.N) (k : Fin 128) (q : Fin 128) :
    iblk1 V c 4 t (ix2 k q) = V c main_v117 (ix2 k q) := by
  obtain ⟨e0, e1⟩ := idx1_4 t
  have hemb : ((cfg1.win 4).blk t).view.emb (ix2 k q) = ix2 k q := by
    funext a; apply Fin.ext
    match a with
    | ⟨0, _⟩ => show win1_4.index t (0 : Fin 2) * 128 + 1 * k.val = k.val; omega
    | ⟨1, _⟩ => show win1_4.index t (1 : Fin 2) * 128 + 1 * q.val = q.val; omega
  show V c main_v117 (((cfg1.win 4).blk t).view.emb (ix2 k q)) = _
  rw [hemb]

/-- Window 5's block index at point `t` is `(0, 0)`, decided over the 10 points. -/
theorem idx1_5 : ∀ t : Fin cfg1.N, win1_5.index t (0 : Fin 2) = 0 ∧ win1_5.index t (1 : Fin 2) = 0 :=
  (by decide +kernel : ∀ t : Fin grid1.N, _)

/-- Window 5's block at every point is the whole one-row array `main_v120`. -/
theorem blk1_5 (c : Dev nD) (t : Fin cfg1.N) (q : Fin 128) :
    iblk1 V c 5 t (ix2 (0 : Fin 1) q) = V c main_v120 (ix2 (0 : Fin 1) q) := by
  obtain ⟨e0, e1⟩ := idx1_5 t
  have hemb : ((cfg1.win 5).blk t).view.emb (ix2 (0 : Fin 1) q) = ix2 (0 : Fin 1) q := by
    funext a; apply Fin.ext
    match a with
    | ⟨0, _⟩ => show win1_5.index t (0 : Fin 2) * 1 + 1 * 0 = 0; omega
    | ⟨1, _⟩ => show win1_5.index t (1 : Fin 2) * 128 + 1 * q.val = q.val; omega
  show V c main_v120 (((cfg1.win 5).blk t).view.emb (ix2 (0 : Fin 1) q)) = _
  rw [hemb]

/-- Window 6's block index at point `t` is `(0, 0)`, decided over the 10 points. -/
theorem idx1_6 : ∀ t : Fin cfg1.N, win1_6.index t (0 : Fin 2) = 0 ∧ win1_6.index t (1 : Fin 2) = 0 :=
  (by decide +kernel : ∀ t : Fin grid1.N, _)

/-- Window 6's block at every point is the whole one-row array `main_v123`. -/
theorem blk1_6 (c : Dev nD) (t : Fin cfg1.N) (q : Fin 128) :
    iblk1 V c 6 t (ix2 (0 : Fin 1) q) = V c main_v123 (ix2 (0 : Fin 1) q) := by
  obtain ⟨e0, e1⟩ := idx1_6 t
  have hemb : ((cfg1.win 6).blk t).view.emb (ix2 (0 : Fin 1) q) = ix2 (0 : Fin 1) q := by
    funext a; apply Fin.ext
    match a with
    | ⟨0, _⟩ => show win1_6.index t (0 : Fin 2) * 1 + 1 * 0 = 0; omega
    | ⟨1, _⟩ => show win1_6.index t (1 : Fin 2) * 128 + 1 * q.val = q.val; omega
  show V c main_v123 (((cfg1.win 6).blk t).view.emb (ix2 (0 : Fin 1) q)) = _
  rw [hemb]

/-- Window 7's block index at point `t` is `(0, 0)`, decided over the 10 points. -/
theorem idx1_7 : ∀ t : Fin cfg1.N, win1_7.index t (0 : Fin 2) = 0 ∧ win1_7.index t (1 : Fin 2) = 0 :=
  (by decide +kernel : ∀ t : Fin grid1.N, _)

/-- Window 7's block at every point is the whole one-row array `main_v126`. -/
theorem blk1_7 (c : Dev nD) (t : Fin cfg1.N) (q : Fin 128) :
    iblk1 V c 7 t (ix2 (0 : Fin 1) q) = V c main_v126 (ix2 (0 : Fin 1) q) := by
  obtain ⟨e0, e1⟩ := idx1_7 t
  have hemb : ((cfg1.win 7).blk t).view.emb (ix2 (0 : Fin 1) q) = ix2 (0 : Fin 1) q := by
    funext a; apply Fin.ext
    match a with
    | ⟨0, _⟩ => show win1_7.index t (0 : Fin 2) * 1 + 1 * 0 = 0; omega
    | ⟨1, _⟩ => show win1_7.index t (1 : Fin 2) * 128 + 1 * q.val = q.val; omega
  show V c main_v126 (((cfg1.win 7).blk t).view.emb (ix2 (0 : Fin 1) q)) = _
  rw [hemb]

/-- Window 8's block index at point `t` is `(0, 0)`, decided over the 10 points. -/
theorem idx1_8 : ∀ t : Fin cfg1.N, win1_8.index t (0 : Fin 2) = 0 ∧ win1_8.index t (1 : Fin 2) = 0 :=
  (by decide +kernel : ∀ t : Fin grid1.N, _)

/-- Window 8's block at every point is the whole of `main_arg9`. -/
theorem blk1_8 (c : Dev nD) (t : Fin cfg1.N) (k : Fin 128) (q : Fin 64) :
    iblk1 V c 8 t (ix2 k q) = V c main_arg9 (ix2 k q) := by
  obtain ⟨e0, e1⟩ := idx1_8 t
  have hemb : ((cfg1.win 8).blk t).view.emb (ix2 k q) = ix2 k q := by
    funext a; apply Fin.ext
    match a with
    | ⟨0, _⟩ => show win1_8.index t (0 : Fin 2) * 128 + 1 * k.val = k.val; omega
    | ⟨1, _⟩ => show win1_8.index t (1 : Fin 2) * 64 + 1 * q.val = q.val; omega
  show V c main_arg9 (((cfg1.win 8).blk t).view.emb (ix2 k q)) = _
  rw [hemb]

/-- Window 9's block index at point `t` is `(0, 0)`, decided over the 10 points. -/
theorem idx1_9 : ∀ t : Fin cfg1.N, win1_9.index t (0 : Fin 2) = 0 ∧ win1_9.index t (1 : Fin 2) = 0 :=
  (by decide +kernel : ∀ t : Fin grid1.N, _)

/-- Window 9's block at every point is the whole one-row array `main_v127`. -/
theorem blk1_9 (c : Dev nD) (t : Fin cfg1.N) (q : Fin 64) :
    iblk1 V c 9 t (ix2 (0 : Fin 1) q) = V c main_v127 (ix2 (0 : Fin 1) q) := by
  obtain ⟨e0, e1⟩ := idx1_9 t
  have hemb : ((cfg1.win 9).blk t).view.emb (ix2 (0 : Fin 1) q) = ix2 (0 : Fin 1) q := by
    funext a; apply Fin.ext
    match a with
    | ⟨0, _⟩ => show win1_9.index t (0 : Fin 2) * 1 + 1 * 0 = 0; omega
    | ⟨1, _⟩ => show win1_9.index t (1 : Fin 2) * 64 + 1 * q.val = q.val; omega
  show V c main_v127 (((cfg1.win 9).blk t).view.emb (ix2 (0 : Fin 1) q)) = _
  rw [hemb]

/-- Window 10's block index at point `t` is `(t, 0)`, decided over the 10 points. -/
theorem idx1_10 : ∀ t : Fin cfg1.N, win1_10.index t (0 : Fin 2) = t.val ∧ win1_10.index t (1 : Fin 2) = 0 :=
  (by decide +kernel : ∀ t : Fin grid1.N, _)

/-- The output window 10 tiles the rows of `main_v128`: element `(r, q)` of its block at point `t` sits at
    `(5000 t + r, q)` in the array. -/
theorem emb1_10 (t : Fin cfg1.N) (r : Fin 5000) (q : Fin 64) :
    ((cfg1.win 10).blk t).view.emb (ix2 r q) = ix2 (rowOf1 t r) q := by
  obtain ⟨e0, e1⟩ := idx1_10 t
  funext a; apply Fin.ext
  match a with
  | ⟨0, _⟩ => show win1_10.index t (0 : Fin 2) * 5000 + 1 * r.val = t.val * 5000 + r.val; omega
  | ⟨1, _⟩ => show win1_10.index t (1 : Fin 2) * 64 + 1 * q.val = q.val; omega

/-- An index of `main_v128` is in point `t`'s block iff each coordinate is in the block's range on its axis. -/
theorem mem_blk1_10 (t : Fin cfg1.N) (i : S50000x64.Idx) :
    i ∈ ((cfg1.win 10).blk t).view.set ↔ ∀ a : Fin 2, win1_10.index t a * S5000x64.size a ≤ (i a).val ∧ (i a).val < win1_10.index t a * S5000x64.size a + S5000x64.size a := by
  show i ∈ ((View.whole main_v128).slice (win1_10.rect t)).set ↔ _
  rw [View.set_slice_whole, Rect.mem_set_unit]
  exact Iff.rfl

/-- The ten blocks of 5000 rows cover `main_v128`: row `n` is in the block of point `n / 5000`, which is written
    back. -/
theorem cover1_10 (c : Dev nD) : ∀ i : ((cfg1.win 10).arr.view.loc (c.tc : Thread nD τ)).2.ty.Idx,
    ∃ t : Fin cfg1.N, (cfg1.win 10).flush t = true ∧ i ∈ ((cfg1.win 10).blk t).view.set := by
  intro i
  have hi0 : (i 0).val < 50000 := (i 0).isLt
  have hi1 : (i 1).val < 64 := (i 1).isLt
  have hN : grid1.N = 10 := N_1
  let t : Fin cfg1.N := ⟨(i 0).val / 5000, by show (i 0).val / 5000 < grid1.N; omega⟩
  obtain ⟨e0, e1⟩ := idx1_10 t
  have ht : t.val = (i 0).val / 5000 := rfl
  refine ⟨t, flush1_10 t, ?_⟩
  rw [mem_blk1_10]
  intro a
  match a with
  | ⟨0, _⟩ => show win1_10.index t (0 : Fin 2) * 5000 ≤ (i 0).val ∧ (i 0).val < win1_10.index t (0 : Fin 2) * 5000 + 5000; omega
  | ⟨1, _⟩ => show win1_10.index t (1 : Fin 2) * 64 ≤ (i 1).val ∧ (i 1).val < win1_10.index t (1 : Fin 2) * 64 + 64; omega

end Cert.KBlocks

end
-- ==== Proof.LibPlainDot.lean ====
import Idealize.ShloMosaic.Lib.ValueIdx
import Idealize.ShloMosaic.PureOps.Ideal.Laws

/-!
# A rows-by-columns product read at an index

For dimension numbers that contract the left operand's second axis with the right operand's first and have no
batch axis, the product `[M, K] × [K, N] → [M, N]` at the index `(p, q)` is the plain sum
`∑ k < K, l (p, k) · r (k, q)` over the extended reals — for the matrix unit's product into a zero accumulator and
for the host's `dot_general` alike, whatever `M`, `K`, `N` are. Two programs that cut the rows differently (one whole
array against row tiles) therefore compute the same entries.
-/

noncomputable section

namespace Cert.LibPlainDot

open Idealize.ShloMosaic Idealize.ShloMosaic.ValueIdx
open scoped BigOperators

/-- The dimension numbers of a rows-by-columns product: the left operand's axis 1 against the right operand's
    axis 0, the remaining axes kept in order, no batch axis. -/
structure Plain {M K N : Nat} (d : DotDims ⟨2, ![M, K]⟩ ⟨2, ![K, N]⟩ ⟨2, ![M, N]⟩) : Prop where
  lc : d.lhsContracting = [1]
  rc : d.rhsContracting = [0]
  ln : d.lhsNonContracting = [0]
  rn : d.rhsNonContracting = [1]
  lb : d.lhsBatch = []
  rb : d.rhsBatch = []

section Literal

variable {M K N : Nat}
  (wf : DotDims.WF (⟨2, ![M, K]⟩ : Shape) (⟨2, ![K, N]⟩ : Shape) (⟨2, ![M, N]⟩ : Shape) [1] [0] [0] [1] [] [])

/-- The record with the lists spelt out. -/
abbrev lit : DotDims ⟨2, ![M, K]⟩ ⟨2, ![K, N]⟩ ⟨2, ![M, N]⟩ := ⟨[1], [0], [0], [1], [], [], wf⟩

/-- The left operand's row is the result's row. -/
theorem lit_lhs0 (j : (⟨2, ![M, N]⟩ : Shape).Idx) (k : (lit wf).contr.Idx) : ((lit wf).lhsIdx j k 0).val = (j 0).val := by
  unfold DotDims.lhsIdx
  rw [dif_neg (show ¬ (0 : Fin 2) ∈ (lit wf).lhsBatch from List.not_mem_nil),
    dif_pos (show (0 : Fin 2) ∈ (lit wf).lhsNonContracting from List.mem_singleton.mpr rfl)]
  rfl

/-- The right operand's column is the result's column. -/
theorem lit_rhs1 (j : (⟨2, ![M, N]⟩ : Shape).Idx) (k : (lit wf).contr.Idx) : ((lit wf).rhsIdx j k 1).val = (j 1).val := by
  unfold DotDims.rhsIdx
  rw [dif_neg (show ¬ (1 : Fin 2) ∈ (lit wf).rhsBatch from List.not_mem_nil),
    dif_pos (show (1 : Fin 2) ∈ (lit wf).rhsNonContracting from List.mem_singleton.mpr rfl)]
  rfl

theorem lit_sum (l : (⟨2, ![M, K]⟩ : Shape).Idx → EReal) (r : (⟨2, ![K, N]⟩ : Shape).Idx → EReal) (p : Fin M) (q : Fin N) :
    ∑ k : (lit wf).contr.Idx, l ((lit wf).lhsIdx (ix2 p q) k) * r ((lit wf).rhsIdx (ix2 p q) k)
      = ∑ k : Fin K, l (ix2 p k) * r (ix2 k q) := by
  rw [← Equiv.sum_comp (contrEquiv1 (lit wf) K rfl rfl).symm]
  refine Finset.sum_congr rfl fun k _ => ?_
  have hk := contrEquiv1_symm_val (lit wf) K rfl rfl k
  have el : (lit wf).lhsIdx (ix2 p q) ((contrEquiv1 (lit wf) K rfl rfl).symm k) = ix2 p k := funext fun a => Fin.ext (by
    match a with
    | ⟨0, _⟩ => exact lit_lhs0 wf _ _
    | ⟨1, _⟩ => exact ((lit wf).lhsIdx_val_of_single rfl _ _).trans hk)
  have er : (lit wf).rhsIdx (ix2 p q) ((contrEquiv1 (lit wf) K rfl rfl).symm k) = ix2 k q := funext fun a => Fin.ext (by
    match a with
    | ⟨0, _⟩ => exact ((lit wf).rhsIdx_val_of_single rfl _ _).trans hk
    | ⟨1, _⟩ => exact lit_rhs1 wf _ _)
  rw [el, er]

end Literal

/-- The sum over the contraction index of a rows-by-columns product is the sum over `k < K` of the left operand
    at `(p, k)` times the right operand at `(k, q)`. -/
theorem sum_contr {M K N : Nat} (d : DotDims ⟨2, ![M, K]⟩ ⟨2, ![K, N]⟩ ⟨2, ![M, N]⟩) (h : Plain d)
    (l : (⟨2, ![M, K]⟩ : Shape).Idx → EReal) (r : (⟨2, ![K, N]⟩ : Shape).Idx → EReal) (p : Fin M) (q : Fin N) :
    ∑ k : d.contr.Idx, l (d.lhsIdx (ix2 p q) k) * r (d.rhsIdx (ix2 p q) k) = ∑ k : Fin K, l (ix2 p k) * r (ix2 k q) := by
  obtain ⟨lc, rc, ln, rn, lb, rb, wf⟩ := d
  obtain ⟨h1, h2, h3, h4, h5, h6⟩ := h
  dsimp only at h1 h2 h3 h4 h5 h6
  subst h1 h2 h3 h4 h5 h6
  exact lit_sum wf l r p q

/-- The matrix unit's product into a zero accumulator, at an index: the plain sum. -/
theorem matmul_zero_apply {M K N : Nat} {φ₁ φ₂ : FTy} (d : DotDims ⟨2, ![M, K]⟩ ⟨2, ![K, N]⟩ ⟨2, ![M, N]⟩) (h : Plain d)
    (prec : Option ContractPrecision) (lhs : FVec Ideal ⟨2, ![M, K]⟩ φ₁) (rhs : FVec Ideal ⟨2, ![K, N]⟩ φ₂) (p : Fin M) (q : Fin N) :
    FloatOps.matmul d prec lhs rhs (constant ⟨2, ![M, N]⟩ .f32 0x00000000#32) (ix2 p q)
      = ∑ k : Fin K, lhs (ix2 p k) * rhs (ix2 k q) :=
  (Ideal.matmul_constant_zero_apply d prec lhs rhs (ix2 p q)).trans (sum_contr d h lhs rhs p q)

/-- The host's `dot_general` at an index: the same plain sum, whatever the schedule key. -/
theorem dotGeneral_apply {M K N : Nat} {φ₁ φ₂ : FTy} (d : DotDims ⟨2, ![M, K]⟩ ⟨2, ![K, N]⟩ ⟨2, ![M, N]⟩) (h : Plain d)
    (prec : Option ContractPrecision) (sched : HostSchedule) (lhs : FVec Ideal ⟨2, ![M, K]⟩ φ₁) (rhs : FVec Ideal ⟨2, ![K, N]⟩ φ₂)
    (p : Fin M) (q : Fin N) :
    FloatOps.dotGeneral d prec sched lhs rhs (ix2 p q) = ∑ k : Fin K, lhs (ix2 p k) * rhs (ix2 k q) :=
  (Ideal.dotGeneral_apply d prec sched lhs rhs (ix2 p q)).trans (sum_contr d h lhs rhs p q)

end Cert.LibPlainDot

end
-- ==== Proof.LibColumn.lean ====
import Idealize.ShloMosaic.Lib.ValueLayout

/-!
# A trailing unit axis

A vector of length `a` laid out as one column `[a, 1]`, and that column repeated along the second axis to `[a, b]`:
read at an index, the column holds the vector's entry of the same row, and the repeated column holds, at `(p, c)`,
the column's entry of row `p` whatever `c` is. Together they say a row-wise scale factor kept as a column reaches
every entry of its row.
-/

namespace Cert.LibColumn

open Idealize.ShloMosaic Idealize.ShloMosaic.ValueIdx

variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- One column broadcast over `b` columns reads, at `(p, c)`, the column at row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.LibColumn
-- ==== Proof.RowSpec.lean ====
import Idealize.ShloMosaic.PureOps.Ideal
import Idealize.ShloMosaic.PureOps.Ideal.Laws

/-!
# One row of a layer

A layer turns, for one node, three rows of 128 features — the two aggregated messages and the node's own
features — into a new row: each is multiplied by its own 128 × 128 weight matrix, the three products and three
bias rows are added up, and (for every layer but the last) the sum is clipped below at a floor and divided by
its Euclidean length, itself kept above a small threshold. Everything is over the extended reals, where
addition is commutative and associative without any finiteness assumption, so the order in which the six
summands are added does not matter.
-/

noncomputable section

namespace Cert.RowSpec

open Idealize.ShloMosaic
open scoped BigOperators

/-- Entry `q` of the combined row, the three products first and the three biases after them. -/
def comb (a b x : Fin 128 → EReal) (Ws Wd Wf : Fin 128 → Fin 128 → EReal) (bs bd bf : Fin 128 → EReal)
    (q : Fin 128) : EReal :=
  (((((∑ k, a k * Ws k q) + ∑ k, b k * Wd k q) + ∑ k, x k * Wf k q) + bs q) + bd q) + bf q

/-- The combined row depends on its nine operands only through their entries. -/
theorem comb_congr {a a' b b' x x' : Fin 128 → EReal} {Ws Ws' Wd Wd' Wf Wf' : Fin 128 → Fin 128 → EReal}
    {bs bs' bd bd' bf bf' : Fin 128 → EReal} (ha : ∀ k, a k = a' k) (hb : ∀ k, b k = b' k) (hx : ∀ k, x k = x' k)
    (hWs : ∀ k q, Ws k q = Ws' k q) (hWd : ∀ k q, Wd k q = Wd' k q) (hWf : ∀ k q, Wf k q = Wf' k q)
    (hbs : ∀ q, bs q = bs' q) (hbd : ∀ q, bd q = bd' q) (hbf : ∀ q, bf q = bf' q) (q : Fin 128) :
    comb a b x Ws Wd Wf bs bd bf q = comb a' b' x' Ws' Wd' Wf' bs' bd' bf' q := by
  obtain rfl : a = a' := funext ha
  obtain rfl : b = b' := funext hb
  obtain rfl : x = x' := funext hx
  obtain rfl : Ws = Ws' := funext fun k => funext (hWs k)
  obtain rfl : Wd = Wd' := funext fun k => funext (hWd k)
  obtain rfl : Wf = Wf' := funext fun k => funext (hWf k)
  obtain rfl : bs = bs' := funext hbs
  obtain rfl : bd = bd' := funext hbd
  obtain rfl : bf = bf' := funext hbf
  rfl

/-- The same entry with each bias added right after its own product: the same six summands. -/
theorem comb_interleaved (a b x : Fin 128 → EReal) (Ws Wd Wf : Fin 128 → Fin 128 → EReal) (bs bd bf : Fin 128 → EReal)
    (q : Fin 128) :
    (((((∑ k, a k * Ws k q) + bs q) + ∑ k, b k * Wd k q) + bd q) + ∑ k, x k * Wf k q) + bf q
      = comb a b x Ws Wd Wf bs bd bf q := by
  unfold comb
  ac_rfl

/-- Entry `q` of the clipped row divided by its length: `z` is the floor, `i0` the value a sum starts from, `eps`
    the threshold under the length. -/
def unit (h : Fin 128 → EReal) (z i0 eps : EReal) (q : Fin 128) : EReal :=
  Ideal.div (max (h q) z) (max (Ideal.sqrt (i0 + ∑ k, max (h k) z * max (h k) z)) eps)

/-- The normalised row depends on the row only through its entries. -/
theorem unit_congr {h h' : Fin 128 → EReal} (e : ∀ k, h k = h' k) (z i0 eps : EReal) (q : Fin 128) :
    unit h z i0 eps q = unit h' z i0 eps q := by
  obtain rfl : h = h' := funext e
  rfl

/-- Entry `q` of the read-out row: the row times the 128 × 64 read-out matrix plus its bias. -/
def readout (h : Fin 128 → EReal) (Wr : Fin 128 → Fin 64 → EReal) (br : Fin 64 → EReal) (q : Fin 64) : EReal :=
  (∑ k, h k * Wr k q) + br q

/-- The read-out depends on its operands only through their entries. -/
theorem readout_congr {h h' : Fin 128 → EReal} {Wr Wr' : Fin 128 → Fin 64 → EReal} {br br' : Fin 64 → EReal}
    (eh : ∀ k, h k = h' k) (eW : ∀ k q, Wr k q = Wr' k q) (eb : ∀ q, br q = br' q) (q : Fin 64) :
    readout h Wr br q = readout h' Wr' br' q := by
  obtain rfl : h = h' := funext eh
  obtain rfl : Wr = Wr' := funext fun k => funext (eW k)
  obtain rfl : br = br' := funext eb
  rfl

end Cert.RowSpec

end
-- ==== Proof.KPay.lean ====
import proofs.«152683_j75462575391410_2_alg».proof.Proof.Gen.KernelIdeal.Skeleton
import proofs.«152683_j75462575391410_2_alg».proof.Proof.LibPlainDot
import proofs.«152683_j75462575391410_2_alg».proof.Proof.LibColumn
import proofs.«152683_j75462575391410_2_alg».proof.Proof.RowSpec
import Idealize.ShloMosaic.Lib.ValueIdx
import Idealize.ShloMosaic.Lib.ValueLayout
import Idealize.ShloMosaic.Lib.Pipeline.Value
import Idealize.ShloMosaic.PureOps.Ideal.Laws

/-!
# What the two kernel bodies compute, entry by entry

Each body works on a tile of 5000 nodes. Read at the extended reals, where a change of float format is the
identity and a matrix product into a zero accumulator is a plain sum of products, the first body's result at row
`r`, column `q` is the row specification `RowSpec.unit` of the combined row `RowSpec.comb` of the three
loaded rows `r`, and the second body's result is the read-out `RowSpec.readout` of that combined row.
-/

noncomputable section

namespace Cert.KPay

open Idealize.ShloMosaic Idealize.ShloMosaic.ValueIdx Cert.KernelIdeal Cert.KernelIdeal.Gen Cert.RowSpec
open scoped BigOperators

/-- The two matrix products of the bodies contract the left operand's columns with the right operand's rows. -/
theorem plain128 : LibPlainDot.Plain dot_S5000x128_S128x128_S5000x128_1_0_0_1_n_n := ⟨rfl, rfl, rfl, rfl, rfl, rfl⟩
theorem plain64 : LibPlainDot.Plain dot_S5000x128_S128x64_S5000x64_1_0_0_1_n_n := ⟨rfl, rfl, rfl, rfl, rfl, rfl⟩

/-- The sum along a row of a `[5000, 128]` array with the neutral accumulator is the sum of the row's entries. -/
theorem rowSum_apply (src : FVec Ideal S5000x128 .f32) (h : S5000x128.Reduces [1] S5000) (hφ : FKind.Formats .f32)
    (hacc : (0x00000000#32 : BitVec 32) = 0x00000000#32) (r : Fin 5000) :
    multiReduction .add [1] S5000 src 0x00000000#32 h hφ hacc (ix1 r) = ∑ k : Fin 128, src (ix2 r k) := by
  refine (Ideal.multiReduction_add_single src 0x00000000#32 h hφ hacc (ix1 r)).trans ?_
  refine Finset.sum_congr rfl fun k _ => ?_
  exact congrArg src (funext fun a => Fin.ext (by match a with | ⟨0, _⟩ => rfl | ⟨1, _⟩ => rfl))

/-- The combined and clipped row of the first body at `(r, q)`. -/
theorem pay2_apply (v0 v3 v6 : FVec Ideal S5000x128 .f32) (v8 v11 v14 : FVec Ideal S128x128 .f32)
    (v22 v26 v30 : FVec Ideal S1x128 .f32) (r : Fin 5000) (q : Fin 128) :
    k0_pay2 (F := Ideal) v0 v3 v6 v8 v11 v14 v22 v26 v30 (ix2 r q)
      = max (comb (fun k => v0 (ix2 r k)) (fun k => v3 (ix2 r k)) (fun k => v6 (ix2 r k))
          (fun k q => v8 (ix2 k q)) (fun k q => v11 (ix2 k q)) (fun k q => v14 (ix2 k q))
          (fun q => v22 (ix2 (0 : Fin 1) q)) (fun q => v26 (ix2 (0 : Fin 1) q)) (fun q => v30 (ix2 (0 : Fin 1) q)) q)
          (Ideal.ofBits .f32 0x00000000#32) := by
  unfold k0_pay2
  simp only [maximumf_apply, addf_apply, broadcast_apply,
    LibPlainDot.matmul_zero_apply _ plain128,
    broadcastTo_1b_ab_apply, truncf_apply, shapeCast_self]
  rfl

/-- The first body's stored value at `(r, q)`: the clipped entry over the row's length kept above the threshold. -/
theorem pay1_apply (v35 v36 : FVec Ideal S5000x128 .f32) (r : Fin 5000) (q : Fin 128) :
    k0_pay1 (F := Ideal) v35 v36 (ix2 r q)
      = Ideal.div (v35 (ix2 r q)) (max (Ideal.sqrt (∑ k : Fin 128, v36 (ix2 r k))) (Ideal.ofBits .f32 0x2B8CBCCC#32)) := by
  unfold k0_pay1
  simp only [divf_apply, LibColumn.broadcastTo_a1_ab_apply, maximumf_apply, broadcast_apply]
  refine congrArg (fun z => Ideal.div (v35 (ix2 r q)) (max z _)) ?_
  show Ideal.sqrt (shapeCast S5000x1 _ _ (ix2 r (0 : Fin 1))) = _
  rw [LibColumn.shapeCast_a_a1_apply, rowSum_apply]

/-- THE FIRST BODY at `(r, q)`: `RowSpec.unit` of the combined row of the loaded rows `r`. -/
theorem body0_apply (v0 v3 v6 : FVec Ideal S5000x128 .f32) (v8 v11 v14 : FVec Ideal S128x128 .f32)
    (v22 v26 v30 : FVec Ideal S1x128 .f32) (r : Fin 5000) (q : Fin 128) :
    k0_pay1 (F := Ideal) (k0_pay2 v0 v3 v6 v8 v11 v14 v22 v26 v30) (k0_pay3 v0 v3 v6 v8 v11 v14 v22 v26 v30) (ix2 r q)
      = unit (comb (fun k => v0 (ix2 r k)) (fun k => v3 (ix2 r k)) (fun k => v6 (ix2 r k))
          (fun k q => v8 (ix2 k q)) (fun k q => v11 (ix2 k q)) (fun k q => v14 (ix2 k q))
          (fun q => v22 (ix2 (0 : Fin 1) q)) (fun q => v26 (ix2 (0 : Fin 1) q)) (fun q => v30 (ix2 (0 : Fin 1) q)))
          0 0 (Ideal.ofBits .f32 0x2B8CBCCC#32) q := by
  rw [pay1_apply]
  unfold k0_pay3 unit
  simp only [mulf_apply, pay2_apply, zero_add, Ideal.ofBits_zero_f32]

/-- The second body's combined row (no clipping) at `(r, q)`. -/
theorem pay2'_apply (v0 v3 v6 : FVec Ideal S5000x128 .f32) (v9 v12 v15 : FVec Ideal S128x128 .f32)
    (v23 v27 v31 : FVec Ideal S1x128 .f32) (r : Fin 5000) (q : Fin 128) :
    k1_pay2 (F := Ideal) v0 v3 v6 v9 v12 v15 v23 v27 v31 (ix2 r q)
      = comb (fun k => v0 (ix2 r k)) (fun k => v3 (ix2 r k)) (fun k => v6 (ix2 r k))
          (fun k q => v9 (ix2 k q)) (fun k q => v12 (ix2 k q)) (fun k q => v15 (ix2 k q))
          (fun q => v23 (ix2 (0 : Fin 1) q)) (fun q => v27 (ix2 (0 : Fin 1) q)) (fun q => v31 (ix2 (0 : Fin 1) q)) q := by
  unfold k1_pay2
  simp only [addf_apply, LibPlainDot.matmul_zero_apply _ plain128,
    broadcastTo_1b_ab_apply, truncf_apply, shapeCast_self]
  rfl

/-- THE SECOND BODY at `(r, q)`: the read-out of the combined row of the loaded rows `r`. -/
theorem body1_apply (v0 v3 v6 : FVec Ideal S5000x128 .f32) (v9 v12 v15 : FVec Ideal S128x128 .f32)
    (v23 v27 v31 : FVec Ideal S1x128 .f32) (v36 : FVec Ideal S128x64 .f32) (v39 : FVec Ideal S1x64 .f32)
    (r : Fin 5000) (q : Fin 64) :
    k1_pay1 (F := Ideal) (k1_pay2 v0 v3 v6 v9 v12 v15 v23 v27 v31) v36 v39 (ix2 r q)
      = readout (comb (fun k => v0 (ix2 r k)) (fun k => v3 (ix2 r k)) (fun k => v6 (ix2 r k))
          (fun k q => v9 (ix2 k q)) (fun k q => v12 (ix2 k q)) (fun k q => v15 (ix2 k q))
          (fun q => v23 (ix2 (0 : Fin 1) q)) (fun q => v27 (ix2 (0 : Fin 1) q)) (fun q => v31 (ix2 (0 : Fin 1) q)))
          (fun k q => v36 (ix2 k q)) (fun q => v39 (ix2 (0 : Fin 1) q)) q := by
  unfold k1_pay1 readout
  simp only [addf_apply, LibPlainDot.matmul_zero_apply _ plain64,
    broadcastTo_1b_ab_apply, truncf_apply, shapeCast_self, pay2'_apply]

end Cert.KPay

end
-- ==== Proof.RefRow.lean ====
import proofs.«152683_j75462575391410_2_alg».proof.Proof.Gen.ReferenceIdeal.Read
import proofs.«152683_j75462575391410_2_alg».proof.Proof.RowSpec
import Idealize.ShloMosaic.Lib.ValueIdx
import Idealize.ShloMosaic.PureOps.Ideal.Laws

/-!
# The reference, one node at a time

The reference computes each layer on whole arrays. Read at row `n`, column `q`, its first layer is
`RowSpec.unit` of the combined row `RowSpec.comb` of row `n` of the two aggregated messages and of the
features, and its result is the read-out of the second layer's combined row: the same row functions the kernel's
tiles compute, here with each bias added right after its own product.
-/

noncomputable section

namespace Cert.RefRow

open Idealize.ShloMosaic Idealize.ShloMosaic.ValueIdx Cert.ReferenceIdeal Cert.ReferenceIdeal.Read Cert.RowSpec
open scoped BigOperators

/-! ## Where the composed index maps send `(n, q)` -/

section Idx
variable (n : Fin 50000) (q k : Fin 128)

theorem l79 : lidx_main_v79 (ix2 n q) k = ix2 n k := funext fun a => Fin.ext (by match a with | ⟨0, _⟩ => rfl | ⟨1, _⟩ => rfl)
theorem r79 : ridx_main_v79 (ix2 n q) k = ix2 k q := funext fun a => Fin.ext (by match a with | ⟨0, _⟩ => rfl | ⟨1, _⟩ => rfl)
theorem l87 : lidx_main_v87 (ix2 n q) k = ix2 n k := funext fun a => Fin.ext (by match a with | ⟨0, _⟩ => rfl | ⟨1, _⟩ => rfl)
theorem r87 : ridx_main_v87 (ix2 n q) k = ix2 k q := funext fun a => Fin.ext (by match a with | ⟨0, _⟩ => rfl | ⟨1, _⟩ => rfl)
theorem l96 : lidx_main_v96 (ix2 n q) k = ix2 n k := funext fun a => Fin.ext (by match a with | ⟨0, _⟩ => rfl | ⟨1, _⟩ => rfl)
theorem r96 : ridx_main_v96 (ix2 n q) k = ix2 k q := funext fun a => Fin.ext (by match a with | ⟨0, _⟩ => rfl | ⟨1, _⟩ => rfl)
theorem b83 : idx_main_v82 (idx_main_v83 (ix2 n q)) = ix1 q := funext fun a => Fin.ext (by match a with | ⟨0, _⟩ => rfl)
theorem b92 : idx_main_v91 (idx_main_v92 (ix2 n q)) = ix1 q := funext fun a => Fin.ext (by match a with | ⟨0, _⟩ => rfl)
theorem b101 : idx_main_v100 (idx_main_v101 (ix2 n q)) = ix1 q := funext fun a => Fin.ext (by match a with | ⟨0, _⟩ => rfl)
theorem nrm : idx_main_call1_v1 (idx_main_call1_v2 (idx_main_v107 (ix2 n q))) k = ix2 n k := funext fun a => Fin.ext (by match a with | ⟨0, _⟩ => rfl | ⟨1, _⟩ => rfl)
theorem l130 : lidx_main_v130 (ix2 n q) k = ix2 n k := funext fun a => Fin.ext (by match a with | ⟨0, _⟩ => rfl | ⟨1, _⟩ => rfl)
theorem r130 : ridx_main_v130 (ix2 n q) k = ix2 k q := funext fun a => Fin.ext (by match a with | ⟨0, _⟩ => rfl | ⟨1, _⟩ => rfl)
theorem l138 : lidx_main_v138 (ix2 n q) k = ix2 n k := funext fun a => Fin.ext (by match a with | ⟨0, _⟩ => rfl | ⟨1, _⟩ => rfl)
theorem r138 : ridx_main_v138 (ix2 n q) k = ix2 k q := funext fun a => Fin.ext (by match a with | ⟨0, _⟩ => rfl | ⟨1, _⟩ => rfl)
theorem l147 : lidx_main_v147 (ix2 n q) k = ix2 n k := funext fun a => Fin.ext (by match a with | ⟨0, _⟩ => rfl | ⟨1, _⟩ => rfl)
theorem r147 : ridx_main_v147 (ix2 n q) k = ix2 k q := funext fun a => Fin.ext (by match a with | ⟨0, _⟩ => rfl | ⟨1, _⟩ => rfl)
theorem b134 : idx_main_v133 (idx_main_v134 (ix2 n q)) = ix1 q := funext fun a => Fin.ext (by match a with | ⟨0, _⟩ => rfl)
theorem b143 : idx_main_v142 (idx_main_v143 (ix2 n q)) = ix1 q := funext fun a => Fin.ext (by match a with | ⟨0, _⟩ => rfl)
theorem b152 : idx_main_v151 (idx_main_v152 (ix2 n q)) = ix1 q := funext fun a => Fin.ext (by match a with | ⟨0, _⟩ => rfl)
variable (o : Fin 64)
theorem l154 : lidx_main_v154 (ix2 n o) k = ix2 n k := funext fun a => Fin.ext (by match a with | ⟨0, _⟩ => rfl | ⟨1, _⟩ => rfl)
theorem r154 : ridx_main_v154 (ix2 n o) k = ix2 k o := funext fun a => Fin.ext (by match a with | ⟨0, _⟩ => rfl | ⟨1, _⟩ => rfl)
theorem b156 : idx_main_v155 (idx_main_v156 (ix2 n o)) = ix1 o := funext fun a => Fin.ext (by match a with | ⟨0, _⟩ => rfl)
end Idx

/-! ## The first layer -/

/-- The first layer's sum before clipping at any index, the index maps as the operations compose them. -/
theorem pre1_raw (x0 : (⟨S50000x128, .f32⟩ : BufTy).Contents (Elt Ideal)) (x1 : (⟨S2x800000, .i32⟩ : BufTy).Contents (Elt Ideal)) (x2 : (⟨S800000, .f32⟩ : BufTy).Contents (Elt Ideal)) (x3 x4 x5 : (⟨S2x128x128, .f32⟩ : BufTy).Contents (Elt Ideal)) (x6 x7 x8 : (⟨S2x128, .f32⟩ : BufTy).Contents (Elt Ideal)) (i : S50000x128.Idx) :
    val_main_v102 (F := Ideal) x0 x1 x2 x3 x4 x5 x6 x7 x8 i
      = (((((∑ k : Fin 128, val_main_v70 (F := Ideal) x0 x1 x2 (lidx_main_v79 i k) * val_main_v78 (F := Ideal) x3 (ridx_main_v79 i k))
          + val_main_v81 (F := Ideal) x6 (idx_main_v82 (idx_main_v83 i)))
          + ∑ k : Fin 128, val_main_v76 (F := Ideal) x0 x1 x2 (lidx_main_v87 i k) * val_main_v86 (F := Ideal) x4 (ridx_main_v87 i k))
          + val_main_v90 (F := Ideal) x7 (idx_main_v91 (idx_main_v92 i)))
          + ∑ k : Fin 128, x0 (lidx_main_v96 i k) * val_main_v95 (F := Ideal) x5 (ridx_main_v96 i k))
          + val_main_v99 (F := Ideal) x8 (idx_main_v100 (idx_main_v101 i)) := by
  rw [val_main_v102_apply, val_main_v97_apply, val_main_v93_apply, val_main_v88_apply, val_main_v84_apply,
    val_main_v79_apply, val_main_v87_apply, val_main_v96_apply,
    val_main_v83_apply, val_main_v82_apply, val_main_v92_apply, val_main_v91_apply, val_main_v101_apply,
    val_main_v100_apply]
  rw [Ideal.addf_def, Ideal.addf_def, Ideal.addf_def, Ideal.addf_def, Ideal.addf_def]

/-- The first layer's sum before clipping, at `(n, q)`. -/
theorem pre1_apply (x0 : (⟨S50000x128, .f32⟩ : BufTy).Contents (Elt Ideal)) (x1 : (⟨S2x800000, .i32⟩ : BufTy).Contents (Elt Ideal)) (x2 : (⟨S800000, .f32⟩ : BufTy).Contents (Elt Ideal)) (x3 x4 x5 : (⟨S2x128x128, .f32⟩ : BufTy).Contents (Elt Ideal)) (x6 x7 x8 : (⟨S2x128, .f32⟩ : BufTy).Contents (Elt Ideal)) (n : Fin 50000) (q : Fin 128) :
    val_main_v102 (F := Ideal) x0 x1 x2 x3 x4 x5 x6 x7 x8 (ix2 n q)
      = comb (fun k => val_main_v70 (F := Ideal) x0 x1 x2 (ix2 n k)) (fun k => val_main_v76 (F := Ideal) x0 x1 x2 (ix2 n k))
          (fun k => x0 (ix2 n k))
          (fun k q => val_main_v78 (F := Ideal) x3 (ix2 k q)) (fun k q => val_main_v86 (F := Ideal) x4 (ix2 k q))
          (fun k q => val_main_v95 (F := Ideal) x5 (ix2 k q))
          (fun q => val_main_v81 (F := Ideal) x6 (ix1 q)) (fun q => val_main_v90 (F := Ideal) x7 (ix1 q))
          (fun q => val_main_v99 (F := Ideal) x8 (ix1 q)) q := by
  rw [← comb_interleaved, pre1_raw]
  exact congrArg₂ (· + ·) (congrArg₂ (· + ·) (congrArg₂ (· + ·) (congrArg₂ (· + ·) (congrArg₂ (· + ·) (Finset.sum_congr rfl fun k _ => by rw [l79 n q k, r79 n q k]) (by rw [b83 n q])) (Finset.sum_congr rfl fun k _ => by rw [l87 n q k, r87 n q k])) (by rw [b92 n q])) (Finset.sum_congr rfl fun k _ => by rw [l96 n q k, r96 n q k])) (by rw [b101 n q])

/-- The clipped entry at any index: the sum kept above `0`. -/
theorem relu_raw (x0 : (⟨S50000x128, .f32⟩ : BufTy).Contents (Elt Ideal)) (x1 : (⟨S2x800000, .i32⟩ : BufTy).Contents (Elt Ideal)) (x2 : (⟨S800000, .f32⟩ : BufTy).Contents (Elt Ideal)) (x3 x4 x5 : (⟨S2x128x128, .f32⟩ : BufTy).Contents (Elt Ideal)) (x6 x7 x8 : (⟨S2x128, .f32⟩ : BufTy).Contents (Elt Ideal)) (p : S50000x128.Idx) :
    val_main_v103 (F := Ideal) x0 x1 x2 x3 x4 x5 x6 x7 x8 p = max (val_main_v102 (F := Ideal) x0 x1 x2 x3 x4 x5 x6 x7 x8 p) 0 := by
  rw [val_main_v103_apply, val_main_call0_v0_apply, val_main_call0_cst_apply, Ideal.maximumf_def, Ideal.ofBits_def,
    Ideal.ofBits_zero_f32]

/-- The square of the clipped entry at any index. -/
theorem sq_raw (x0 : (⟨S50000x128, .f32⟩ : BufTy).Contents (Elt Ideal)) (x1 : (⟨S2x800000, .i32⟩ : BufTy).Contents (Elt Ideal)) (x2 : (⟨S800000, .f32⟩ : BufTy).Contents (Elt Ideal)) (x3 x4 x5 : (⟨S2x128x128, .f32⟩ : BufTy).Contents (Elt Ideal)) (x6 x7 x8 : (⟨S2x128, .f32⟩ : BufTy).Contents (Elt Ideal)) (p : S50000x128.Idx) :
    val_main_call1_v0 (F := Ideal) x0 x1 x2 x3 x4 x5 x6 x7 x8 p
      = max (val_main_v102 (F := Ideal) x0 x1 x2 x3 x4 x5 x6 x7 x8 p) 0 * max (val_main_v102 (F := Ideal) x0 x1 x2 x3 x4 x5 x6 x7 x8 p) 0 := by
  rw [val_main_call1_v0_apply, Ideal.mulf_def, relu_raw]

/-- The squared length of a clipped row: the sum of its 128 squares, started from `0`. -/
theorem len_raw (x0 : (⟨S50000x128, .f32⟩ : BufTy).Contents (Elt Ideal)) (x1 : (⟨S2x800000, .i32⟩ : BufTy).Contents (Elt Ideal)) (x2 : (⟨S800000, .f32⟩ : BufTy).Contents (Elt Ideal)) (x3 x4 x5 : (⟨S2x128x128, .f32⟩ : BufTy).Contents (Elt Ideal)) (x6 x7 x8 : (⟨S2x128, .f32⟩ : BufTy).Contents (Elt Ideal)) (m : S50000.Idx) :
    val_main_call1_v1 (F := Ideal) x0 x1 x2 x3 x4 x5 x6 x7 x8 m
      = 0 + ∑ k : Fin 128, max (val_main_v102 (F := Ideal) x0 x1 x2 x3 x4 x5 x6 x7 x8 (idx_main_call1_v1 m k)) 0
          * max (val_main_v102 (F := Ideal) x0 x1 x2 x3 x4 x5 x6 x7 x8 (idx_main_call1_v1 m k)) 0 := by
  rw [val_main_call1_v1_apply, val_main_call1_cst_apply, Ideal.ofBits_def, Ideal.ofBits_zero_f32]
  exact congrArg (0 + ·) (Finset.sum_congr rfl fun k _ => sq_raw x0 x1 x2 x3 x4 x5 x6 x7 x8 _)

/-- The first layer at any index: the clipped entry over the row's length kept above the threshold. -/
theorem layer1_raw (x0 : (⟨S50000x128, .f32⟩ : BufTy).Contents (Elt Ideal)) (x1 : (⟨S2x800000, .i32⟩ : BufTy).Contents (Elt Ideal)) (x2 : (⟨S800000, .f32⟩ : BufTy).Contents (Elt Ideal)) (x3 x4 x5 : (⟨S2x128x128, .f32⟩ : BufTy).Contents (Elt Ideal)) (x6 x7 x8 : (⟨S2x128, .f32⟩ : BufTy).Contents (Elt Ideal)) (i : S50000x128.Idx) :
    val_main_v108 (F := Ideal) x0 x1 x2 x3 x4 x5 x6 x7 x8 i
      = Ideal.div (max (val_main_v102 (F := Ideal) x0 x1 x2 x3 x4 x5 x6 x7 x8 i) 0)
          (max (Ideal.sqrt (0 + ∑ k : Fin 128,
              max (val_main_v102 (F := Ideal) x0 x1 x2 x3 x4 x5 x6 x7 x8 (idx_main_call1_v1 (idx_main_call1_v2 (idx_main_v107 i)) k)) 0
                * max (val_main_v102 (F := Ideal) x0 x1 x2 x3 x4 x5 x6 x7 x8 (idx_main_call1_v1 (idx_main_call1_v2 (idx_main_v107 i)) k)) 0))
            (Ideal.ofBits .f32 0x2B8CBCCC#32)) := by
  rw [val_main_v108_apply, Ideal.hostDivf_def, relu_raw, val_main_v107_apply, val_main_v106_apply, Ideal.maximumf_def,
    val_main_v104_apply, Ideal.hostUnary_sqrt_def, val_main_call1_v2_apply, len_raw, val_main_v105_apply,
    val_main_cst_16_apply, Ideal.ofBits_def]

/-- THE FIRST LAYER at `(n, q)`. -/
theorem layer1_apply (x0 : (⟨S50000x128, .f32⟩ : BufTy).Contents (Elt Ideal)) (x1 : (⟨S2x800000, .i32⟩ : BufTy).Contents (Elt Ideal)) (x2 : (⟨S800000, .f32⟩ : BufTy).Contents (Elt Ideal)) (x3 x4 x5 : (⟨S2x128x128, .f32⟩ : BufTy).Contents (Elt Ideal)) (x6 x7 x8 : (⟨S2x128, .f32⟩ : BufTy).Contents (Elt Ideal)) (n : Fin 50000) (q : Fin 128) :
    val_main_v108 (F := Ideal) x0 x1 x2 x3 x4 x5 x6 x7 x8 (ix2 n q)
      = unit (fun k => val_main_v102 (F := Ideal) x0 x1 x2 x3 x4 x5 x6 x7 x8 (ix2 n k)) 0 0 (Ideal.ofBits .f32 0x2B8CBCCC#32) q := by
  rw [layer1_raw]
  unfold unit
  refine congrArg (fun z => Ideal.div (max (val_main_v102 (F := Ideal) x0 x1 x2 x3 x4 x5 x6 x7 x8 (ix2 n q)) 0)
    (max (Ideal.sqrt (0 + z)) (Ideal.ofBits .f32 0x2B8CBCCC#32))) (Finset.sum_congr rfl fun k _ => ?_)
  rw [nrm n q k]

/-! ## The second layer and the read-out -/

/-- The second layer's sum at any index. -/
theorem pre2_raw (x0 : (⟨S50000x128, .f32⟩ : BufTy).Contents (Elt Ideal)) (x1 : (⟨S2x800000, .i32⟩ : BufTy).Contents (Elt Ideal)) (x2 : (⟨S800000, .f32⟩ : BufTy).Contents (Elt Ideal)) (x3 x4 x5 : (⟨S2x128x128, .f32⟩ : BufTy).Contents (Elt Ideal)) (x6 x7 x8 : (⟨S2x128, .f32⟩ : BufTy).Contents (Elt Ideal)) (i : S50000x128.Idx) :
    val_main_v153 (F := Ideal) x0 x1 x2 x3 x4 x5 x6 x7 x8 i
      = (((((∑ k : Fin 128, val_main_v121 (F := Ideal) x0 x1 x2 x3 x4 x5 x6 x7 x8 (lidx_main_v130 i k) * val_main_v129 (F := Ideal) x3 (ridx_main_v130 i k))
          + val_main_v132 (F := Ideal) x6 (idx_main_v133 (idx_main_v134 i)))
          + ∑ k : Fin 128, val_main_v127 (F := Ideal) x0 x1 x2 x3 x4 x5 x6 x7 x8 (lidx_main_v138 i k) * val_main_v137 (F := Ideal) x4 (ridx_main_v138 i k))
          + val_main_v141 (F := Ideal) x7 (idx_main_v142 (idx_main_v143 i)))
          + ∑ k : Fin 128, val_main_v108 (F := Ideal) x0 x1 x2 x3 x4 x5 x6 x7 x8 (lidx_main_v147 i k) * val_main_v146 (F := Ideal) x5 (ridx_main_v147 i k))
          + val_main_v150 (F := Ideal) x8 (idx_main_v151 (idx_main_v152 i)) := by
  rw [val_main_v153_apply, val_main_v148_apply, val_main_v144_apply, val_main_v139_apply, val_main_v135_apply,
    val_main_v130_apply, val_main_v138_apply, val_main_v147_apply,
    val_main_v134_apply, val_main_v133_apply, val_main_v143_apply, val_main_v142_apply, val_main_v152_apply,
    val_main_v151_apply]
  rw [Ideal.addf_def, Ideal.addf_def, Ideal.addf_def, Ideal.addf_def, Ideal.addf_def]

/-- The second layer's sum at `(n, q)`: the combined row of row `n` of the second aggregation and of the first
    layer's result. -/
theorem pre2_apply (x0 : (⟨S50000x128, .f32⟩ : BufTy).Contents (Elt Ideal)) (x1 : (⟨S2x800000, .i32⟩ : BufTy).Contents (Elt Ideal)) (x2 : (⟨S800000, .f32⟩ : BufTy).Contents (Elt Ideal)) (x3 x4 x5 : (⟨S2x128x128, .f32⟩ : BufTy).Contents (Elt Ideal)) (x6 x7 x8 : (⟨S2x128, .f32⟩ : BufTy).Contents (Elt Ideal)) (n : Fin 50000) (q : Fin 128) :
    val_main_v153 (F := Ideal) x0 x1 x2 x3 x4 x5 x6 x7 x8 (ix2 n q)
      = comb (fun k => val_main_v121 (F := Ideal) x0 x1 x2 x3 x4 x5 x6 x7 x8 (ix2 n k)) (fun k => val_main_v127 (F := Ideal) x0 x1 x2 x3 x4 x5 x6 x7 x8 (ix2 n k))
          (fun k => val_main_v108 (F := Ideal) x0 x1 x2 x3 x4 x5 x6 x7 x8 (ix2 n k))
          (fun k q => val_main_v129 (F := Ideal) x3 (ix2 k q)) (fun k q => val_main_v137 (F := Ideal) x4 (ix2 k q))
          (fun k q => val_main_v146 (F := Ideal) x5 (ix2 k q))
          (fun q => val_main_v132 (F := Ideal) x6 (ix1 q)) (fun q => val_main_v141 (F := Ideal) x7 (ix1 q))
          (fun q => val_main_v150 (F := Ideal) x8 (ix1 q)) q := by
  rw [← comb_interleaved, pre2_raw]
  exact congrArg₂ (· + ·) (congrArg₂ (· + ·) (congrArg₂ (· + ·) (congrArg₂ (· + ·) (congrArg₂ (· + ·) (Finset.sum_congr rfl fun k _ => by rw [l130 n q k, r130 n q k]) (by rw [b134 n q])) (Finset.sum_congr rfl fun k _ => by rw [l138 n q k, r138 n q k])) (by rw [b143 n q])) (Finset.sum_congr rfl fun k _ => by rw [l147 n q k, r147 n q k])) (by rw [b152 n q])

/-- The result at any index. -/
theorem result_raw (x0 : (⟨S50000x128, .f32⟩ : BufTy).Contents (Elt Ideal)) (x1 : (⟨S2x800000, .i32⟩ : BufTy).Contents (Elt Ideal)) (x2 : (⟨S800000, .f32⟩ : BufTy).Contents (Elt Ideal)) (x3 x4 x5 : (⟨S2x128x128, .f32⟩ : BufTy).Contents (Elt Ideal)) (x6 x7 x8 : (⟨S2x128, .f32⟩ : BufTy).Contents (Elt Ideal)) (x9 : (⟨S128x64, .f32⟩ : BufTy).Contents (Elt Ideal))
    (x10 : (⟨S64, .f32⟩ : BufTy).Contents (Elt Ideal)) (i : S50000x64.Idx) :
    val_main_v157 (F := Ideal) x0 x1 x2 x3 x4 x5 x6 x7 x8 x9 x10 i
      = (∑ k : Fin 128, val_main_v153 (F := Ideal) x0 x1 x2 x3 x4 x5 x6 x7 x8 (lidx_main_v154 i k) * x9 (ridx_main_v154 i k))
          + x10 (idx_main_v155 (idx_main_v156 i)) := by
  rw [val_main_v157_apply, val_main_v154_apply, val_main_v156_apply, val_main_v155_apply, Ideal.addf_def]

/-- THE RESULT at `(n, o)`: the read-out of the second layer's row `n`. -/
theorem result_apply (x0 : (⟨S50000x128, .f32⟩ : BufTy).Contents (Elt Ideal)) (x1 : (⟨S2x800000, .i32⟩ : BufTy).Contents (Elt Ideal)) (x2 : (⟨S800000, .f32⟩ : BufTy).Contents (Elt Ideal)) (x3 x4 x5 : (⟨S2x128x128, .f32⟩ : BufTy).Contents (Elt Ideal)) (x6 x7 x8 : (⟨S2x128, .f32⟩ : BufTy).Contents (Elt Ideal)) (x9 : (⟨S128x64, .f32⟩ : BufTy).Contents (Elt Ideal))
    (x10 : (⟨S64, .f32⟩ : BufTy).Contents (Elt Ideal)) (n : Fin 50000) (o : Fin 64) :
    val_main_v157 (F := Ideal) x0 x1 x2 x3 x4 x5 x6 x7 x8 x9 x10 (ix2 n o)
      = readout (fun k => val_main_v153 (F := Ideal) x0 x1 x2 x3 x4 x5 x6 x7 x8 (ix2 n k)) (fun k o => x9 (ix2 k o)) (fun o => x10 (ix1 o)) o := by
  rw [result_raw]
  unfold readout
  exact congrArg₂ (· + ·) (Finset.sum_congr rfl fun k _ => by rw [l154 n k o, r154 n k o]) (by rw [b156 n o])

end Cert.RefRow

end
-- ==== Proof.LibScatterSet.lean ====
import Idealize.ShloMosaic.PureOps
import Idealize.ShloMosaic.Lib.ValueIdx

namespace Cert.Lib

open Idealize.ShloMosaic Idealize.ShloMosaic.ValueIdx

/-! ## A left fold of pointwise overwrites, read at one position -/

/-- A left fold whose every step leaves position `i` alone leaves the accumulator's value at `i`. -/
theorem foldl_apply_of_keep {β ι γ : Type} (step : (ι → γ) → β → (ι → γ)) (i : ι) (l : List β)
    (h : ∀ n ∈ l, ∀ r, step r n i = r i) (r : ι → γ) : l.foldl step r i = r i := by
  induction l generalizing r with
  | nil => rfl
  | cons n l ih =>
    rw [List.foldl_cons, ih (fun m hm => h m (List.mem_cons_of_mem _ hm)), h n List.mem_cons_self]

section General
variable {s si u : Shape} {α : Type} {w : Nat}

/-- An update index lands on `i` exactly when, on every axis, its start plus its window coordinate is
    `i`'s coordinate. -/
theorem resultIdx?_eq_some_iff (d : ScatterDims s si u) (j : u.Idx) (idx : IVec si w) (i : s.Idx) :
    d.resultIdx? j idx = some i ↔ ∀ a, d.start j idx a + (d.window j a : Int) = ((i a).val : Int) := by
  unfold ScatterDims.resultIdx?
  split
  · next h =>
    rw [Option.some.injEq]
    constructor
    · intro e a
      have h1 := congrArg (fun f => (f a).val) e
      have h2 := h a
      simp only at h1
      omega
    · intro e
      funext a
      apply Fin.ext
      have h1 := e a
      have h2 := h a
      simp only
      omega
  · next h =>
    constructor
    · intro e; cases e
    · intro e
      exact absurd (fun a => by have h1 := e a; have h2 := (i a).isLt; omega) h

/-- A position no update index lands on keeps the operand's value. -/
theorem scatter_set_miss (d : ScatterDims s si u) (x : s.Idx → α) (idx : IVec si w) (upd : u.Idx → α)
    (i : s.Idx) (hmiss : ∀ j, d.resultIdx? j idx ≠ some i) : Host.scatter d (fun _ b => b) x idx upd i = x i := by
  unfold Host.scatter
  refine foldl_apply_of_keep _ i _ (fun n _ r => ?_) x
  generalize ho : d.resultIdx? (u.rowMajor.symm n) idx = o
  cases o with
  | none => rfl
  | some i0 => exact if_neg (fun e => hmiss _ (e ▸ ho))

/-- When the body returns the update and exactly one update index lands on a position, the result there is that
    update's value. -/
theorem scatter_set_hit (d : ScatterDims s si u) (x : s.Idx → α) (idx : IVec si w) (upd : u.Idx → α)
    (i : s.Idx) (j₀ : u.Idx) (h₀ : d.resultIdx? j₀ idx = some i) (huniq : ∀ j, d.resultIdx? j idx = some i → j = j₀) :
    Host.scatter d (fun _ b => b) x idx upd i = upd j₀ := by
  unfold Host.scatter
  have hmem : u.rowMajor j₀ ∈ List.finRange u.numel := List.mem_finRange _
  have hnd := List.nodup_finRange u.numel
  generalize List.finRange u.numel = l at hmem hnd
  induction l generalizing x with
  | nil => cases hmem
  | cons n l ih =>
    rw [List.foldl_cons]
    rw [List.nodup_cons] at hnd
    by_cases hn : n = u.rowMajor j₀
    · subst hn
      rw [foldl_apply_of_keep _ i l (fun m hm r => ?_)]
      · simp only [Equiv.symm_apply_apply, h₀, if_true]
      · generalize ho : d.resultIdx? (u.rowMajor.symm m) idx = o
        cases o with
        | none => rfl
        | some i0 =>
          refine if_neg (fun e => ?_)
          subst e
          have := huniq _ ho
          exact hnd.1 (by rw [← this, Equiv.apply_symm_apply]; exact hm)
    · rcases List.mem_cons.1 hmem with e | hm
      · exact absurd e.symm hn
      · exact ih _ hm hnd.2

end General

/-! ## A block of channels written into `[16, 64, 256, 256]` at a run-time first channel -/

section Channels

/-- The dimension numbers of writing a `[16, C, 256, 256]` block into a `[16, 64, 256, 256]` array at one scatter
    index that names the first channel: every update axis is a window axis, nothing is inserted, and the one
    component of the start index goes to axis 1. -/
abbrev chanDims (C : Nat)
    (wf : ScatterDims.WF ⟨4, ![16, 64, 256, 256]⟩ ⟨1, ![1]⟩ ⟨4, ![16, C, 256, 256]⟩ [0, 1, 2, 3] [] [1] 0) :
    ScatterDims ⟨4, ![16, 64, 256, 256]⟩ ⟨1, ![1]⟩ ⟨4, ![16, C, 256, 256]⟩ :=
  ⟨[0, 1, 2, 3], [], [1], 0, wf⟩

/-- The window coordinate on every axis is the update index's own coordinate. -/
theorem chanDims_window (C : Nat)
    (wf : ScatterDims.WF ⟨4, ![16, 64, 256, 256]⟩ ⟨1, ![1]⟩ ⟨4, ![16, C, 256, 256]⟩ [0, 1, 2, 3] [] [1] 0)
    (j : (⟨4, ![16, C, 256, 256]⟩ : Shape).Idx) (a : Fin 4) : (chanDims C wf).window j a = (j a).val := by
  have hk : ∀ a : Fin 4, a ∈ Shape.kept ⟨4, ![16, 64, 256, 256]⟩ [] := by decide
  unfold ScatterDims.window
  rw [dif_pos (show a ∈ (chanDims C wf).sKept from hk a)]
  match a with
  | ⟨0, _⟩ => rfl
  | ⟨1, _⟩ => rfl
  | ⟨2, _⟩ => rfl
  | ⟨3, _⟩ => rfl

/-- The window starts at the scatter index's value on the channel axis and at `0` on the others. -/
theorem chanDims_start (C : Nat)
    (wf : ScatterDims.WF ⟨4, ![16, 64, 256, 256]⟩ ⟨1, ![1]⟩ ⟨4, ![16, C, 256, 256]⟩ [0, 1, 2, 3] [] [1] 0)
    (j : (⟨4, ![16, C, 256, 256]⟩ : Shape).Idx) {w : Nat} (idx : IVec ⟨1, ![1]⟩ w) (a : Fin 4) :
    (chanDims C wf).start j idx a = if a = 1 then (idx (ix1 0)).toInt else 0 := by
  unfold ScatterDims.start
  by_cases ha : a = 1
  · subst ha
    rw [dif_pos (show (1 : Fin 4) ∈ (chanDims C wf).scatterDimsToOperandDims from List.mem_singleton.mpr rfl),
      if_pos rfl]
    have hsi : (chanDims C wf).siIdx j ⟨List.idxOf (1 : Fin 4) (chanDims C wf).scatterDimsToOperandDims,
        List.idxOf_lt_length_iff.2 (List.mem_singleton.mpr rfl)⟩ = ix1 0 := by
      funext b; refine Fin.ext ?_
      match b with
      | ⟨0, _⟩ => rfl
    rw [hsi]
  · rw [dif_neg (show a ∉ (chanDims C wf).scatterDimsToOperandDims from fun h => ha (List.mem_singleton.mp h)),
      if_neg ha]

/-- An update index lands on `(n, ch, h, w)` exactly when its coordinates are `n`, `ch - k`, `h`, `w`, `k` the first
    channel the scatter index names. -/
theorem chanDims_resultIdx?_iff (C : Nat)
    (wf : ScatterDims.WF ⟨4, ![16, 64, 256, 256]⟩ ⟨1, ![1]⟩ ⟨4, ![16, C, 256, 256]⟩ [0, 1, 2, 3] [] [1] 0)
    {v : Nat} (idx : IVec ⟨1, ![1]⟩ v) (k : Nat) (hidx : (idx (ix1 0)).toInt = (k : Int))
    (j : (⟨4, ![16, C, 256, 256]⟩ : Shape).Idx) (n : Fin 16) (ch : Fin 64) (h : Fin 256) (w : Fin 256) :
    (chanDims C wf).resultIdx? j idx = some (ix4 n ch h w) ↔
      (j 0).val = n.val ∧ k + (j 1).val = ch.val ∧ (j 2).val = h.val ∧ (j 3).val = w.val := by
  rw [resultIdx?_eq_some_iff]
  have key : ∀ a : Fin 4, (chanDims C wf).start j idx a + ((chanDims C wf).window j a : Int)
      = (if a = 1 then (k : Int) else 0) + ((j a).val : Int) := by
    intro a; rw [chanDims_start, chanDims_window, hidx]
  constructor
  · intro e
    have e0 : (0 : Int) + ((j 0).val : Int) = (n.val : Int) := (key 0).symm.trans (e (0 : Fin 4))
    have e1 : (k : Int) + ((j 1).val : Int) = (ch.val : Int) := (key 1).symm.trans (e (1 : Fin 4))
    have e2 : (0 : Int) + ((j 2).val : Int) = (h.val : Int) := (key 2).symm.trans (e (2 : Fin 4))
    have e3 : (0 : Int) + ((j 3).val : Int) = (w.val : Int) := (key 3).symm.trans (e (3 : Fin 4))
    omega
  · rintro ⟨e0, e1, e2, e3⟩ a
    refine (key a).trans ?_
    match a with
    | ⟨0, _⟩ => show (0 : Int) + ((j 0).val : Int) = (n.val : Int); omega
    | ⟨1, _⟩ => show (k : Int) + ((j 1).val : Int) = (ch.val : Int); omega
    | ⟨2, _⟩ => show (0 : Int) + ((j 2).val : Int) = (h.val : Int); omega
    | ⟨3, _⟩ => show (0 : Int) + ((j 3).val : Int) = (w.val : Int); omega

/-- THE SCATTER READ AT `(n, ch, h, w)`: inside the written block of channels `[k, k + C)` it is the update at
    channel `ch - k`, outside it the operand. -/
theorem scatter_channels_apply {α : Type} (C : Nat)
    (wf : ScatterDims.WF ⟨4, ![16, 64, 256, 256]⟩ ⟨1, ![1]⟩ ⟨4, ![16, C, 256, 256]⟩ [0, 1, 2, 3] [] [1] 0)
    (x : (⟨4, ![16, 64, 256, 256]⟩ : Shape).Idx → α) (idx : IVec ⟨1, ![1]⟩ 32) (k : Nat)
    (hidx : (idx (ix1 0)).toInt = (k : Int)) (hk : k + C ≤ 64)
    (upd : (⟨4, ![16, C, 256, 256]⟩ : Shape).Idx → α) (n : Fin 16) (ch : Fin 64) (h : Fin 256) (w : Fin 256) :
    Host.scatter (⟨[0, 1, 2, 3], [], [1], 0, wf⟩ : ScatterDims ⟨4, ![16, 64, 256, 256]⟩ ⟨1, ![1]⟩ ⟨4, ![16, C, 256, 256]⟩)
        (fun _ b => b) x idx upd (ix4 n ch h w)
      = if hc : k ≤ ch.val ∧ ch.val < k + C then upd (ix4 n ⟨ch.val - k, by omega⟩ h w) else x (ix4 n ch h w) := by
  have hiff := fun j => chanDims_resultIdx?_iff C wf idx k hidx j n ch h w
  split
  · next hc =>
    refine scatter_set_hit (chanDims C wf) x idx upd _ _ ((hiff _).2 ⟨rfl, ?_, rfl, rfl⟩) (fun j hj => ?_)
    · show k + (ch.val - k) = ch.val
      omega
    · obtain ⟨e0, e1, e2, e3⟩ := (hiff j).1 hj
      funext a
      refine Fin.ext ?_
      match a with
      | ⟨0, _⟩ => exact e0
      | ⟨1, _⟩ => show (j 1).val = ch.val - k; omega
      | ⟨2, _⟩ => exact e2
      | ⟨3, _⟩ => exact e3
  · next hc =>
    refine scatter_set_miss (chanDims C wf) x idx upd _ (fun j hj => hc ?_)
    obtain ⟨e0, e1, e2, e3⟩ := (hiff j).1 hj
    have hj1 : (j 1).val < C := (j 1).isLt
    omega

end Channels

end Cert.Lib
-- ==== Proof.LibScatterRows.lean ====
import proofs.«152683_j75462575391410_2_alg».proof.Proof.LibScatterSet

/-!
# An accumulating scatter of rows, read at an index

An `[N, C]` operand receives the rows of an `[E, C]` array of updates: row `e` of the updates is added into the operand's
row named by the `e`-th scatter index, an entry of an `[E, 1]` array of integer words read signed. Several rows may name
the same operand row, and a row whose index is negative or at least `N` lands nowhere.

For the dimension numbers of such a scatter (update axis 1 the window axis, operand axis 0 inserted, the one component
of the start index sent to operand axis 0, the index vector on axis 1 of the scatter indices):

* update index `j` lands on `(n, c)` exactly when the scatter index of row `j 0` is `n` and `j 1 = c`
  (`rows_resultIdx?_iff`);
* at the ideal instance the result at `(n, c)` is the operand there plus the sum, over the rows `e` whose scatter index
  is `n`, of the update at `(e, c)` (`scatterAdd_rows_apply`, `host_scatterAdd_rows_apply`).

The sizes `N`, `C`, `E` and the index width are arbitrary.
-/

open scoped BigOperators

namespace Cert.LibScatterRows

open Idealize.ShloMosaic Idealize.ShloMosaic.ValueIdx

/-! ## The literal dimension numbers of a row scatter -/

section Literal
variable {N C E : Nat}

/-- The dimension numbers of adding the rows of an `[E, C]` array of updates into an `[N, C]` operand at `E` scatter
    indices held in an `[E, 1]` array: update axis 1 is the window axis, operand axis 0 is inserted, and the one
    component of each start index goes to operand axis 0. -/
abbrev rowDims (N C E : Nat)
    (wf : ScatterDims.WF ⟨2, ![N, C]⟩ ⟨2, ![E, 1]⟩ ⟨2, ![E, C]⟩ [1] [0] [0] 1) :
    ScatterDims ⟨2, ![N, C]⟩ ⟨2, ![E, 1]⟩ ⟨2, ![E, C]⟩ :=
  ⟨[1], [0], [0], 1, wf⟩

/-- The operand's axes that are not inserted: the column axis alone. -/
theorem rowDims_sKept (wf : ScatterDims.WF ⟨2, ![N, C]⟩ ⟨2, ![E, 1]⟩ ⟨2, ![E, C]⟩ [1] [0] [0] 1) :
    (rowDims N C E wf).sKept = [(1 : Fin 2)] :=
  (by decide : (List.finRange 2).filter (fun a => a ∉ [(0 : Fin 2)]) = [1])

/-- The window coordinate on the row axis is `0`: that axis is inserted. -/
theorem rowDims_window_row (wf : ScatterDims.WF ⟨2, ![N, C]⟩ ⟨2, ![E, 1]⟩ ⟨2, ![E, C]⟩ [1] [0] [0] 1)
    (j : (⟨2, ![E, C]⟩ : Shape).Idx) : (rowDims N C E wf).window j 0 = 0 := by
  unfold ScatterDims.window
  refine dif_neg ?_
  rw [rowDims_sKept]
  exact (by decide : (0 : Fin 2) ∉ [(1 : Fin 2)])

/-- The window coordinate on the column axis is the update index's column. -/
theorem rowDims_window_col (wf : ScatterDims.WF ⟨2, ![N, C]⟩ ⟨2, ![E, 1]⟩ ⟨2, ![E, C]⟩ [1] [0] [0] 1)
    (j : (⟨2, ![E, C]⟩ : Shape).Idx) : (rowDims N C E wf).window j 1 = (j 1).val := by
  unfold ScatterDims.window
  refine (dif_pos ?_).trans rfl
  rw [rowDims_sKept]
  exact List.mem_singleton.mpr rfl

/-- On the row axis the window starts at the row the update's scatter index names, read signed. -/
theorem rowDims_start_row (wf : ScatterDims.WF ⟨2, ![N, C]⟩ ⟨2, ![E, 1]⟩ ⟨2, ![E, C]⟩ [1] [0] [0] 1)
    (j : (⟨2, ![E, C]⟩ : Shape).Idx) {w : Nat} (idx : IVec ⟨2, ![E, 1]⟩ w) :
    (rowDims N C E wf).start j idx 0 = (idx (ix2 ⟨(j 0).val, (j 0).isLt⟩ (0 : Fin 1))).toInt := by
  unfold ScatterDims.start
  have hmem : (0 : Fin 2) ∈ (rowDims N C E wf).scatterDimsToOperandDims := List.mem_singleton.mpr rfl
  refine (dif_pos hmem).trans ?_
  have hsi : (rowDims N C E wf).siIdx j ⟨List.idxOf (0 : Fin 2) (rowDims N C E wf).scatterDimsToOperandDims,
      List.idxOf_lt_length_iff.2 hmem⟩ = ix2 ⟨(j 0).val, (j 0).isLt⟩ (0 : Fin 1) := by
    funext b; refine Fin.ext ?_
    match b with
    | ⟨0, _⟩ => rfl
    | ⟨1, _⟩ => rfl
  exact congrArg (fun i => (idx i).toInt) hsi

/-- On the column axis the window starts at `0`: no component of the start index goes there. -/
theorem rowDims_start_col (wf : ScatterDims.WF ⟨2, ![N, C]⟩ ⟨2, ![E, 1]⟩ ⟨2, ![E, C]⟩ [1] [0] [0] 1)
    (j : (⟨2, ![E, C]⟩ : Shape).Idx) {w : Nat} (idx : IVec ⟨2, ![E, 1]⟩ w) :
    (rowDims N C E wf).start j idx 1 = 0 := by
  unfold ScatterDims.start
  refine dif_neg (fun h => ?_)
  exact absurd (List.mem_singleton.mp h) (by decide : ¬ (1 : Fin 2) = 0)

/-- An update index lands on `(n, c)` exactly when its row's scatter index, read signed, is `n` and its column is
    `c`. -/
theorem rowDims_resultIdx?_iff (wf : ScatterDims.WF ⟨2, ![N, C]⟩ ⟨2, ![E, 1]⟩ ⟨2, ![E, C]⟩ [1] [0] [0] 1)
    {w : Nat} (idx : IVec ⟨2, ![E, 1]⟩ w) (j : (⟨2, ![E, C]⟩ : Shape).Idx) (n : Fin N) (c : Fin C) :
    (rowDims N C E wf).resultIdx? j idx = some (ix2 n c) ↔
      (idx (ix2 ⟨(j 0).val, (j 0).isLt⟩ (0 : Fin 1))).toInt = (n.val : Int) ∧ (j 1).val = c.val := by
  rw [Cert.Lib.resultIdx?_eq_some_iff]
  have k0 : (rowDims N C E wf).start j idx 0 + ((rowDims N C E wf).window j 0 : Int)
      = (idx (ix2 ⟨(j 0).val, (j 0).isLt⟩ (0 : Fin 1))).toInt := by
    rw [rowDims_start_row, rowDims_window_row]; simp
  have k1 : (rowDims N C E wf).start j idx 1 + ((rowDims N C E wf).window j 1 : Int) = ((j 1).val : Int) := by
    rw [rowDims_start_col, rowDims_window_col]; simp
  constructor
  · intro e
    have e0 : (idx (ix2 ⟨(j 0).val, (j 0).isLt⟩ (0 : Fin 1))).toInt = (n.val : Int) := k0.symm.trans (e (0 : Fin 2))
    have e1 : ((j 1).val : Int) = (c.val : Int) := k1.symm.trans (e (1 : Fin 2))
    exact ⟨e0, by exact_mod_cast e1⟩
  · rintro ⟨e0, e1⟩ a
    match a with
    | ⟨0, _⟩ => exact k0.trans e0
    | ⟨1, _⟩ =>
      refine k1.trans ?_
      show ((j 1).val : Int) = (c.val : Int)
      exact_mod_cast e1

end Literal

/-! ## Any dimension numbers with those four lists -/

section Rows
variable {N C E : Nat}

/-- The dimension numbers `d` are those of a row scatter: update axis 1 the window axis, operand axis 0 inserted,
    the start index's one component sent to operand axis 0, and the index vector on axis 1 of the scatter
    indices. -/
structure Rows (d : ScatterDims ⟨2, ![N, C]⟩ ⟨2, ![E, 1]⟩ ⟨2, ![E, C]⟩) : Prop where
  uw : d.updateWindowDims = [1]
  iw : d.insertedWindowDims = [0]
  sd : d.scatterDimsToOperandDims = [0]
  iv : d.indexVectorDim = 1

/-- For a row scatter, update index `j` lands on `(n, c)` exactly when the scatter index of row `j 0`, read
    signed, is `n` and `j`'s column is `c`. -/
theorem rows_resultIdx?_iff (d : ScatterDims ⟨2, ![N, C]⟩ ⟨2, ![E, 1]⟩ ⟨2, ![E, C]⟩) (h : Rows d) {w : Nat}
    (idx : IVec ⟨2, ![E, 1]⟩ w) (j : (⟨2, ![E, C]⟩ : Shape).Idx) (n : Fin N) (c : Fin C) :
    d.resultIdx? j idx = some (ix2 n c) ↔
      (idx (ix2 ⟨(j 0).val, (j 0).isLt⟩ (0 : Fin 1))).toInt = (n.val : Int) ∧ (j 1).val = c.val := by
  obtain ⟨uw, iw, sd, iv, wf⟩ := d
  obtain ⟨h1, h2, h3, h4⟩ := h
  dsimp only at h1 h2 h3 h4
  subst h1 h2 h3 h4
  exact rowDims_resultIdx?_iff wf idx j n c

/-- THE ACCUMULATING ROW SCATTER READ AT `(n, c)`: the operand there plus the sum, over the rows `e` of the updates
    whose scatter index read signed is `n`, of the update at `(e, c)`. Rows whose index is negative or at least
    `N` contribute to no position. -/
theorem scatterAdd_rows_apply (d : ScatterDims ⟨2, ![N, C]⟩ ⟨2, ![E, 1]⟩ ⟨2, ![E, C]⟩) (h : Rows d) {w : Nat}
    (x : (⟨2, ![N, C]⟩ : Shape).Idx → EReal) (idx : IVec ⟨2, ![E, 1]⟩ w)
    (upd : (⟨2, ![E, C]⟩ : Shape).Idx → EReal) (n : Fin N) (c : Fin C) :
    Ideal.hostScatterAdd d x idx upd (ix2 n c)
      = x (ix2 n c) + ∑ e ∈ Finset.univ.filter (fun e : Fin E => (idx (ix2 e (0 : Fin 1))).toInt = (n.val : Int)),
          upd (ix2 e c) := by
  unfold Ideal.hostScatterAdd
  congr 1
  symm
  refine Finset.sum_bij (fun e _ => ix2 e c) ?_ ?_ ?_ ?_
  · intro e he
    rw [Finset.mem_filter] at he ⊢
    exact ⟨Finset.mem_univ _, (rows_resultIdx?_iff d h idx (ix2 e c) n c).2 ⟨he.2, rfl⟩⟩
  · intro e₁ _ e₂ _ heq
    exact congrFun heq (0 : Fin 2)
  · intro j hj
    rw [Finset.mem_filter] at hj
    obtain ⟨h0, h1⟩ := (rows_resultIdx?_iff d h idx j n c).1 hj.2
    refine ⟨⟨(j 0).val, (j 0).isLt⟩, Finset.mem_filter.2 ⟨Finset.mem_univ _, h0⟩, ?_⟩
    funext a
    match a with
    | ⟨0, _⟩ => rfl
    | ⟨1, _⟩ => exact Fin.ext h1.symm
  · intro e _
    rfl

/-- The same reading of the host's accumulating scatter operation at the ideal instance. -/
theorem host_scatterAdd_rows_apply (d : ScatterDims ⟨2, ![N, C]⟩ ⟨2, ![E, 1]⟩ ⟨2, ![E, C]⟩) (h : Rows d) {w : Nat}
    (x : FVec Ideal ⟨2, ![N, C]⟩ .f32) (idx : IVec ⟨2, ![E, 1]⟩ w)
    (upd : FVec Ideal ⟨2, ![E, C]⟩ .f32) (n : Fin N) (c : Fin C) :
    Host.scatterAdd (F := Ideal) (φ := .f32) d x idx upd (ix2 n c)
      = x (ix2 n c) + ∑ e ∈ Finset.univ.filter (fun e : Fin E => (idx (ix2 e (0 : Fin 1))).toInt = (n.val : Int)),
          upd (ix2 e c) :=
  scatterAdd_rows_apply d h x idx upd n c

end Rows

end Cert.LibScatterRows
-- ==== Proof.Agg.lean ====
import proofs.«152683_j75462575391410_2_alg».proof.Proof.Gen.KernelIdeal
import proofs.«152683_j75462575391410_2_alg».proof.Proof.Gen.ReferenceIdeal.Read
import proofs.«152683_j75462575391410_2_alg».proof.Proof.LibScatterRows
import Idealize.ShloMosaic.Lib.ValueIdx
import Idealize.ShloMosaic.Lib.Pipeline.Value

/-!
# One scatter of two messages side by side against two scatters

Adding the rows of a 256-wide message array `[U | V]` into a zero array `[50000, 256]` at the rows the edge
targets name gives, in its left 128 columns, what adding the rows of `U` alone into a zero `[50000, 128]`
array gives, and in its right 128 columns what `V` alone gives: at `(n, c)` each is the sum, over the edges whose
target is `n`, of the message entry in column `c`; an edge whose target names no row contributes to neither.
-/

noncomputable section

namespace Cert.Agg

open Idealize.ShloMosaic Idealize.ShloMosaic.ValueIdx
open scoped BigOperators

/-- The left half. -/
theorem agg_left (idx : IVec Cert.KernelIdeal.S800000x1 32) (U V : FVec Ideal Cert.KernelIdeal.S800000x128 .f32)
    (hb : Cert.KernelIdeal.S_.BroadcastsInDim Cert.KernelIdeal.S50000x256 (![] : Fin 0 → Fin Cert.KernelIdeal.S50000x256.rank))
    (hc : Shape.Concatenates [Cert.KernelIdeal.S800000x128, Cert.KernelIdeal.S800000x128] Cert.KernelIdeal.S800000x256 1)
    (n : Fin 50000) (k : Fin 128) :
    Host.scatterAdd (F := Ideal) (φ := .f32) Cert.KernelIdeal.scatter_S50000x256_S800000x1_S800000x256_1_0_0_1
        (broadcastInDim Cert.KernelIdeal.S50000x256 ![] hb
          (constant (F := Ideal) Cert.KernelIdeal.S_ .f32 0x00000000#32)) idx
        (concatenate Cert.KernelIdeal.S800000x256 1 [⟨Cert.KernelIdeal.S800000x128, U⟩, ⟨Cert.KernelIdeal.S800000x128, V⟩]
          hc)
        (ix2 n (⟨k.val, by have := k.isLt; omega⟩ : Fin 256))
      = Host.scatterAdd (F := Ideal) (φ := .f32) Cert.ReferenceIdeal.scatter_S50000x128_S800000x1_S800000x128_1_0_0_1
          (Cert.ReferenceIdeal.Read.val_main_v68 (F := Ideal)) idx U (ix2 n k) := by
  rw [LibScatterRows.host_scatterAdd_rows_apply _ ⟨rfl, rfl, rfl, rfl⟩,
    LibScatterRows.host_scatterAdd_rows_apply _ ⟨rfl, rfl, rfl, rfl⟩]
  refine congrArg₂ (· + ·) rfl (Finset.sum_congr rfl fun e _ => ?_)
  exact concatenate_pair_apply_left (t := Cert.KernelIdeal.S800000x256) 1 U V hc _ rfl (ix2 e k) (fun b => by
    match b with
    | ⟨0, _⟩ => rfl
    | ⟨1, _⟩ => rfl)

/-- The right half. -/
theorem agg_right (idx : IVec Cert.KernelIdeal.S800000x1 32) (U V : FVec Ideal Cert.KernelIdeal.S800000x128 .f32)
    (hb : Cert.KernelIdeal.S_.BroadcastsInDim Cert.KernelIdeal.S50000x256 (![] : Fin 0 → Fin Cert.KernelIdeal.S50000x256.rank))
    (hc : Shape.Concatenates [Cert.KernelIdeal.S800000x128, Cert.KernelIdeal.S800000x128] Cert.KernelIdeal.S800000x256 1)
    (n : Fin 50000) (k : Fin 128) :
    Host.scatterAdd (F := Ideal) (φ := .f32) Cert.KernelIdeal.scatter_S50000x256_S800000x1_S800000x256_1_0_0_1
        (broadcastInDim Cert.KernelIdeal.S50000x256 ![] hb
          (constant (F := Ideal) Cert.KernelIdeal.S_ .f32 0x00000000#32)) idx
        (concatenate Cert.KernelIdeal.S800000x256 1 [⟨Cert.KernelIdeal.S800000x128, U⟩, ⟨Cert.KernelIdeal.S800000x128, V⟩]
          hc)
        (ix2 n (⟨128 + k.val, by have := k.isLt; omega⟩ : Fin 256))
      = Host.scatterAdd (F := Ideal) (φ := .f32) Cert.ReferenceIdeal.scatter_S50000x128_S800000x1_S800000x128_1_0_0_1
          (Cert.ReferenceIdeal.Read.val_main_v68 (F := Ideal)) idx V (ix2 n k) := by
  rw [LibScatterRows.host_scatterAdd_rows_apply _ ⟨rfl, rfl, rfl, rfl⟩,
    LibScatterRows.host_scatterAdd_rows_apply _ ⟨rfl, rfl, rfl, rfl⟩]
  refine congrArg₂ (· + ·) rfl (Finset.sum_congr rfl fun e _ => ?_)
  refine concatenate_pair_apply_right (t := Cert.KernelIdeal.S800000x256) 1 U V hc _ rfl rfl (ix2 e k) (fun b hb => ?_) ?_
  · match b with
    | ⟨0, _⟩ => rfl
    | ⟨1, _⟩ => exact absurd rfl hb
  · show k.val + 128 = 128 + k.val
    omega

end Cert.Agg

end
-- ==== Proof.KHost0.lean ====
import proofs.«152683_j75462575391410_2_alg».proof.Proof.Gen.KernelIdeal.Frame
import proofs.«152683_j75462575391410_2_alg».proof.Proof.Gen.ReferenceIdeal.Read
import proofs.«152683_j75462575391410_2_alg».proof.Proof.Agg
import Idealize.ShloMosaic.Lib.StableHlo.Run

/-!
# The arrays the first tiled kernel reads

The host operations before the first kernel leave, in the arrays its windows read, the 256-wide aggregation of
the scaled neighbour features, the features, and the first layer's weights and biases. The aggregation's left
and right halves are the reference's two aggregations (one scatter of two messages side by side against two
scatters); the other arrays are the reference's own slices of the arguments, the bias vectors laid out as one row.
The operations both programs share — the edge endpoints and the two normalised edge weights — are read once, as
the buffers after the first stretch of operations, and kept folded.
-/

set_option maxRecDepth 16384

noncomputable section

namespace Cert.KHost0
open Cert.KernelIdeal Cert.KernelIdeal.Gen
open Idealize.ShloMosaic Idealize.ShloMosaic.TcCoe Idealize.ShloMosaic.Tactic Idealize.ShloMosaic.ValueIdx
open Idealize.SL Idealize.SL.Sem
open Idealize.ShloMosaic.Pipeline (Dat Cfg Window cellOf)

open Idealize.ShloMosaic.StableHlo

variable (m : (ℓ : Loc nD τ sig) → Buf (Elt Ideal) ℓ) (ρ : Dev nD → PrngReg)

/-! ## Host operations run in two stretches -/

theorem after_append {Val : EltTy → Type} (l₁ l₂ : List (HloOp τ sig Val)) (V : Valuation τ sig Val) :
    StableHlo.after (l₁ ++ l₂) V = StableHlo.after l₂ (StableHlo.after l₁ V) := by
  induction l₁ generalizing V with
  | nil => rfl
  | cons op l ih => exact ih _

/-- The buffers after the operations both programs share: the edge endpoints and the two normalised edge weights. -/
def VA (c : Dev nD) : Valuation τ sig (Elt Ideal) := StableHlo.after (List.take 72 (hostOps0 (F := Ideal))) (W0 m ρ c)

theorem W1_split (c : Dev nD) : W1 m ρ c = StableHlo.after (List.drop 72 (hostOps0 (F := Ideal))) (VA m ρ c) := by
  show StableHlo.after hostOps0 (W0 m ρ c) = _
  unfold VA
  rw [← after_append, List.take_append_drop]

theorem VA_v1 (c : Dev nD) : VA m ρ c (Proc.devRef .tc main_v1) = Cert.ReferenceIdeal.Read.val_main_v1 (F := Ideal) (m ((c : Thread nD τ).loc main_arg1)) := by
  unfold VA; simp only [hostOps0, List.take_succ_cons, List.take_zero]; after_results_simp <;> rfl
theorem VA_v3 (c : Dev nD) : VA m ρ c (Proc.devRef .tc main_v3) = Cert.ReferenceIdeal.Read.val_main_v3 (F := Ideal) (m ((c : Thread nD τ).loc main_arg1)) := by
  unfold VA; simp only [hostOps0, List.take_succ_cons, List.take_zero]; after_results_simp <;> rfl
theorem VA_v32 (c : Dev nD) : VA m ρ c (Proc.devRef .tc main_v32) = Cert.ReferenceIdeal.Read.val_main_v32 (F := Ideal) (m ((c : Thread nD τ).loc main_arg1)) (m ((c : Thread nD τ).loc main_arg2)) := by
  unfold VA; simp only [hostOps0, List.take_succ_cons, List.take_zero]; after_results_simp <;> rfl
theorem VA_v57 (c : Dev nD) : VA m ρ c (Proc.devRef .tc main_v57) = Cert.ReferenceIdeal.Read.val_main_v57 (F := Ideal) (m ((c : Thread nD τ).loc main_arg1)) (m ((c : Thread nD τ).loc main_arg2)) := by
  unfold VA; simp only [hostOps0, List.take_succ_cons, List.take_zero]; after_results_simp <;> rfl
theorem VA_arg0 (c : Dev nD) : VA m ρ c (Proc.devRef .tc main_arg0) = (m ((c : Thread nD τ).loc main_arg0)) := by
  unfold VA; simp only [hostOps0, List.take_succ_cons, List.take_zero]; after_results_simp <;> rfl

/-! ## The arrays the first kernel's windows read -/

/-- The left half of the 256-wide aggregation is the reference's first aggregation. -/
theorem v76_left (c : Dev nD) (n : Fin 50000) (k : Fin 128) :
    V1 m ρ c main_v76 (ix2 n (⟨k.val, by have := k.isLt; omega⟩ : Fin 256))
      = Cert.ReferenceIdeal.Read.val_main_v70 (F := Ideal) (m ((c : Thread nD τ).loc main_arg0)) (m ((c : Thread nD τ).loc main_arg1)) (m ((c : Thread nD τ).loc main_arg2)) (ix2 n k) := by
  show W1 m ρ c (Proc.devRef .tc main_v76) _ = _
  rw [W1_split]
  have e1 := VA_v1 m ρ c
  have e3 := VA_v3 m ρ c
  have e32 := VA_v32 m ρ c
  have e0 := VA_arg0 m ρ c
  generalize VA m ρ c = X at e1 e3 e32 e0 ⊢
  simp only [hostOps0, List.drop_succ_cons, List.drop_zero]
  after_results_simp
  refine (Agg.agg_left _ _ _ _ _ n k).trans ?_
  after_results_simp
  rw [e1, e3, e32, e0]
  rfl

/-- The right half is the reference's second aggregation. -/
theorem v76_right (c : Dev nD) (n : Fin 50000) (k : Fin 128) :
    V1 m ρ c main_v76 (ix2 n (⟨128 + k.val, by have := k.isLt; omega⟩ : Fin 256))
      = Cert.ReferenceIdeal.Read.val_main_v76 (F := Ideal) (m ((c : Thread nD τ).loc main_arg0)) (m ((c : Thread nD τ).loc main_arg1)) (m ((c : Thread nD τ).loc main_arg2)) (ix2 n k) := by
  show W1 m ρ c (Proc.devRef .tc main_v76) _ = _
  rw [W1_split]
  have e1 := VA_v1 m ρ c
  have e3 := VA_v3 m ρ c
  have e57 := VA_v57 m ρ c
  have e0 := VA_arg0 m ρ c
  generalize VA m ρ c = X at e1 e3 e57 e0 ⊢
  simp only [hostOps0, List.drop_succ_cons, List.drop_zero]
  after_results_simp
  refine (Agg.agg_right _ _ _ _ _ n k).trans ?_
  after_results_simp
  rw [e1, e3, e57, e0]
  rfl

theorem V1_arg0 (c : Dev nD) : V1 m ρ c main_arg0 = (m ((c : Thread nD τ).loc main_arg0)) := by
  show StableHlo.after hostOps0 (W0 m ρ c) (Proc.devRef .tc main_arg0) = _
  after_results_simp <;> rfl
theorem V1_v78 (c : Dev nD) : V1 m ρ c main_v78 = Cert.ReferenceIdeal.Read.val_main_v78 (F := Ideal) (m ((c : Thread nD τ).loc main_arg3)) := by
  show StableHlo.after hostOps0 (W0 m ρ c) (Proc.devRef .tc main_v78) = _
  after_results_simp <;> rfl
theorem V1_v80 (c : Dev nD) : V1 m ρ c main_v80 = Cert.ReferenceIdeal.Read.val_main_v86 (F := Ideal) (m ((c : Thread nD τ).loc main_arg4)) := by
  show StableHlo.after hostOps0 (W0 m ρ c) (Proc.devRef .tc main_v80) = _
  after_results_simp <;> rfl
theorem V1_v82 (c : Dev nD) : V1 m ρ c main_v82 = Cert.ReferenceIdeal.Read.val_main_v95 (F := Ideal) (m ((c : Thread nD τ).loc main_arg5)) := by
  show StableHlo.after hostOps0 (W0 m ρ c) (Proc.devRef .tc main_v82) = _
  after_results_simp <;> rfl
theorem V1_v85 (c : Dev nD) : V1 m ρ c main_v85
    = shapeCast S1x128 (Cert.ReferenceIdeal.Read.val_main_v81 (F := Ideal) (m ((c : Thread nD τ).loc main_arg6))) Facts₀.shapeCasts_S128_S1x128 := by
  show StableHlo.after hostOps0 (W0 m ρ c) (Proc.devRef .tc main_v85) = _
  after_results_simp <;> rfl
theorem V1_v88 (c : Dev nD) : V1 m ρ c main_v88
    = shapeCast S1x128 (Cert.ReferenceIdeal.Read.val_main_v90 (F := Ideal) (m ((c : Thread nD τ).loc main_arg7))) Facts₀.shapeCasts_S128_S1x128 := by
  show StableHlo.after hostOps0 (W0 m ρ c) (Proc.devRef .tc main_v88) = _
  after_results_simp <;> rfl
theorem V1_v91 (c : Dev nD) : V1 m ρ c main_v91
    = shapeCast S1x128 (Cert.ReferenceIdeal.Read.val_main_v99 (F := Ideal) (m ((c : Thread nD τ).loc main_arg8))) Facts₀.shapeCasts_S128_S1x128 := by
  show StableHlo.after hostOps0 (W0 m ρ c) (Proc.devRef .tc main_v91) = _
  after_results_simp <;> rfl

end Cert.KHost0
end
-- ==== Proof.KVal.lean ====
import proofs.«152683_j75462575391410_2_alg».proof.Proof.Gen.KernelIdeal.Frame
import proofs.«152683_j75462575391410_2_alg».proof.Proof.Gen.ReferenceIdeal.Read
import proofs.«152683_j75462575391410_2_alg».proof.Proof.KBlocks
import proofs.«152683_j75462575391410_2_alg».proof.Proof.KPay
import proofs.«152683_j75462575391410_2_alg».proof.Proof.RefRow
import proofs.«152683_j75462575391410_2_alg».proof.Proof.KHost0
import Idealize.ShloMosaic.Lib.StableHlo.Run
import Idealize.ShloMosaic.Lib.ValueLayout

/-!
# The first tiled kernel's result is the reference's first layer

The host operations before the first kernel leave, in the arrays its windows read, the 256-wide aggregation of
the scaled neighbour features, the features, and the first layer's weights and biases. The aggregation's left
and right halves are the reference's two aggregations (one scatter of two messages side by side against two
scatters), the other arrays are the reference's own. Tile by tile the kernel body then computes, at row `r` of
tile `t`, the row function the reference computes at row `5000 t + r`; the ten tiles cover the array, so the
array the kernel writes is the reference's first layer.
-/

set_option maxRecDepth 16384

noncomputable section

namespace Cert.KVal
open Cert.KernelIdeal Cert.KernelIdeal.Gen
open Idealize.ShloMosaic Idealize.ShloMosaic.TcCoe Idealize.ShloMosaic.Tactic Idealize.ShloMosaic.ValueIdx
open Idealize.SL Idealize.SL.Sem
open Idealize.ShloMosaic.Pipeline (Dat Cfg Window cellOf)

open Idealize.ShloMosaic.StableHlo Cert.RowSpec

variable (m : (ℓ : Loc nD τ sig) → Buf (Elt Ideal) ℓ) (ρ : Dev nD → PrngReg)

open Cert.KHost0

/-! ## The first kernel, tile by tile -/

/-- The reference's first layer of the launch arguments. -/
def H1 (c : Dev nD) : (⟨Cert.ReferenceIdeal.S50000x128, .f32⟩ : BufTy).Contents (Elt Ideal) :=
  Cert.ReferenceIdeal.Read.val_main_v108 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8))

theorem hz : (![0, 0] : Fin 2 → Nat) = fun _ => 0 := funext fun a => by fin_cases a <;> rfl

/-- The left half of a 256-wide tile, read at `(r, k)`. -/
theorem ld_left {Val : EltTy → Type} {e : EltTy} (X : S5000x256.Idx → Val e) (r : Fin 5000) (k : Fin 128) :
    View.ld X r0_0 (ix2 r k) = X (ix2 r (⟨k.val, by have := k.isLt; omega⟩ : Fin 256)) :=
  congrArg X (funext fun a => Fin.ext (by
    match a with
    | ⟨0, _⟩ => show 0 + 1 * r.val = r.val; omega
    | ⟨1, _⟩ => show 0 + 1 * k.val = k.val; omega))

/-- The right half of a 256-wide tile, read at `(r, k)`. -/
theorem ld_right {Val : EltTy → Type} {e : EltTy} (X : S5000x256.Idx → Val e) (r : Fin 5000) (k : Fin 128) :
    View.ld X r0_1 (ix2 r k) = X (ix2 r (⟨128 + k.val, by have := k.isLt; omega⟩ : Fin 256)) :=
  congrArg X (funext fun a => Fin.ext (by
    match a with
    | ⟨0, _⟩ => show 0 + 1 * r.val = r.val; omega
    | ⟨1, _⟩ => show 128 + 1 * k.val = 128 + k.val; omega))

/-- Row `r` of tile `t`: the body's value there is the reference's first layer at row `5000 t + r`. -/
theorem tile0 (c : Dev nD) (t : Fin cfg0.N) (r : Fin 5000) (q : Fin 128) :
    k0_pay1 (F := Ideal)
        (k0_pay2 (View.ld (iblk0 (V1 m ρ) c 0 t) r0_0) (View.ld (iblk0 (V1 m ρ) c 0 t) r0_1) (iblk0 (V1 m ρ) c 1 t)
          (iblk0 (V1 m ρ) c 2 t) (iblk0 (V1 m ρ) c 3 t) (iblk0 (V1 m ρ) c 4 t)
          (iblk0 (V1 m ρ) c 5 t) (iblk0 (V1 m ρ) c 6 t) (iblk0 (V1 m ρ) c 7 t))
        (k0_pay3 (View.ld (iblk0 (V1 m ρ) c 0 t) r0_0) (View.ld (iblk0 (V1 m ρ) c 0 t) r0_1) (iblk0 (V1 m ρ) c 1 t)
          (iblk0 (V1 m ρ) c 2 t) (iblk0 (V1 m ρ) c 3 t) (iblk0 (V1 m ρ) c 4 t)
          (iblk0 (V1 m ρ) c 5 t) (iblk0 (V1 m ρ) c 6 t) (iblk0 (V1 m ρ) c 7 t)) (ix2 r q)
      = H1 m c (ix2 (KBlocks.rowOf0 t r) q) := by
  refine (KPay.body0_apply _ _ _ _ _ _ _ _ _ r q).trans ?_
  unfold H1
  rw [RefRow.layer1_apply]
  refine unit_congr (fun j => ?_) _ _ _ q
  rw [RefRow.pre1_apply]
  refine comb_congr (fun k => ?_) (fun k => ?_) (fun k => ?_) (fun k q => ?_) (fun k q => ?_) (fun k q => ?_)
    (fun q => ?_) (fun q => ?_) (fun q => ?_) j
  · rw [ld_left, KBlocks.blk0_0, v76_left]
  · rw [ld_right, KBlocks.blk0_0, v76_right]
  · rw [KBlocks.blk0_1, V1_arg0]
  · rw [KBlocks.blk0_2, V1_v78]
  · rw [KBlocks.blk0_3, V1_v80]
  · rw [KBlocks.blk0_4, V1_v82]
  · rw [KBlocks.blk0_5, V1_v85, shapeCast_a_1a_apply]
  · rw [KBlocks.blk0_6, V1_v88, shapeCast_a_1a_apply]
  · rw [KBlocks.blk0_7, V1_v91, shapeCast_a_1a_apply]

/-- WHAT TILE `t` WRITES BACK is tile `t` of the reference's first layer. -/
theorem flushed0 (c : Dev nD) (t : Fin cfg0.N) :
    (dat0 (V1 m ρ) c).flushed 8 t = ((cfg0.win 8).blk t).view.read (Elt Ideal) (H1 m c) := by
  show (cfg0.win 8).cut (grid0.coords t) ((dat0 (V1 m ρ) c).after 8 t) = _
  rw [after0_8]
  unfold out0_8
  rw [View.canon_unit_zero hz]
  simp only [View.ld_unit_zero (S := S5000x128) hz, View.ld_unit_zero (S := S128x128) hz, View.ld_unit_zero (S := S1x128) hz]
  funext y
  obtain ⟨r, q, rfl⟩ : ∃ (r : Fin 5000) (q : Fin 128), y = ix2 r q := ⟨y 0, y 1, eq_ix2 y⟩
  rw [View.read_apply, KBlocks.emb0_8]
  exact tile0 m ρ c t r q

/-- THE FIRST KERNEL'S ARRAY after its run is the reference's first layer. -/
theorem final0 (c : Dev nD) : (dat0 (V1 m ρ) c).arrAt 8 cfg0.N = H1 m c :=
  (dat0 (V1 m ρ) c).arrAt_eq_of_cover 8 (H1 m c) (fun t _ => flushed0 m ρ c t) (KBlocks.cover0_8 c)

end Cert.KVal
end
-- ==== Proof.KHostW1.lean ====
import proofs.«152683_j75462575391410_2_alg».proof.Proof.Gen.KernelIdeal.Frame
import proofs.«152683_j75462575391410_2_alg».proof.Proof.Gen.ReferenceIdeal.Read
import Idealize.ShloMosaic.Lib.StableHlo.Run

/-!
# What the second stretch of host operations starts from

The buffers the host operations between the two kernels read, other than the first kernel's result, were written
before the first kernel or are arguments: the edge endpoints, the two normalised edge weights (the reference's
own), and the argument arrays as launched.
-/

set_option maxRecDepth 16384

noncomputable section

namespace Cert.KHostW1
open Cert.KernelIdeal Cert.KernelIdeal.Gen
open Idealize.ShloMosaic Idealize.ShloMosaic.TcCoe Idealize.ShloMosaic.Tactic Idealize.ShloMosaic.ValueIdx
open Idealize.SL Idealize.SL.Sem
open Idealize.ShloMosaic.Pipeline (Dat Cfg Window cellOf)

open Idealize.ShloMosaic.StableHlo

variable (m : (ℓ : Loc nD τ sig) → Buf (Elt Ideal) ℓ) (ρ : Dev nD → PrngReg)

theorem W1_v1 (c : Dev nD) : W1 m ρ c (Proc.devRef .tc main_v1) = Cert.ReferenceIdeal.Read.val_main_v1 (F := Ideal) (m ((c : Thread nD τ).loc main_arg1)) := by
  show StableHlo.after hostOps0 (W0 m ρ c) (Proc.devRef .tc main_v1) = _
  after_results_simp <;> rfl
theorem W1_v3 (c : Dev nD) : W1 m ρ c (Proc.devRef .tc main_v3) = Cert.ReferenceIdeal.Read.val_main_v3 (F := Ideal) (m ((c : Thread nD τ).loc main_arg1)) := by
  show StableHlo.after hostOps0 (W0 m ρ c) (Proc.devRef .tc main_v3) = _
  after_results_simp <;> rfl
theorem W1_v32 (c : Dev nD) : W1 m ρ c (Proc.devRef .tc main_v32) = Cert.ReferenceIdeal.Read.val_main_v32 (F := Ideal) (m ((c : Thread nD τ).loc main_arg1)) (m ((c : Thread nD τ).loc main_arg2)) := by
  show StableHlo.after hostOps0 (W0 m ρ c) (Proc.devRef .tc main_v32) = _
  after_results_simp <;> rfl
theorem W1_v57 (c : Dev nD) : W1 m ρ c (Proc.devRef .tc main_v57) = Cert.ReferenceIdeal.Read.val_main_v57 (F := Ideal) (m ((c : Thread nD τ).loc main_arg1)) (m ((c : Thread nD τ).loc main_arg2)) := by
  show StableHlo.after hostOps0 (W0 m ρ c) (Proc.devRef .tc main_v57) = _
  after_results_simp <;> rfl
theorem W1_arg3 (c : Dev nD) : W1 m ρ c (Proc.devRef .tc main_arg3) = (m ((c : Thread nD τ).loc main_arg3)) := by
  show StableHlo.after hostOps0 (W0 m ρ c) (Proc.devRef .tc main_arg3) = _
  after_results_simp <;> rfl
theorem W1_arg4 (c : Dev nD) : W1 m ρ c (Proc.devRef .tc main_arg4) = (m ((c : Thread nD τ).loc main_arg4)) := by
  show StableHlo.after hostOps0 (W0 m ρ c) (Proc.devRef .tc main_arg4) = _
  after_results_simp <;> rfl
theorem W1_arg5 (c : Dev nD) : W1 m ρ c (Proc.devRef .tc main_arg5) = (m ((c : Thread nD τ).loc main_arg5)) := by
  show StableHlo.after hostOps0 (W0 m ρ c) (Proc.devRef .tc main_arg5) = _
  after_results_simp <;> rfl
theorem W1_arg6 (c : Dev nD) : W1 m ρ c (Proc.devRef .tc main_arg6) = (m ((c : Thread nD τ).loc main_arg6)) := by
  show StableHlo.after hostOps0 (W0 m ρ c) (Proc.devRef .tc main_arg6) = _
  after_results_simp <;> rfl
theorem W1_arg7 (c : Dev nD) : W1 m ρ c (Proc.devRef .tc main_arg7) = (m ((c : Thread nD τ).loc main_arg7)) := by
  show StableHlo.after hostOps0 (W0 m ρ c) (Proc.devRef .tc main_arg7) = _
  after_results_simp <;> rfl
theorem W1_arg8 (c : Dev nD) : W1 m ρ c (Proc.devRef .tc main_arg8) = (m ((c : Thread nD τ).loc main_arg8)) := by
  show StableHlo.after hostOps0 (W0 m ρ c) (Proc.devRef .tc main_arg8) = _
  after_results_simp <;> rfl
theorem W1_arg9 (c : Dev nD) : W1 m ρ c (Proc.devRef .tc main_arg9) = (m ((c : Thread nD τ).loc main_arg9)) := by
  show StableHlo.after hostOps0 (W0 m ρ c) (Proc.devRef .tc main_arg9) = _
  after_results_simp <;> rfl
theorem W1_arg10 (c : Dev nD) : W1 m ρ c (Proc.devRef .tc main_arg10) = (m ((c : Thread nD τ).loc main_arg10)) := by
  show StableHlo.after hostOps0 (W0 m ρ c) (Proc.devRef .tc main_arg10) = _
  after_results_simp <;> rfl

end Cert.KHostW1
end
-- ==== Proof.KHost1.lean ====
import proofs.«152683_j75462575391410_2_alg».proof.Proof.KVal
import proofs.«152683_j75462575391410_2_alg».proof.Proof.KHostW1

/-!
# The arrays the second tiled kernel reads

Between the two kernels the host aggregates again, now the first kernel's result — which is the reference's
first layer — scaled by the same edge weights, two messages side by side in one scatter. So the left and right
halves of the 256-wide array the second kernel reads are the reference's two second-layer aggregations; its
other windows read the first layer itself, the second layer's weights and biases, and the read-out matrix and
bias, each the reference's own slice of the arguments.
-/

set_option maxRecDepth 16384

noncomputable section

namespace Cert.KHost1
open Cert.KernelIdeal Cert.KernelIdeal.Gen
open Idealize.ShloMosaic Idealize.ShloMosaic.TcCoe Idealize.ShloMosaic.Tactic Idealize.ShloMosaic.ValueIdx
open Idealize.SL Idealize.SL.Sem
open Idealize.ShloMosaic.Pipeline (Dat Cfg Window cellOf)

open Idealize.ShloMosaic.StableHlo Cert.KVal

variable (m : (ℓ : Loc nD τ sig) → Buf (Elt Ideal) ℓ) (ρ : Dev nD → PrngReg)

/-! ## What the first kernel leaves -/

theorem W2_v92 (c : Dev nD) : W2 m ρ c (Proc.devRef .tc main_v92) = H1 m c :=
  (W2_arr m ρ c 8).trans (final0 m ρ c)

theorem W2_v1 (c : Dev nD) : W2 m ρ c (Proc.devRef .tc main_v1) = Cert.ReferenceIdeal.Read.val_main_v1 (F := Ideal) (m ((c : Thread nD τ).loc main_arg1)) :=
  (W2_of_ne m ρ c main_v1 (by decide)).trans (KHostW1.W1_v1 m ρ c)
theorem W2_v3 (c : Dev nD) : W2 m ρ c (Proc.devRef .tc main_v3) = Cert.ReferenceIdeal.Read.val_main_v3 (F := Ideal) (m ((c : Thread nD τ).loc main_arg1)) :=
  (W2_of_ne m ρ c main_v3 (by decide)).trans (KHostW1.W1_v3 m ρ c)
theorem W2_v32 (c : Dev nD) : W2 m ρ c (Proc.devRef .tc main_v32) = Cert.ReferenceIdeal.Read.val_main_v32 (F := Ideal) (m ((c : Thread nD τ).loc main_arg1)) (m ((c : Thread nD τ).loc main_arg2)) :=
  (W2_of_ne m ρ c main_v32 (by decide)).trans (KHostW1.W1_v32 m ρ c)
theorem W2_v57 (c : Dev nD) : W2 m ρ c (Proc.devRef .tc main_v57) = Cert.ReferenceIdeal.Read.val_main_v57 (F := Ideal) (m ((c : Thread nD τ).loc main_arg1)) (m ((c : Thread nD τ).loc main_arg2)) :=
  (W2_of_ne m ρ c main_v57 (by decide)).trans (KHostW1.W1_v57 m ρ c)
theorem W2_arg3 (c : Dev nD) : W2 m ρ c (Proc.devRef .tc main_arg3) = (m ((c : Thread nD τ).loc main_arg3)) :=
  (W2_of_ne m ρ c main_arg3 (by decide)).trans (KHostW1.W1_arg3 m ρ c)
theorem W2_arg4 (c : Dev nD) : W2 m ρ c (Proc.devRef .tc main_arg4) = (m ((c : Thread nD τ).loc main_arg4)) :=
  (W2_of_ne m ρ c main_arg4 (by decide)).trans (KHostW1.W1_arg4 m ρ c)
theorem W2_arg5 (c : Dev nD) : W2 m ρ c (Proc.devRef .tc main_arg5) = (m ((c : Thread nD τ).loc main_arg5)) :=
  (W2_of_ne m ρ c main_arg5 (by decide)).trans (KHostW1.W1_arg5 m ρ c)
theorem W2_arg6 (c : Dev nD) : W2 m ρ c (Proc.devRef .tc main_arg6) = (m ((c : Thread nD τ).loc main_arg6)) :=
  (W2_of_ne m ρ c main_arg6 (by decide)).trans (KHostW1.W1_arg6 m ρ c)
theorem W2_arg7 (c : Dev nD) : W2 m ρ c (Proc.devRef .tc main_arg7) = (m ((c : Thread nD τ).loc main_arg7)) :=
  (W2_of_ne m ρ c main_arg7 (by decide)).trans (KHostW1.W1_arg7 m ρ c)
theorem W2_arg8 (c : Dev nD) : W2 m ρ c (Proc.devRef .tc main_arg8) = (m ((c : Thread nD τ).loc main_arg8)) :=
  (W2_of_ne m ρ c main_arg8 (by decide)).trans (KHostW1.W1_arg8 m ρ c)
theorem W2_arg9 (c : Dev nD) : W2 m ρ c (Proc.devRef .tc main_arg9) = (m ((c : Thread nD τ).loc main_arg9)) :=
  (W2_of_ne m ρ c main_arg9 (by decide)).trans (KHostW1.W1_arg9 m ρ c)
theorem W2_arg10 (c : Dev nD) : W2 m ρ c (Proc.devRef .tc main_arg10) = (m ((c : Thread nD τ).loc main_arg10)) :=
  (W2_of_ne m ρ c main_arg10 (by decide)).trans (KHostW1.W1_arg10 m ρ c)

/-! ## The arrays the second kernel's windows read -/

/-- The left half of the second 256-wide aggregation is the reference's. -/
theorem v111_left (c : Dev nD) (n : Fin 50000) (k : Fin 128) :
    V3 m ρ c main_v111 (ix2 n (⟨k.val, by have := k.isLt; omega⟩ : Fin 256))
      = Cert.ReferenceIdeal.Read.val_main_v121 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (ix2 n k) := by
  show StableHlo.after hostOps1 (W2 m ρ c) (Proc.devRef .tc main_v111) _ = _
  have e92 := W2_v92 m ρ c
  have e1 := W2_v1 m ρ c
  have e3 := W2_v3 m ρ c
  have e32 := W2_v32 m ρ c
  generalize W2 m ρ c = X at e92 e1 e3 e32 ⊢
  after_results_simp
  refine (Agg.agg_left _ _ _ _ _ n k).trans ?_
  after_results_simp
  rw [e92, e1, e3, e32]
  unfold H1 Cert.ReferenceIdeal.Read.val_main_v121 Cert.ReferenceIdeal.Read.val_main_v118 Cert.ReferenceIdeal.Read.val_main_v115
  generalize Cert.ReferenceIdeal.Read.val_main_v108 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) = Y
  rfl

/-- The right half likewise. -/
theorem v111_right (c : Dev nD) (n : Fin 50000) (k : Fin 128) :
    V3 m ρ c main_v111 (ix2 n (⟨128 + k.val, by have := k.isLt; omega⟩ : Fin 256))
      = Cert.ReferenceIdeal.Read.val_main_v127 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (ix2 n k) := by
  show StableHlo.after hostOps1 (W2 m ρ c) (Proc.devRef .tc main_v111) _ = _
  have e92 := W2_v92 m ρ c
  have e1 := W2_v1 m ρ c
  have e3 := W2_v3 m ρ c
  have e57 := W2_v57 m ρ c
  generalize W2 m ρ c = X at e92 e1 e3 e57 ⊢
  after_results_simp
  refine (Agg.agg_right _ _ _ _ _ n k).trans ?_
  after_results_simp
  rw [e92, e1, e3, e57]
  unfold H1 Cert.ReferenceIdeal.Read.val_main_v127 Cert.ReferenceIdeal.Read.val_main_v124 Cert.ReferenceIdeal.Read.val_main_v115
  generalize Cert.ReferenceIdeal.Read.val_main_v108 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) = Y
  rfl

theorem V3_v92 (c : Dev nD) : V3 m ρ c main_v92 = H1 m c := by
  show StableHlo.after hostOps1 (W2 m ρ c) (Proc.devRef .tc main_v92) = _
  after_results_simp
  exact W2_v92 m ρ c
theorem V3_v113 (c : Dev nD) : V3 m ρ c main_v113 = Cert.ReferenceIdeal.Read.val_main_v129 (F := Ideal) (m ((c : Thread nD τ).loc main_arg3)) := by
  show StableHlo.after hostOps1 (W2 m ρ c) (Proc.devRef .tc main_v113) = _
  after_results_simp
  rw [W2_arg3]
  rfl
theorem V3_v115 (c : Dev nD) : V3 m ρ c main_v115 = Cert.ReferenceIdeal.Read.val_main_v137 (F := Ideal) (m ((c : Thread nD τ).loc main_arg4)) := by
  show StableHlo.after hostOps1 (W2 m ρ c) (Proc.devRef .tc main_v115) = _
  after_results_simp
  rw [W2_arg4]
  rfl
theorem V3_v117 (c : Dev nD) : V3 m ρ c main_v117 = Cert.ReferenceIdeal.Read.val_main_v146 (F := Ideal) (m ((c : Thread nD τ).loc main_arg5)) := by
  show StableHlo.after hostOps1 (W2 m ρ c) (Proc.devRef .tc main_v117) = _
  after_results_simp
  rw [W2_arg5]
  rfl
theorem V3_v120 (c : Dev nD) : V3 m ρ c main_v120 = shapeCast S1x128 (Cert.ReferenceIdeal.Read.val_main_v132 (F := Ideal) (m ((c : Thread nD τ).loc main_arg6))) Facts₀.shapeCasts_S128_S1x128 := by
  show StableHlo.after hostOps1 (W2 m ρ c) (Proc.devRef .tc main_v120) = _
  after_results_simp
  rw [W2_arg6]
  rfl
theorem V3_v123 (c : Dev nD) : V3 m ρ c main_v123 = shapeCast S1x128 (Cert.ReferenceIdeal.Read.val_main_v141 (F := Ideal) (m ((c : Thread nD τ).loc main_arg7))) Facts₀.shapeCasts_S128_S1x128 := by
  show StableHlo.after hostOps1 (W2 m ρ c) (Proc.devRef .tc main_v123) = _
  after_results_simp
  rw [W2_arg7]
  rfl
theorem V3_v126 (c : Dev nD) : V3 m ρ c main_v126 = shapeCast S1x128 (Cert.ReferenceIdeal.Read.val_main_v150 (F := Ideal) (m ((c : Thread nD τ).loc main_arg8))) Facts₀.shapeCasts_S128_S1x128 := by
  show StableHlo.after hostOps1 (W2 m ρ c) (Proc.devRef .tc main_v126) = _
  after_results_simp
  rw [W2_arg8]
  rfl
theorem V3_arg9 (c : Dev nD) : V3 m ρ c main_arg9 = (m ((c : Thread nD τ).loc main_arg9)) := by
  show StableHlo.after hostOps1 (W2 m ρ c) (Proc.devRef .tc main_arg9) = _
  after_results_simp
  exact W2_arg9 m ρ c
theorem V3_v127 (c : Dev nD) : V3 m ρ c main_v127 = shapeCast S1x64 (m ((c : Thread nD τ).loc main_arg10)) Facts₀.shapeCasts_S64_S1x64 := by
  show StableHlo.after hostOps1 (W2 m ρ c) (Proc.devRef .tc main_v127) = _
  after_results_simp
  rw [W2_arg10]
  rfl

end Cert.KHost1
end
-- ==== Proof.KRun.lean ====
import proofs.«152683_j75462575391410_2_alg».proof.Proof.Gen.KernelIdeal.Frame

/-!
# The idealized kernel program's run, with its result named

The program is four stretches: host operations, the first tiled kernel, host operations, the second tiled kernel.
Its run from any launch memory terminates without a fault; here the final state is read at the result buffer too:
it holds what the second kernel's write-backs leave there, and every argument buffer holds what it was launched
with.
-/

set_option maxRecDepth 16384

noncomputable section

namespace Cert.KRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The whole run with the result array named: every weakly fair execution terminates, nothing faulting, with
    the result buffer at the contents the second kernel's write-backs leave and the arguments as launched. -/
theorem run_value : θ_run defs (onTc (τ := τ) (main (F := F))) ⟨m, fun _ => 0, ρ⟩ (fun r => ∀ c : Dev nD,
      r.2.mem ((c.tc : Thread nD τ).loc main_v128) = W4 m ρ c (Proc.devRef .tc main_v128)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c =>
      ⟨h c _ (mem_uc main_v128 (by decide)),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c),
       (h c _ (mem_uc main_arg5 (by decide))).trans (W4_main_arg5 m ρ c),
       (h c _ (mem_uc main_arg6 (by decide))).trans (W4_main_arg6 m ρ c),
       (h c _ (mem_uc main_arg7 (by decide))).trans (W4_main_arg7 m ρ c),
       (h c _ (mem_uc main_arg8 (by decide))).trans (W4_main_arg8 m ρ c),
       (h c _ (mem_uc main_arg9 (by decide))).trans (W4_main_arg9 m ρ c),
       (h c _ (mem_uc main_arg10 (by decide))).trans (W4_main_arg10 m ρ c)⟩)

end Cert.KRun

end
-- ==== Proof.KVal2.lean ====
import proofs.«152683_j75462575391410_2_alg».proof.Proof.KHost1
import proofs.«152683_j75462575391410_2_alg».proof.Proof.KRun

/-!
# The second tiled kernel's result is the reference's result

Tile by tile the second kernel body computes, at row `r` of tile `t`, the read-out of the combined row of row
`5000 t + r` of the second aggregation and of the first layer: the reference's result at that row. The ten
tiles cover the result array, so the whole run of the kernel program ends with the reference's result in the
result buffer.
-/

set_option maxRecDepth 16384

noncomputable section

namespace Cert.KVal2
open Cert.KernelIdeal Cert.KernelIdeal.Gen
open Idealize.ShloMosaic Idealize.ShloMosaic.TcCoe Idealize.ShloMosaic.Tactic Idealize.ShloMosaic.ValueIdx
open Idealize.SL Idealize.SL.Sem
open Idealize.ShloMosaic.Pipeline (Dat Cfg Window cellOf)

open Idealize.ShloMosaic.StableHlo Cert.RowSpec Cert.KVal Cert.KHost1

variable (m : (ℓ : Loc nD τ sig) → Buf (Elt Ideal) ℓ) (ρ : Dev nD → PrngReg)

/-- The reference's result of the launch arguments. -/
def H2 (c : Dev nD) : (⟨Cert.ReferenceIdeal.S50000x64, .f32⟩ : BufTy).Contents (Elt Ideal) :=
  Cert.ReferenceIdeal.Read.val_main_v157 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10))

/-- Row `r` of tile `t`: the second body's value there is the reference's result at row `5000 t + r`. -/
theorem tile1 (c : Dev nD) (t : Fin cfg1.N) (r : Fin 5000) (o : Fin 64) :
    k1_pay1 (F := Ideal)
        (k1_pay2 (View.ld (iblk1 (V3 m ρ) c 0 t) r1_0) (View.ld (iblk1 (V3 m ρ) c 0 t) r1_1) (iblk1 (V3 m ρ) c 1 t)
          (iblk1 (V3 m ρ) c 2 t) (iblk1 (V3 m ρ) c 3 t) (iblk1 (V3 m ρ) c 4 t)
          (iblk1 (V3 m ρ) c 5 t) (iblk1 (V3 m ρ) c 6 t) (iblk1 (V3 m ρ) c 7 t))
        (iblk1 (V3 m ρ) c 8 t) (iblk1 (V3 m ρ) c 9 t) (ix2 r o)
      = H2 m c (ix2 (KBlocks.rowOf1 t r) o) := by
  refine (KPay.body1_apply _ _ _ _ _ _ _ _ _ _ _ r o).trans ?_
  unfold H2
  rw [RefRow.result_apply]
  refine readout_congr (fun j => ?_) (fun k o => ?_) (fun o => ?_) o
  · rw [RefRow.pre2_apply]
    refine comb_congr (fun k => ?_) (fun k => ?_) (fun k => ?_) (fun k q => ?_) (fun k q => ?_) (fun k q => ?_)
      (fun q => ?_) (fun q => ?_) (fun q => ?_) j
    · rw [ld_left, KBlocks.blk1_0, v111_left]
    · rw [ld_right, KBlocks.blk1_0, v111_right]
    · rw [KBlocks.blk1_1, V3_v92]; rfl
    · rw [KBlocks.blk1_2, V3_v113]
    · rw [KBlocks.blk1_3, V3_v115]
    · rw [KBlocks.blk1_4, V3_v117]
    · rw [KBlocks.blk1_5, V3_v120, shapeCast_a_1a_apply]
    · rw [KBlocks.blk1_6, V3_v123, shapeCast_a_1a_apply]
    · rw [KBlocks.blk1_7, V3_v126, shapeCast_a_1a_apply]
  · rw [KBlocks.blk1_8, V3_arg9]
  · rw [KBlocks.blk1_9, V3_v127, shapeCast_a_1a_apply]

/-- For any contents on entry: if every tile's rows are rows of one array `G`, tile `t`'s write-back is tile `t` of `G`. -/
theorem flushed1_of (V : (c : Dev nD) → (b : Ref sig .tc) → Buf (Elt Ideal) ((c : Thread nD τ).loc b)) (c : Dev nD)
    (G : (⟨Cert.ReferenceIdeal.S50000x64, .f32⟩ : BufTy).Contents (Elt Ideal))
    (htile : ∀ (t : Fin cfg1.N) (r : Fin 5000) (o : Fin 64),
      k1_pay1 (F := Ideal)
          (k1_pay2 (View.ld (iblk1 V c 0 t) r1_0) (View.ld (iblk1 V c 0 t) r1_1) (iblk1 V c 1 t)
            (iblk1 V c 2 t) (iblk1 V c 3 t) (iblk1 V c 4 t) (iblk1 V c 5 t) (iblk1 V c 6 t) (iblk1 V c 7 t))
          (iblk1 V c 8 t) (iblk1 V c 9 t) (ix2 r o)
        = G (ix2 (KBlocks.rowOf1 t r) o))
    (t : Fin cfg1.N) :
    (dat1 V c).flushed 10 t = ((cfg1.win 10).blk t).view.read (Elt Ideal) G := by
  show (cfg1.win 10).cut (grid1.coords t) ((dat1 V c).after 10 t) = _
  rw [after1_10]
  unfold out1_10
  rw [View.canon_unit_zero hz]
  simp only [View.ld_unit_zero (S := S5000x128) hz, View.ld_unit_zero (S := S128x128) hz, View.ld_unit_zero (S := S1x128) hz,
    View.ld_unit_zero (S := S128x64) hz, View.ld_unit_zero (S := S1x64) hz]
  funext y
  obtain ⟨r, o, rfl⟩ : ∃ (r : Fin 5000) (o : Fin 64), y = ix2 r o := ⟨y 0, y 1, eq_ix2 y⟩
  rw [View.read_apply, KBlocks.emb1_10]
  exact htile t r o

/-- WHAT TILE `t` WRITES BACK is tile `t` of the reference's result. -/
theorem flushed1 (c : Dev nD) (t : Fin cfg1.N) :
    (dat1 (V3 m ρ) c).flushed 10 t = ((cfg1.win 10).blk t).view.read (Elt Ideal) (H2 m c) :=
  flushed1_of (V3 m ρ) c (H2 m c) (tile1 m ρ c) t

/-- THE SECOND KERNEL'S ARRAY after its run is the reference's result. -/
theorem final1 (c : Dev nD) : (dat1 (V3 m ρ) c).arrAt 10 cfg1.N = H2 m c :=
  (dat1 (V3 m ρ) c).arrAt_eq_of_cover 10 (H2 m c) (fun t _ => flushed1 m ρ c t) (KBlocks.cover1_10 c)

/-- THE KERNEL PROGRAM'S RUN: it ends with the reference's result of the launch arguments in the result buffer, the
    arguments unchanged. -/
theorem run : θ_run defs (onTc (τ := τ) (main (F := Ideal))) ⟨m, fun _ => 0, ρ⟩ (fun r => ∀ c : Dev nD,
      r.2.mem ((c.tc : Thread nD τ).loc main_v128) = H2 m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun r h c => ⟨(h c).1.trans ((W4_arr m ρ c 10).trans (final1 m ρ c)), (h c).2⟩)
    (Cert.KRun.run_value m ρ)

end Cert.KVal2
end
-- ==== Proof.lean ====
/- The two programs compute the same graph network: two layers, each aggregating the neighbours' features along the
   edges with the two normalised edge weights, multiplying the two aggregations and the node's own features by the
   layer's three weight matrices and adding three biases; the first layer is then clipped at zero and divided by its
   row's length, and the second is read out through one more matrix. The kernel program aggregates the two scaled
   messages side by side in one scatter, runs each layer's matrix work in tiles of 5000 nodes, and adds the three
   biases after the three products; the reference scatters twice, works on whole arrays, and adds each bias right after
   its product. Over the extended reals none of this changes a value: a scatter of two messages side by side is two
   scatters (Agg), a tile of a product is the product's rows (KPay, RefRow), addition is commutative and associative
   (RowSpec.comb_interleaved), and a change of float format is the identity. KVal shows the first kernel's array is the
   reference's first layer, KHost1 and KVal2 that the second kernel's array is the reference's result. -/
import proofs.«152683_j75462575391410_2_alg».proof.Defs
import proofs.«152683_j75462575391410_2_alg».proof.Proof.Gen.Kernel
import proofs.«152683_j75462575391410_2_alg».proof.Proof.Gen.Kernel.Skeleton
import proofs.«152683_j75462575391410_2_alg».proof.Proof.Gen.Kernel.Launch
import proofs.«152683_j75462575391410_2_alg».proof.Proof.Gen.Kernel.Points
import proofs.«152683_j75462575391410_2_alg».proof.Proof.Gen.Kernel.Frame
import proofs.«152683_j75462575391410_2_alg».proof.Proof.Gen.KernelIdeal
import proofs.«152683_j75462575391410_2_alg».proof.Proof.Gen.KernelIdeal.Skeleton
import proofs.«152683_j75462575391410_2_alg».proof.Proof.Gen.KernelIdeal.Launch
import proofs.«152683_j75462575391410_2_alg».proof.Proof.Gen.KernelIdeal.Points
import proofs.«152683_j75462575391410_2_alg».proof.Proof.Gen.KernelIdeal.Frame
import proofs.«152683_j75462575391410_2_alg».proof.Proof.Gen.ReferenceIdeal
import proofs.«152683_j75462575391410_2_alg».proof.Proof.Gen.ReferenceIdeal.Run
import proofs.«152683_j75462575391410_2_alg».proof.Proof.Gen.ReferenceIdeal.Read
import proofs.«152683_j75462575391410_2_alg».proof.Proof.Gen.Pre_finite_inputs
import proofs.«152683_j75462575391410_2_alg».proof.Proof.KVal2
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

/-- The reference's run with its result dropped. -/
theorem frame_ri : Cert.frame_ReferenceIdeal := fun m ρ _ =>
  (θ_run Cert.ReferenceIdeal.defs _ _).mono (fun _ h c => (h c).2) (Cert.ReferenceIdeal.Value.run (F := Ideal) m ρ)

/-- Both programs end with the reference's result of the kernel program's launch arguments: the kernel program by
    `KVal2.run`, the reference by its own run from arguments that agree. -/
theorem algebraic : Cert.algebraic_KernelIdeal_ReferenceIdeal := by
  intro m ρ m' ρ' _ hagree
  refine ⟨fun c => Cert.KVal2.H2 m c, Cert.KVal2.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v157_eq]
  obtain ⟨e0, e1, e2, e3, e4, e5, e6, e7, e8, e9, e10⟩ := hagree c
  rw [e0, e1, e2, e3, e4, e5, e6, e7, e8, e9, e10]
  rfl

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
